-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768 : Shape := ⟨1, ![32768]⟩
abbrev S2x524288 : Shape := ⟨2, ![2, 524288]⟩
abbrev S3x128x128 : Shape := ⟨3, ![3, 128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part2 {F : FTy → Type} [FloatOps F] (main_arg9 : FVec F S_ .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg6 : FVec F S128 .f32) (main_arg7 : FVec F S128x64 .f32) (main_arg8 : FVec F S64 .f32) (main_arg9 : FVec F S_ .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S32768x128 .f32) (main_arg1 : IVec S32768 32) (main_arg2 : IVec S2x524288 32) (main_arg3 : FVec F S3x128x128 .f32) (main_arg4 : FVec F S128 .f32) (main_arg5 : FVec F S3x128x128 .f32) (main_arg6 : FVec F S128 .f32) (main_arg7 : FVec F S128x64 .f32) (main_arg8 : FVec F S64 .f32) (main_arg9 : FVec F S_ .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_v13 main_v16
-- ==== Kernel.lean ====
abbrev S32768x128 : Shape := ⟨2, ![32768, 128]⟩
abbrev S32768 : Shape := ⟨1, ![32768]⟩
abbrev S2x524288 : Shape := ⟨2, ![2, 524288]⟩
abbrev S3x128x128 : Shape := ⟨3, ![3, 128, 128]⟩
abbrev S128 : Shape := ⟨1, ![128]⟩
abbrev S128x64 : Shape := ⟨2, ![128, 64]⟩
abbrev S64 : Shape := ⟨1, ![64]⟩
abbrev S_ : Shape := ⟨0, ![]⟩
abbrev S1x524288 : Shape := ⟨2, ![1, 524288]⟩
abbrev S524288 : Shape := ⟨1, ![524288]⟩
abbrev S512x512 : Shape := ⟨2, ![512, 512]⟩
abbrev S1x512x512 : Shape := ⟨3, ![1, 512, 512]⟩
abbrev S64x512x512 : Shape := ⟨3, ![64, 512, 512]⟩
abbrev S524288x1 : Shape := ⟨2, ![524288, 1]⟩
abbrev S524288x3 : Shape := ⟨2, ![524288, 3]⟩
abbrev S64x512x128 : Shape := ⟨3, ![64, 512, 128]⟩
abbrev S64x128x512 : Shape := ⟨3, ![64, 128, 512]⟩
abbrev S1x128x1 : Shape := ⟨3, ![1, 128, 1]⟩
abbrev S1x64 : Shape := ⟨2, ![1, 64]⟩
abbrev S64x64 : Shape := ⟨2, ![64, 64]⟩
abbrev S8x512x512 : Shape := ⟨3, ![8, 512, 512]⟩
abbrev S8x128x512 : Shape := ⟨3, ![8, 128, 512]⟩
abbrev S8x64 : Shape := ⟨2, ![8, 64]⟩
abbrev S1x128x128 : Shape := ⟨3, ![1, 128, 128]⟩
abbrev S128x128 : Shape := ⟨2, ![128, 128]⟩
abbrev S8x128x128 : Shape := ⟨3, ![8, 128, 128]⟩
abbrev S8x128 : Shape := ⟨2, ![8, 128]⟩

abbrev nBuf : Space → Nat
  | .hbm => 128
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S2x524288, .i32⟩
  | .hbm, ⟨3, _⟩ => ⟨S3x128x128, .f32⟩
  | .hbm, ⟨4, _⟩ => ⟨S128, .f32⟩
  | .hbm, ⟨5, _⟩ => ⟨S3x128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1x524288, .i32⟩
  | .hbm, ⟨11, _⟩ => ⟨S524288, .i32⟩
  | .hbm, ⟨12, _⟩ => ⟨S1x524288, .i32⟩
  | .hbm, ⟨13, _⟩ => ⟨S524288, .i32⟩
  | .hbm, ⟨14, _⟩ => ⟨S_, .i32⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i1⟩
  | .hbm, ⟨22, _⟩ => ⟨S524288, .i32⟩
  | .hbm, ⟨23, _⟩ => ⟨S524288, .i32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S512x512, .i32⟩
  | .hbm, ⟨33, _⟩ => ⟨S512x512, .i32⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S512x512, .f32⟩
  | .hbm, ⟨39, _⟩ => ⟨S_, .f32⟩
  | .hbm, ⟨40, _⟩ => ⟨S_, .f32⟩
  | .hbm, ⟨41, _⟩ => ⟨S1x512x512, .f32⟩
  | .hbm, ⟨42, _⟩ => ⟨S1x512x512, .f32⟩
  | .hbm, ⟨43, _⟩ => ⟨S1x512x512, .f32⟩
  | .hbm, ⟨44, _⟩ => ⟨S64x512x512, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S_, .i32⟩
  | .hbm, ⟨54, _⟩ => ⟨S524288, .i32⟩
  | .hbm, ⟨55, _⟩ => ⟨S524288, .i1⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S_, .i32⟩
  | .hbm, ⟨60, _⟩ => ⟨S_, .i1⟩
  | .hbm, ⟨61, _⟩ => ⟨S524288, .i1⟩
  | .hbm, ⟨62, _⟩ => ⟨S524288, .i1⟩
  | .hbm, ⟨63, _⟩ => ⟨S524288, .i1⟩
  | .hbm, ⟨64, _⟩ => ⟨S524288, .i32⟩
  | .hbm, ⟨65, _⟩ => ⟨S524288, .i32⟩
  | .hbm, ⟨66, _⟩ => ⟨S524288, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S524288, .i32⟩
  | .hbm, ⟨74, _⟩ => ⟨S524288, .i32⟩
  | .hbm, ⟨75, _⟩ => ⟨S_, .i32⟩
  | .hbm, ⟨76, _⟩ => ⟨S524288, .i32⟩
  | .hbm, ⟨77, _⟩ => ⟨S524288, .i1⟩
  | .hbm, ⟨78, _⟩ => ⟨S_, .i32⟩
  | .hbm, ⟨79, _⟩ => ⟨S524288, .i32⟩
  | .hbm, ⟨80, _⟩ => ⟨S524288, .i1⟩
  | .hbm, ⟨81, _⟩ => ⟨S_, .i32⟩
  | .hbm, ⟨82, _⟩ => ⟨S_, .i1⟩
  | .hbm, ⟨83, _⟩ => ⟨S524288, .i1⟩
  | .hbm, ⟨84, _⟩ => ⟨S524288, .i1⟩
  | .hbm, ⟨85, _⟩ => ⟨S524288, .i1⟩
  | .hbm, ⟨86, _⟩ => ⟨S524288, .i32⟩
  | .hbm, ⟨87, _⟩ => ⟨S524288, .i32⟩
  | .hbm, ⟨88, _⟩ => ⟨S524288, .i32⟩
  | .hbm, ⟨89, _⟩ => ⟨S_, .i32⟩
  | .hbm, ⟨90, _⟩ => ⟨S524288, .i32⟩
  | .hbm, ⟨91, _⟩ => ⟨S524288, .i1⟩
  | .hbm, ⟨92, _⟩ => ⟨S_, .i32⟩
  | .hbm, ⟨93, _⟩ => ⟨S524288, .i32⟩
  | .hbm, ⟨94, _⟩ => ⟨S524288, .i32⟩
  | .hbm, ⟨95, _⟩ => ⟨S524288, .i32⟩
  | .hbm, ⟨96, _⟩ => ⟨S_, .i32⟩
  | .hbm, ⟨97, _⟩ => ⟨S524288, .i32⟩
  | .hbm, ⟨98, _⟩ => ⟨S524288, .i1⟩
  | .hbm, ⟨99, _⟩ => ⟨S_, .i32⟩
  | .hbm, ⟨100, _⟩ => ⟨S524288, .i32⟩
  | .hbm, ⟨101, _⟩ => ⟨S524288, .i32⟩
  | .hbm, ⟨102, _⟩ => ⟨S524288, .i32⟩
  | .hbm, ⟨103, _⟩ => ⟨S_, .i32⟩
  | .hbm, ⟨104, _⟩ => ⟨S524288, .i32⟩
  | .hbm, ⟨105, _⟩ => ⟨S524288, .i1⟩
  | .hbm, ⟨106, _⟩ => ⟨S_, .i32⟩
  | .hbm, ⟨107, _⟩ => ⟨S524288, .i32⟩
  | .hbm, ⟨108, _⟩ => ⟨S524288, .i32⟩
  | .hbm, ⟨109, _⟩ => ⟨S524288, .i32⟩
  | .hbm, ⟨110, _⟩ => ⟨S524288x1, .i32⟩
  | .hbm, ⟨111, _⟩ => ⟨S524288x1, .i32⟩
  | .hbm, ⟨112, _⟩ => ⟨S524288x1, .i32⟩
  | .hbm, ⟨113, _⟩ => ⟨S524288x3, .i32⟩
  | .hbm, ⟨114, _⟩ => ⟨S524288, .f32⟩
  | .hbm, ⟨115, _⟩ => ⟨S64x512x512, .f32⟩
  | .hbm, ⟨116, _⟩ => ⟨S64x512x512, .bf16⟩
  | .hbm, ⟨117, _⟩ => ⟨S64x512x128, .f32⟩
  | .hbm, ⟨118, _⟩ => ⟨S64x128x512, .f32⟩
  | .hbm, ⟨119, _⟩ => ⟨S3x128x128, .f32⟩
  | .hbm, ⟨120, _⟩ => ⟨S3x128x128, .bf16⟩
  | .hbm, ⟨121, _⟩ => ⟨S3x128x128, .f32⟩
  | .hbm, ⟨122, _⟩ => ⟨S3x128x128, .bf16⟩
  | .hbm, ⟨123, _⟩ => ⟨S128x64, .bf16⟩
  | .hbm, ⟨124, _⟩ => ⟨S1x128x1, .f32⟩
  | .hbm, ⟨125, _⟩ => ⟨S1x128x1, .f32⟩
  | .hbm, ⟨126, _⟩ => ⟨S1x64, .f32⟩
  | .hbm, ⟨127, _⟩ => ⟨S64x64, .f32⟩
  | .local _ .vmem, ⟨0, _⟩ => ⟨S8x512x512, .bf16⟩
  | .local _ .vmem, ⟨1, _⟩ => ⟨S8x512x512, .bf16⟩
  | .local _ .vmem, ⟨2, _⟩ => ⟨S8x128x512, .f32⟩
  | .local _ .vmem, ⟨3, _⟩ => ⟨S8x128x512, .f32⟩
  | .local _ .vmem, ⟨4, _⟩ => ⟨S3x128x128, .bf16⟩
  | .local _ .vmem, ⟨5, _⟩ => ⟨S1x128x1, .f32⟩
  | .local _ .vmem, ⟨6, _⟩ => ⟨S3x128x128, .bf16⟩
  | .local _ .vmem, ⟨7, _⟩ => ⟨S1x128x1, .f32⟩
  | .local _ .vmem, ⟨8, _⟩ => ⟨S128x64, .bf16⟩
  | .local _ .vmem, ⟨9, _⟩ => ⟨S1x64, .f32⟩
  | .local _ .vmem, ⟨10, _⟩ => ⟨S8x64, .f32⟩
  | .local _ .vmem, ⟨11, _⟩ => ⟨S8x64, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_1 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v16 : Ref sig .tc := ⟨.hbm, 66, rfl⟩
abbrev main_c_2 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_v5 : Ref sig .tc := ⟨.hbm, 76, rfl⟩
abbrev main_call2_v6 : Ref sig .tc := ⟨.hbm, 77, rfl⟩
abbrev main_call2_c_2 : Ref sig .tc := ⟨.hbm, 78, rfl⟩
abbrev main_call2_v7 : Ref sig .tc := ⟨.hbm, 79, rfl⟩
abbrev main_call2_v8 : Ref sig .tc := ⟨.hbm, 80, rfl⟩
abbrev main_call2_c_3 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_v17 : Ref sig .tc := ⟨.hbm, 88, rfl⟩
abbrev main_c_3 : Ref sig .tc := ⟨.hbm, 89, rfl⟩
abbrev main_v18 : Ref sig .tc := ⟨.hbm, 90, rfl⟩
abbrev main_v19 : Ref sig .tc := ⟨.hbm, 91, rfl⟩
abbrev main_c_4 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_c_5 : Ref sig .tc := ⟨.hbm, 96, rfl⟩
abbrev main_v23 : Ref sig .tc := ⟨.hbm, 97, rfl⟩
abbrev main_v24 : Ref sig .tc := ⟨.hbm, 98, rfl⟩
abbrev main_c_6 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_c_7 : Ref sig .tc := ⟨.hbm, 103, rfl⟩
abbrev main_v28 : Ref sig .tc := ⟨.hbm, 104, rfl⟩
abbrev main_v29 : Ref sig .tc := ⟨.hbm, 105, rfl⟩
abbrev main_c_8 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1x512x512_S64x512x512_0_1_2 : S1x512x512.BroadcastsInDim S64x512x512 (![0, 1, 2] : Fin 3 → Fin S64x512x512.rank)
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  bitsLt_bf16_f32 : FTy.bits .bf16 < FTy.bits .f32
  shapeCasts_S32768x128_S64x512x128 : S32768x128.ShapeCasts S64x512x128
  transposes_S64x512x128_S64x128x512_0_2_1 : S64x512x128.Transposes [0, 2, 1] S64x128x512
  transposes_S3x128x128_S3x128x128_0_2_1 : S3x128x128.Transposes [0, 2, 1] S3x128x128
  shapeCasts_S128_S1x128x1 : S128.ShapeCasts S1x128x1
  shapeCasts_S64_S1x64 : S64.ShapeCasts S1x64
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  slices_S3x128x128_o0_0_0_S1x128x128 : S3x128x128.Slices ![0, 0, 0] S1x128x128
  shapeCasts_S1x128x128_S128x128 : S1x128x128.ShapeCasts S128x128
  shapeCasts_S128x128_S1x128x128 : S128x128.ShapeCasts S1x128x128
  shapeCasts_S1x128x128_S1x128x128 : S1x128x128.ShapeCasts S1x128x128
  broadcasts_S1x128x128_S8x128x128 : S1x128x128.Broadcasts S8x128x128
  slices_S3x128x128_o1_0_0_S1x128x128 : S3x128x128.Slices ![1, 0, 0] S1x128x128
  slices_S3x128x128_o2_0_0_S1x128x128 : S3x128x128.Slices ![2, 0, 0] S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S8x128x512 : S1x128x1.Broadcasts S8x128x512
  reduces_S8x128x512_S8x128 : S8x128x512.Reduces [2] S8x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  inb_S8x64_S8x64_0_0 : ∀ a, (![0, 0] : Fin 2 → Nat) a + S8x64.size a ≤ S8x64.size a
  h_S8x64 : 0 < S8x64.numel
  scatter_S64x512x512_S524288x3_S524288_n_012_012_1_wf : ScatterDims.WF S64x512x512 S524288x3 S524288 [] [0, 1, 2] [0, 1, 2] 1
  dot_S8x128x128_S8x128x512_S8x128x512_2_1_1_2_0_0_wf : DotDims.WF S8x128x128 S8x128x512 S8x128x512 [2] [1] [1] [2] [0] [0]
  dot_S8x128x512_S8x512x512_S8x128x512_2_1_1_2_0_0_wf : DotDims.WF S8x128x512 S8x512x512 S8x128x512 [2] [1] [1] [2] [0] [0]
  dot_S8x128_S128x64_S8x64_1_0_0_1_n_n_wf : DotDims.WF S8x128 S128x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .bf16 = 32 ∨ (Rect.block (s := S64x512x512) S8x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S64x128x512.size a
  hwx0_1 : ∀ i : grid0.Coords, EltTy.bits .f32 = 32 ∨ (Rect.block (s := S64x128x512) S8x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .bf16 = 32 ∨ (Rect.block (s := S3x128x128) S3x128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S1x128x1.size a
  hwx0_3 : ∀ i : grid0.Coords, EltTy.bits .f32 = 32 ∨ (Rect.block (s := S1x128x1) S1x128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .bf16 = 32 ∨ (Rect.block (s := S3x128x128) S3x128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S1x128x1.size a
  hwx0_5 : ∀ i : grid0.Coords, EltTy.bits .f32 = 32 ∨ (Rect.block (s := S1x128x1) S1x128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S64x64.size a
  hwx0_8 : ∀ i : grid0.Coords, EltTy.bits .f32 = 32 ∨ (Rect.block (s := S64x64) S8x64.size (cc0_transform_8 i) (hinb0_8 i)).WholeWords (EltTy.packing .f32)

variable [Facts₀]

def scatter_S64x512x512_S524288x3_S524288_n_012_012_1 : ScatterDims S64x512x512 S524288x3 S524288 where
  updateWindowDims := []
  insertedWindowDims := [0, 1, 2]
  scatterDimsToOperandDims := [0, 1, 2]
  indexVectorDim := 1
  wf := scatter_S64x512x512_S524288x3_S524288_n_012_012_1_wf
def dot_S8x128x128_S8x128x512_S8x128x512_2_1_1_2_0_0 : DotDims S8x128x128 S8x128x512 S8x128x512 where
  lhsContracting := [2]
  rhsContracting := [1]
  lhsNonContracting := [1]
  rhsNonContracting := [2]
  lhsBatch := [0]
  rhsBatch := [0]
  wf := dot_S8x128x128_S8x128x512_S8x128x512_2_1_1_2_0_0_wf
def dot_S8x128x512_S8x512x512_S8x128x512_2_1_1_2_0_0 : DotDims S8x128x512 S8x512x512 S8x128x512 where
  lhsContracting := [2]
  rhsContracting := [1]
  lhsNonContracting := [1]
  rhsNonContracting := [2]
  lhsBatch := [0]
  rhsBatch := [0]
  wf := dot_S8x128x512_S8x512x512_S8x128x512_2_1_1_2_0_0_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf

abbrev win0_0 : Pipeline.Window sig grid0 :=
  Pipeline.Window.ofSpec (Memref.whole main_v39) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768 : Shape := ⟨1, ![32768]⟩
abbrev S2x524288 : Shape := ⟨2, ![2, 524288]⟩
abbrev S3x128x128 : Shape := ⟨3, ![3, 128, 128]⟩
abbrev S128 : Shape := ⟨1, ![128]⟩
abbrev S128x64 : Shape := ⟨2, ![128, 64]⟩
abbrev S64 : Shape := ⟨1, ![64]⟩
abbrev S_ : Shape := ⟨0, ![]⟩
abbrev S1x524288 : Shape := ⟨2, ![1, 524288]⟩
abbrev S524288 : Shape := ⟨1, ![524288]⟩
abbrev S64x512x512 : Shape := ⟨3, ![64, 512, 512]⟩
abbrev S524288x1 : Shape := ⟨2, ![524288, 1]⟩
abbrev S524288x3 : Shape := ⟨2, ![524288, 3]⟩
abbrev S512x512 : Shape := ⟨2, ![512, 512]⟩
abbrev S1x512x512 : Shape := ⟨3, ![1, 512, 512]⟩
abbrev S64x512x128 : Shape := ⟨3, ![64, 512, 128]⟩
abbrev S1x128x128 : Shape := ⟨3, ![1, 128, 128]⟩
abbrev S128x128 : Shape := ⟨2, ![128, 128]⟩
abbrev S1x1x128 : Shape := ⟨3, ![1, 1, 128]⟩
abbrev S64x128 : Shape := ⟨2, ![64, 128]⟩
abbrev S64x64 : Shape := ⟨2, ![64, 64]⟩
abbrev S1x64 : Shape := ⟨2, ![1, 64]⟩

abbrev nBuf : Space → Nat
  | .hbm => 167
  | .vmem => 0
  | .smem => 0
  | _ => 0

abbrev hbmTy0_0 (i : Nat) : BufTy := match i % 128 with
  | 0 => ⟨S32768x128, .f32⟩
  | 1 => ⟨S32768, .i32⟩
  | 2 => ⟨S2x524288, .i32⟩
  | 3 => ⟨S3x128x128, .f32⟩
  | 4 => ⟨S128, .f32⟩
  | 5 => ⟨S3x128x128, .f32⟩
  | 6 => ⟨S128, .f32⟩
  | 7 => ⟨S128x64, .f32⟩
  | 8 => ⟨S64, .f32⟩
  | 9 => ⟨S_, .f32⟩
  | 10 => ⟨S1x524288, .i32⟩
  | 11 => ⟨S524288, .i32⟩
  | 12 => ⟨S1x524288, .i32⟩
  | 13 => ⟨S524288, .i32⟩
  | 14 => ⟨S_, .i32⟩
  | 15 => ⟨S_, .i32⟩
  | 16 => ⟨S524288, .i32⟩
  | 17 => ⟨S524288, .i32⟩
  | 18 => ⟨S524288, .i32⟩
  | 19 => ⟨S_, .i32⟩
  | 20 => ⟨S524288, .i32⟩
  | 21 => ⟨S524288, .i1⟩
  | 22 => ⟨S524288, .i32⟩
  | 23 => ⟨S524288, .i32⟩
  | 24 => ⟨S_, .i32⟩
  | 25 => ⟨S524288, .i32⟩
  | 26 => ⟨S524288, .i1⟩
  | 27 => ⟨S524288, .i1⟩
  | 28 => ⟨S_, .i32⟩
  | 29 => ⟨S524288, .i32⟩
  | 30 => ⟨S524288, .i32⟩
  | 31 => ⟨S524288, .i32⟩
  | 32 => ⟨S_, .f32⟩
  | 33 => ⟨S64x512x512, .f32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S524288, .i32⟩
  | 41 => ⟨S524288, .i32⟩
  | 42 => ⟨S_, .i32⟩
  | 43 => ⟨S524288, .i32⟩
  | 44 => ⟨S524288, .i1⟩
  | 45 => ⟨S_, .i32⟩
  | 46 => ⟨S524288, .i32⟩
  | 47 => ⟨S524288, .i1⟩
  | 48 => ⟨S_, .i32⟩
  | 49 => ⟨S_, .i1⟩
  | 50 => ⟨S524288, .i1⟩
  | 51 => ⟨S524288, .i1⟩
  | 52 => ⟨S524288, .i1⟩
  | 53 => ⟨S524288, .i32⟩
  | 54 => ⟨S524288, .i32⟩
  | 55 => ⟨S524288, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S524288, .i32⟩
  | 63 => ⟨S524288, .i32⟩
  | 64 => ⟨S_, .i32⟩
  | 65 => ⟨S524288, .i32⟩
  | 66 => ⟨S524288, .i1⟩
  | 67 => ⟨S_, .i32⟩
  | 68 => ⟨S524288, .i32⟩
  | 69 => ⟨S524288, .i1⟩
  | 70 => ⟨S_, .i32⟩
  | 71 => ⟨S_, .i1⟩
  | 72 => ⟨S524288, .i1⟩
  | 73 => ⟨S524288, .i1⟩
  | 74 => ⟨S524288, .i1⟩
  | 75 => ⟨S524288, .i32⟩
  | 76 => ⟨S524288, .i32⟩
  | 77 => ⟨S524288, .i32⟩
  | 78 => ⟨S_, .i32⟩
  | 79 => ⟨S524288, .i32⟩
  | 80 => ⟨S524288, .i1⟩
  | 81 => ⟨S_, .i32⟩
  | 82 => ⟨S524288, .i32⟩
  | 83 => ⟨S524288, .i32⟩
  | 84 => ⟨S524288, .i32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x1, .i32⟩
  | 101 => ⟨S524288x1, .i32⟩
  | 102 => ⟨S524288x3, .i32⟩
  | 103 => ⟨S_, .f32⟩
  | 104 => ⟨S524288, .f32⟩
  | 105 => ⟨S64x512x512, .f32⟩
  | 106 => ⟨S64x512x512, .f32⟩
  | 107 => ⟨S64x512x512, .f32⟩
  | 108 => ⟨S_, .f32⟩
  | 109 => ⟨S_, .f32⟩
  | 110 => ⟨S512x512, .i32⟩
  | 111 => ⟨S512x512, .i32⟩
  | 112 => ⟨S_, .i32⟩
  | 113 => ⟨S512x512, .i32⟩
  | 114 => ⟨S512x512, .i32⟩
  | 115 => ⟨S512x512, .i1⟩
  | 116 => ⟨S512x512, .f32⟩
  | 117 => ⟨S512x512, .f32⟩
  | 118 => ⟨S512x512, .f32⟩
  | 119 => ⟨S1x512x512, .f32⟩
  | 120 => ⟨S64x512x512, .f32⟩
  | 121 => ⟨S64x512x512, .f32⟩
  | 122 => ⟨S64x512x128, .f32⟩
  | 123 => ⟨S1x128x128, .f32⟩
  | 124 => ⟨S128x128, .f32⟩
  | 125 => ⟨S64x512x128, .f32⟩
  | 126 => ⟨S64x512x128, .f32⟩
  | 127 => ⟨S1x128x128, .f32⟩
  | _ => ⟨S32768x128, .f32⟩

abbrev hbmTy0_1 (i : Nat) : BufTy := match i % 128 with
  | 0 => ⟨S128x128, .f32⟩
  | 1 => ⟨S64x512x128, .f32⟩
  | 2 => ⟨S64x512x128, .f32⟩
  | 3 => ⟨S64x512x128, .f32⟩
  | 4 => ⟨S1x128x128, .f32⟩
  | 5 => ⟨S128x128, .f32⟩
  | 6 => ⟨S64x512x128, .f32⟩
  | 7 => ⟨S64x512x128, .f32⟩
  | 8 => ⟨S1x1x128, .f32⟩
  | 9 => ⟨S64x512x128, .f32⟩
  | 10 => ⟨S64x512x128, .f32⟩
  | 11 => ⟨S_, .f32⟩
  | 12 => ⟨S64x512x128, .f32⟩
  | 13 => ⟨S64x512x128, .f32⟩
  | 14 => ⟨S1x128x128, .f32⟩
  | 15 => ⟨S128x128, .f32⟩
  | 16 => ⟨S64x512x128, .f32⟩
  | 17 => ⟨S64x512x128, .f32⟩
  | 18 => ⟨S1x128x128, .f32⟩
  | 19 => ⟨S128x128, .f32⟩
  | 20 => ⟨S64x512x128, .f32⟩
  | 21 => ⟨S64x512x128, .f32⟩
  | 22 => ⟨S64x512x128, .f32⟩
  | 23 => ⟨S1x128x128, .f32⟩
  | 24 => ⟨S128x128, .f32⟩
  | 25 => ⟨S64x512x128, .f32⟩
  | 26 => ⟨S64x512x128, .f32⟩
  | 27 => ⟨S1x1x128, .f32⟩
  | 28 => ⟨S64x512x128, .f32⟩
  | 29 => ⟨S64x512x128, .f32⟩
  | 30 => ⟨S_, .f32⟩
  | 31 => ⟨S64x512x128, .f32⟩
  | 32 => ⟨S64x512x128, .f32⟩
  | 33 => ⟨S_, .f32⟩
  | 34 => ⟨S64x128, .f32⟩
  | 35 => ⟨S64x64, .f32⟩
  | 36 => ⟨S1x64, .f32⟩
  | 37 => ⟨S64x64, .f32⟩
  | 38 => ⟨S64x64, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v6 : Ref sig .tc := ⟨.hbm, 55, rfl⟩
abbrev main_c_1 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v7 : Ref sig .tc := ⟨.hbm, 77, rfl⟩
abbrev main_c_2 : Ref sig .tc := ⟨.hbm, 78, rfl⟩
abbrev main_v8 : Ref sig .tc := ⟨.hbm, 79, rfl⟩
abbrev main_v9 : Ref sig .tc := ⟨.hbm, 80, rfl⟩
abbrev main_c_3 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_c_4 : Ref sig .tc := ⟨.hbm, 85, rfl⟩
abbrev main_v13 : Ref sig .tc := ⟨.hbm, 86, rfl⟩
abbrev main_v14 : Ref sig .tc := ⟨.hbm, 87, rfl⟩
abbrev main_c_5 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_c_6 : Ref sig .tc := ⟨.hbm, 92, rfl⟩
abbrev main_v18 : Ref sig .tc := ⟨.hbm, 93, rfl⟩
abbrev main_v19 : Ref sig .tc := ⟨.hbm, 94, rfl⟩
abbrev main_c_7 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_cst_8 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_cst_9 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_c_10 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_call3_cst : Ref sig .tc := ⟨.hbm, 139, rfl⟩
abbrev main_call3_v0 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_call4_cst : Ref sig .tc := ⟨.hbm, 158, rfl⟩
abbrev main_call4_v0 : Ref sig .tc := ⟨.hbm, 159, rfl⟩
abbrev main_v77 : Ref sig .tc := ⟨.hbm, 160, rfl⟩
abbrev main_cst_11 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S64x512x512 : S_.BroadcastsInDim S64x512x512 (![] : Fin 0 → Fin S64x512x512.rank)
  bcast_S524288_S524288x1_0 : S524288.BroadcastsInDim S524288x1 (![0] : Fin 1 → Fin S524288x1.rank)
  concatenates_S524288x1_S524288x1_S524288x1_S524288x3_d1 : Shape.Concatenates [S524288x1, S524288x1, S524288x1] S524288x3 1
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  shapeCasts_S32768x128_S64x512x128 : S32768x128.ShapeCasts S64x512x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x1x128_2 : S128.BroadcastsInDim S1x1x128 (![2] : Fin 1 → Fin S1x1x128.rank)
  bcast_S1x1x128_S64x512x128_0_1_2 : S1x1x128.BroadcastsInDim S64x512x128 (![0, 1, 2] : Fin 3 → Fin S64x512x128.rank)
  bcast_S_S64x512x128 : S_.BroadcastsInDim S64x512x128 (![] : Fin 0 → Fin S64x512x128.rank)
  reducesTo_S64x512x128_S64x128_d1 : S64x512x128.ReducesTo [1] S64x128
  h_S_ : 0 < S_.numel
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S64x512x512_S524288x3_S524288_n_012_012_1_wf : ScatterDims.WF S64x512x512 S524288x3 S524288 [] [0, 1, 2] [0, 1, 2] 1
  dot_S64x512x128_S128x128_S64x512x128_2_0_01_1_n_n_wf : DotDims.WF S64x512x128 S128x128 S64x512x128 [2] [0] [0, 1] [1] [] []
  dot_S64x512x512_S64x512x128_S64x512x128_2_1_1_2_0_0_wf : DotDims.WF S64x512x512 S64x512x128 S64x512x128 [2] [1] [1] [2] [0] [0]
  dot_S64x128_S128x64_S64x64_1_0_0_1_n_n_wf : DotDims.WF S64x128 S128x64 S64x64 [1] [0] [0] [1] [] []

variable [Facts₀]

def scatter_S64x512x512_S524288x3_S524288_n_012_012_1 : ScatterDims S64x512x512 S524288x3 S524288 where
  updateWindowDims := []
  insertedWindowDims := [0, 1, 2]
  scatterDimsToOperandDims := [0, 1, 2]
  indexVectorDim := 1
  wf := scatter_S64x512x512_S524288x3_S524288_n_012_012_1_wf
def dot_S64x512x128_S128x128_S64x512x128_2_0_01_1_n_n : DotDims S64x512x128 S128x128 S64x512x128 where
  lhsContracting := [2]
  rhsContracting := [0]
  lhsNonContracting := [0, 1]
  rhsNonContracting := [1]
  lhsBatch := []
  rhsBatch := []
  wf := dot_S64x512x128_S128x128_S64x512x128_2_0_01_1_n_n_wf
def dot_S64x512x512_S64x512x128_S64x512x128_2_1_1_2_0_0 : DotDims S64x512x512 S64x512x128 S64x512x128 where
  lhsContracting := [2]
  rhsContracting := [1]
  lhsNonContracting := [1]
  rhsNonContracting := [2]
  lhsBatch := [0]
  rhsBatch := [0]
  wf := dot_S64x512x512_S64x512x128_S64x512x128_2_1_1_2_0_0_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.FrameKernel.lean ====
import proofs.«104581_j39402029973528_2_alg».proof.Proof.Gen.Kernel.Launch
import proofs.«104581_j39402029973528_2_alg».proof.Proof.Gen.Kernel.Skeleton
import proofs.«104581_j39402029973528_2_alg».proof.Proof.Gen.Kernel.Points
import Idealize.ShloMosaic.Lib.Pipeline.FrameBody
import Idealize.ShloMosaic.Lib.Ring
import Idealize.ShloMosaic.Lib.Tactic

/-!
# The frame of the graph-convolution program: it runs to the end, faults nowhere, keeps its arguments

The program is a long stretch of host operations (the transposed adjacency built by a scatter-add, the
transposes and reshapes of the features, weights and biases), then ONE pipelined kernel over eight groups of
eight graphs. The kernel's body loads its eight input blocks whole, computes, and stores its one output block
whole; so after the body the output's staging buffer holds one pure function of the eight input blocks
(`outBlock`), every input block is found where its array has it, and the arguments, which no host
operation and no window writes, end as they were launched. At any float instance.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- A core's buffers when the kernel is entered: the launch memory after every host operation. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program is the host operations, then the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- A window's block at a grid point, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose post has every buffer outside the windows as the kernel found it: no argument is a
    window's array, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## What the body leaves in the output window's buffer -/

abbrev rS : Rect S8x512x512 := Rect.unit (s := S8x512x512) ![0, 0, 0] S8x512x512.size inb_S8x512x512_S8x512x512_0_0_0
abbrev rX : Rect S8x128x512 := Rect.unit (s := S8x128x512) ![0, 0, 0] S8x128x512.size inb_S8x128x512_S8x128x512_0_0_0
abbrev rW : Rect S3x128x128 := Rect.unit (s := S3x128x128) ![0, 0, 0] S3x128x128.size inb_S3x128x128_S3x128x128_0_0_0
abbrev rB : Rect S1x128x1 := Rect.unit (s := S1x128x1) ![0, 0, 0] S1x128x1.size inb_S1x128x1_S1x128x1_0_0_0
abbrev rO : Rect S128x64 := Rect.unit (s := S128x64) ![0, 0] S128x64.size inb_S128x64_S128x64_0_0
abbrev rC : Rect S1x64 := Rect.unit (s := S1x64) ![0, 0] S1x64.size inb_S1x64_S1x64_0_0
abbrev rR : Rect S8x64 := Rect.unit (s := S8x64) ![0, 0] S8x64.size inb_S8x64_S8x64_0_0

/-- The output block after the body, as one function of the eight input blocks: the one store's value. -/
def outBlock (x0 : Vec F S8x512x512 .bf16) (x1 : Vec F S8x128x512 .f32) (x2 : Vec F S3x128x128 .bf16) (x3 : Vec F S1x128x1 .f32)
    (x4 : Vec F S3x128x128 .bf16) (x5 : Vec F S1x128x1 .f32) (x6 : Vec F S128x64 .bf16) (x7 : Vec F S1x64 .f32) : Vec F S8x64 .f32 :=
  View.canon [⟨rR, k0_pay1 (k0_pay6 (k0_pay2 (View.ld x0 rS)) (k0_pay3 (View.ld x4 rW)) (k0_pay4 (View.ld x0 rS) (View.ld x1 rX) (View.ld x2 rW)) (k0_pay5 (View.ld x3 rB)) (View.ld x5 rB) (View.ld x6 rO)) (k0_pay7 (View.ld x7 rC))⟩]

/-- The one store covers the block. -/
theorem cover_out (p0 : Vec F S8x64 .f32) (y : S8x64.Idx) :
    ∃ pc ∈ ([⟨rR, p0⟩] : List (View.Piece (Elt F) S8x64 .f32)), y ∈ pc.1.set :=
  View.cover_of_tiled [⟨rR, p0⟩] S8x64.size (by rfl) y

/-! ## The body's triple -/

set_option maxHeartbeats 1000000 in
/-- The body on whole staging buffers, the inputs at contents `xW` and the output at anything, returns with the
    inputs as they were and the output at `outBlock` of the inputs. -/
theorem sound_kernel (c : Dev nD) (E : Set ℕ) (i : grid0.Coords)
    (arg1 : Memref sig .tc .vmem S8x512x512 .bf16) (harg1 : arg1.IsWhole) (arg2 : Memref sig .tc .vmem S8x128x512 .f32) (harg2 : arg2.IsWhole) (arg3 : Memref sig .tc .vmem S3x128x128 .bf16) (harg3 : arg3.IsWhole) (arg4 : Memref sig .tc .vmem S1x128x1 .f32) (harg4 : arg4.IsWhole) (arg5 : Memref sig .tc .vmem S3x128x128 .bf16) (harg5 : arg5.IsWhole) (arg6 : Memref sig .tc .vmem S1x128x1 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S8x64 .f32) (harg9 : arg9.IsWhole)
    (x0 : Vec F S8x512x512 .bf16) (x1 : Vec F S8x128x512 .f32) (x2 : Vec F S3x128x128 .bf16) (x3 : Vec F S1x128x1 .f32) (x4 : Vec F S3x128x128 .bf16) (x5 : Vec F S1x128x1 .f32) (x6 : Vec F S128x64 .bf16) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gcn_kernel_T i arg1 harg1 arg2 harg2 arg3 harg3 arg4 harg4 arg5 harg5 arg6 harg6 arg7 harg7 arg8 harg8 arg9 harg9) K := by
  simp only [cc0__gcn_kernel_T_eq_skeleton]; unfold cc0__gcn_kernel_T_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

/-! ## The pipeline's proof data -/

/-- The arrays as the kernel finds them; after the body at a point each input's buffer at its block and the
    output's at `outBlock` of the input blocks; nothing of the kernel's own, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, with every window's array at what the write-backs leave and every
    other buffer as the kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Frm

end
-- ==== Proof.FrameKernelIdeal.lean ====
import proofs.«104581_j39402029973528_2_alg».proof.Proof.Gen.KernelIdeal.Launch
import proofs.«104581_j39402029973528_2_alg».proof.Proof.Gen.KernelIdeal.Skeleton
import proofs.«104581_j39402029973528_2_alg».proof.Proof.Gen.KernelIdeal.Points
import Idealize.ShloMosaic.Lib.Pipeline.FrameBody
import Idealize.ShloMosaic.Lib.Ring
import Idealize.ShloMosaic.Lib.Tactic

/-!
# The frame of the graph-convolution program: it runs to the end, faults nowhere, keeps its arguments

The program is a long stretch of host operations (the transposed adjacency built by a scatter-add, the
transposes and reshapes of the features, weights and biases), then ONE pipelined kernel over eight groups of
eight graphs. The kernel's body loads its eight input blocks whole, computes, and stores its one output block
whole; so after the body the output's staging buffer holds one pure function of the eight input blocks
(`outBlock`), every input block is found where its array has it, and the arguments, which no host
operation and no window writes, end as they were launched. At any float instance.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- A core's buffers when the kernel is entered: the launch memory after every host operation. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program is the host operations, then the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- A window's block at a grid point, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose post has every buffer outside the windows as the kernel found it: no argument is a
    window's array, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## What the body leaves in the output window's buffer -/

abbrev rS : Rect S8x512x512 := Rect.unit (s := S8x512x512) ![0, 0, 0] S8x512x512.size inb_S8x512x512_S8x512x512_0_0_0
abbrev rX : Rect S8x128x512 := Rect.unit (s := S8x128x512) ![0, 0, 0] S8x128x512.size inb_S8x128x512_S8x128x512_0_0_0
abbrev rW : Rect S3x128x128 := Rect.unit (s := S3x128x128) ![0, 0, 0] S3x128x128.size inb_S3x128x128_S3x128x128_0_0_0
abbrev rB : Rect S1x128x1 := Rect.unit (s := S1x128x1) ![0, 0, 0] S1x128x1.size inb_S1x128x1_S1x128x1_0_0_0
abbrev rO : Rect S128x64 := Rect.unit (s := S128x64) ![0, 0] S128x64.size inb_S128x64_S128x64_0_0
abbrev rC : Rect S1x64 := Rect.unit (s := S1x64) ![0, 0] S1x64.size inb_S1x64_S1x64_0_0
abbrev rR : Rect S8x64 := Rect.unit (s := S8x64) ![0, 0] S8x64.size inb_S8x64_S8x64_0_0

/-- The output block after the body, as one function of the eight input blocks: the one store's value. -/
def outBlock (x0 : Vec F S8x512x512 .bf16) (x1 : Vec F S8x128x512 .f32) (x2 : Vec F S3x128x128 .bf16) (x3 : Vec F S1x128x1 .f32)
    (x4 : Vec F S3x128x128 .bf16) (x5 : Vec F S1x128x1 .f32) (x6 : Vec F S128x64 .bf16) (x7 : Vec F S1x64 .f32) : Vec F S8x64 .f32 :=
  View.canon [⟨rR, k0_pay1 (k0_pay6 (k0_pay2 (View.ld x0 rS)) (k0_pay3 (View.ld x4 rW)) (k0_pay4 (View.ld x0 rS) (View.ld x1 rX) (View.ld x2 rW)) (k0_pay5 (View.ld x3 rB)) (View.ld x5 rB) (View.ld x6 rO)) (k0_pay7 (View.ld x7 rC))⟩]

/-- The one store covers the block. -/
theorem cover_out (p0 : Vec F S8x64 .f32) (y : S8x64.Idx) :
    ∃ pc ∈ ([⟨rR, p0⟩] : List (View.Piece (Elt F) S8x64 .f32)), y ∈ pc.1.set :=
  View.cover_of_tiled [⟨rR, p0⟩] S8x64.size (by rfl) y

/-! ## The body's triple -/

set_option maxHeartbeats 1000000 in
/-- The body on whole staging buffers, the inputs at contents `xW` and the output at anything, returns with the
    inputs as they were and the output at `outBlock` of the inputs. -/
theorem sound_kernel (c : Dev nD) (E : Set ℕ) (i : grid0.Coords)
    (arg1 : Memref sig .tc .vmem S8x512x512 .bf16) (harg1 : arg1.IsWhole) (arg2 : Memref sig .tc .vmem S8x128x512 .f32) (harg2 : arg2.IsWhole) (arg3 : Memref sig .tc .vmem S3x128x128 .bf16) (harg3 : arg3.IsWhole) (arg4 : Memref sig .tc .vmem S1x128x1 .f32) (harg4 : arg4.IsWhole) (arg5 : Memref sig .tc .vmem S3x128x128 .bf16) (harg5 : arg5.IsWhole) (arg6 : Memref sig .tc .vmem S1x128x1 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S8x64 .f32) (harg9 : arg9.IsWhole)
    (x0 : Vec F S8x512x512 .bf16) (x1 : Vec F S8x128x512 .f32) (x2 : Vec F S3x128x128 .bf16) (x3 : Vec F S1x128x1 .f32) (x4 : Vec F S3x128x128 .bf16) (x5 : Vec F S1x128x1 .f32) (x6 : Vec F S128x64 .bf16) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gcn_kernel_T i arg1 harg1 arg2 harg2 arg3 harg3 arg4 harg4 arg5 harg5 arg6 harg6 arg7 harg7 arg8 harg8 arg9 harg9) K := by
  simp only [cc0__gcn_kernel_T_eq_skeleton]; unfold cc0__gcn_kernel_T_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

/-! ## The pipeline's proof data -/

/-- The arrays as the kernel finds them; after the body at a point each input's buffer at its block and the
    output's at `outBlock` of the input blocks; nothing of the kernel's own, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, with every window's array at what the write-backs leave and every
    other buffer as the kernel found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Frm

end
-- ==== Proof.GcnSpec.lean ====
/-
  The polynomial graph-convolution network on the extended reals, node-major and feature-major.

  Per graph `b`: an aggregation `(A X)(i, f) = Σ m, A(i, m) · X(m, f)`, a projection `(X W)(i, g) = Σ f, X(i, f) · W(f, g)`,
  a layer `relu(X W₀ + (A X) W₁ + (A (A X)) W₂ + bias)`, the maximum over a graph's nodes, and the output projection.
  The feature-major form carries every node array transposed (`XT(f, i) = X(i, f)`), multiplies by the transposed
  adjacency from the right and by the transposed weights from the left; entry by entry it is the node-major form with the
  two factors of every product swapped, so the two agree on all extended reals (commutativity of the product only).
-/
import Idealize.ShloMosaic.PureOps.Ideal.Laws

noncomputable section

namespace Gcn

open Finset

variable {B n Fi Fo : ℕ}

/-- Aggregation over a graph's nodes. -/
def agg (A : Fin B → Fin n → Fin n → EReal) (X : Fin B → Fin n → Fin Fi → EReal) : Fin B → Fin n → Fin Fi → EReal :=
  fun b i f => ∑ m, A b i m * X b m f

/-- Projection of the features. -/
def proj (X : Fin B → Fin n → Fin Fi → EReal) (W : Fin Fi → Fin Fo → EReal) : Fin B → Fin n → Fin Fo → EReal :=
  fun b i g => ∑ f, X b i f * W f g

/-- One layer: the degree-two polynomial filter, the bias, the rectifier. -/
def layer (A : Fin B → Fin n → Fin n → EReal) (X : Fin B → Fin n → Fin Fi → EReal) (W : Fin 3 → Fin Fi → Fin Fo → EReal)
    (bias : Fin Fo → EReal) : Fin B → Fin n → Fin Fo → EReal :=
  fun b i g => max (((proj X (W 0) b i g + proj (agg A X) (W 1) b i g) + proj (agg A (agg A X)) (W 2) b i g) + bias g) 0

/-- The maximum over a graph's nodes, from `⊥`. -/
def pool (X : Fin B → Fin n → Fin Fo → EReal) : Fin B → Fin Fo → EReal :=
  fun b g => (univ : Finset (Fin n)).fold max ⊥ (fun i => X b i g)

/-- The output projection. -/
def readout (P : Fin B → Fin Fi → EReal) (W : Fin Fi → Fin Fo → EReal) (bias : Fin Fo → EReal) : Fin B → Fin Fo → EReal :=
  fun b o => (∑ g, P b g * W g o) + bias o

/-- The whole network. -/
def net {F0 F1 F2 F3 : ℕ} (A : Fin B → Fin n → Fin n → EReal) (X : Fin B → Fin n → Fin F0 → EReal)
    (W1 : Fin 3 → Fin F0 → Fin F1 → EReal) (b1 : Fin F1 → EReal) (W2 : Fin 3 → Fin F1 → Fin F2 → EReal) (b2 : Fin F2 → EReal)
    (Wo : Fin F2 → Fin F3 → EReal) (bo : Fin F3 → EReal) : Fin B → Fin F3 → EReal :=
  readout (pool (layer A (layer A X W1 b1) W2 b2)) Wo bo

/-! ## Feature-major -/

/-- Aggregation, feature-major: the transposed features times the transposed adjacency. -/
def aggT (ST : Fin B → Fin n → Fin n → EReal) (XT : Fin B → Fin Fi → Fin n → EReal) : Fin B → Fin Fi → Fin n → EReal :=
  fun b f i => ∑ m, XT b f m * ST b m i

/-- Projection, feature-major: the transposed weights times the transposed features. -/
def projT (WT : Fin Fo → Fin Fi → EReal) (XT : Fin B → Fin Fi → Fin n → EReal) : Fin B → Fin Fo → Fin n → EReal :=
  fun b g i => ∑ f, WT g f * XT b f i

/-- One layer, feature-major. -/
def layerT (ST : Fin B → Fin n → Fin n → EReal) (XT : Fin B → Fin Fi → Fin n → EReal) (WT : Fin 3 → Fin Fo → Fin Fi → EReal)
    (bias : Fin Fo → EReal) : Fin B → Fin Fo → Fin n → EReal :=
  fun b g i => max (((projT (WT 0) XT b g i + projT (WT 1) (aggT ST XT) b g i) + projT (WT 2) (aggT ST (aggT ST XT)) b g i) + bias g) 0

/-- The maximum over a graph's nodes, feature-major. -/
def poolT (XT : Fin B → Fin Fo → Fin n → EReal) : Fin B → Fin Fo → EReal :=
  fun b g => (univ : Finset (Fin n)).fold max ⊥ (fun i => XT b g i)

/-- The whole network, feature-major. -/
def netT {F0 F1 F2 F3 : ℕ} (ST : Fin B → Fin n → Fin n → EReal) (XT : Fin B → Fin F0 → Fin n → EReal)
    (W1T : Fin 3 → Fin F1 → Fin F0 → EReal) (b1 : Fin F1 → EReal) (W2T : Fin 3 → Fin F2 → Fin F1 → EReal) (b2 : Fin F2 → EReal)
    (Wo : Fin F2 → Fin F3 → EReal) (bo : Fin F3 → EReal) : Fin B → Fin F3 → EReal :=
  readout (poolT (layerT ST (layerT ST XT W1T b1) W2T b2)) Wo bo

theorem aggT_eq {ST A : Fin B → Fin n → Fin n → EReal} {XT : Fin B → Fin Fi → Fin n → EReal} {X : Fin B → Fin n → Fin Fi → EReal}
    (hA : ∀ b m i, ST b m i = A b i m) (hX : ∀ b f i, XT b f i = X b i f) (b : Fin B) (f : Fin Fi) (i : Fin n) :
    aggT ST XT b f i = agg A X b i f := by
  unfold aggT agg
  exact Finset.sum_congr rfl fun m _ => by rw [hA, hX, mul_comm]

theorem projT_eq {WT : Fin Fo → Fin Fi → EReal} {W : Fin Fi → Fin Fo → EReal} {XT : Fin B → Fin Fi → Fin n → EReal}
    {X : Fin B → Fin n → Fin Fi → EReal} (hW : ∀ g f, WT g f = W f g) (hX : ∀ b f i, XT b f i = X b i f)
    (b : Fin B) (g : Fin Fo) (i : Fin n) : projT WT XT b g i = proj X W b i g := by
  unfold projT proj
  exact Finset.sum_congr rfl fun f _ => by rw [hW, hX, mul_comm]

theorem layerT_eq {ST A : Fin B → Fin n → Fin n → EReal} {XT : Fin B → Fin Fi → Fin n → EReal} {X : Fin B → Fin n → Fin Fi → EReal}
    {WT : Fin 3 → Fin Fo → Fin Fi → EReal} {W : Fin 3 → Fin Fi → Fin Fo → EReal} (bias : Fin Fo → EReal)
    (hA : ∀ b m i, ST b m i = A b i m) (hX : ∀ b f i, XT b f i = X b i f) (hW : ∀ k g f, WT k g f = W k f g)
    (b : Fin B) (g : Fin Fo) (i : Fin n) : layerT ST XT WT bias b g i = layer A X W bias b i g := by
  unfold layerT layer
  have h1 := aggT_eq hA hX
  have h2 := aggT_eq hA h1
  rw [projT_eq (hW 0) hX, projT_eq (hW 1) h1, projT_eq (hW 2) h2]

theorem poolT_eq {XT : Fin B → Fin Fo → Fin n → EReal} {X : Fin B → Fin n → Fin Fo → EReal}
    (hX : ∀ b g i, XT b g i = X b i g) (b : Fin B) (g : Fin Fo) : poolT XT b g = pool X b g := by
  unfold poolT pool
  exact congrArg (fun f => (univ : Finset (Fin n)).fold max ⊥ f) (funext fun i => hX b g i)

/-- The feature-major network is the node-major one. -/
theorem netT_eq {F0 F1 F2 F3 : ℕ} {ST A : Fin B → Fin n → Fin n → EReal} {XT : Fin B → Fin F0 → Fin n → EReal}
    {X : Fin B → Fin n → Fin F0 → EReal} {W1T : Fin 3 → Fin F1 → Fin F0 → EReal} {W1 : Fin 3 → Fin F0 → Fin F1 → EReal}
    {W2T : Fin 3 → Fin F2 → Fin F1 → EReal} {W2 : Fin 3 → Fin F1 → Fin F2 → EReal} (b1 : Fin F1 → EReal) (b2 : Fin F2 → EReal)
    (Wo : Fin F2 → Fin F3 → EReal) (bo : Fin F3 → EReal)
    (hA : ∀ b m i, ST b m i = A b i m) (hX : ∀ b f i, XT b f i = X b i f)
    (hW1 : ∀ k g f, W1T k g f = W1 k f g) (hW2 : ∀ k g f, W2T k g f = W2 k f g) (b : Fin B) (o : Fin F3) :
    netT ST XT W1T b1 W2T b2 Wo bo b o = net A X W1 b1 W2 b2 Wo bo b o := by
  unfold netT net readout
  have h1 := layerT_eq b1 hA hX hW1
  have h2 := layerT_eq b2 hA h1 hW2
  have h3 := poolT_eq h2
  exact congrArg (· + bo o) (Finset.sum_congr rfl fun g _ => by rw [h3])

/-- The network of a group of graphs is the network of the whole batch at those graphs: every quantity is per graph. -/
theorem net_restrict {B' F0 F1 F2 F3 : ℕ} (ι : Fin B' → Fin B) (A : Fin B → Fin n → Fin n → EReal) (X : Fin B → Fin n → Fin F0 → EReal)
    (W1 : Fin 3 → Fin F0 → Fin F1 → EReal) (b1 : Fin F1 → EReal) (W2 : Fin 3 → Fin F1 → Fin F2 → EReal) (b2 : Fin F2 → EReal)
    (Wo : Fin F2 → Fin F3 → EReal) (bo : Fin F3 → EReal) (p : Fin B') (o : Fin F3) :
    net (fun b => A (ι b)) (fun b => X (ι b)) W1 b1 W2 b2 Wo bo p o = net A X W1 b1 W2 b2 Wo bo (ι p) o := rfl

end Gcn

end
-- ==== Proof.LibBatchDot.lean ====
/-
  Matrix products with a leading batch axis, read at an entry, on the extended reals.

  `[B, M, K] × [B, K, N] → [B, M, N]` (one product per batch coordinate) and `[B, M, K] × [K, N] → [B, M, N]` (one right
  operand shared by every batch coordinate): the kernel's matrix unit into the zero accumulator and the host's
  `dot_general` are both the sum over the dimension record's contraction index of the operands' products, and when the
  record's operand indices are the expected ones — stated as facts about the record, which each use proves by evaluating
  its record — that sum re-indexes to `Σ j, lhs (b, m, j) · rhs (b, j, n)`, respectively `Σ j, lhs (b, m, j) · rhs (j, n)`.
-/
import Idealize.ShloMosaic.Lib.ValueIdx
import Idealize.ShloMosaic.PureOps.Ideal.Laws

noncomputable section

namespace Idealize.ShloMosaic.BatchDot

open Idealize.ShloMosaic Idealize.ShloMosaic.ValueIdx

variable {B M K N : ℕ} {φ₁ φ₂ : FTy}

/-- The contraction sum of a batched product at entry `(b, m, n)`, re-indexed by the contracted coordinate. -/
theorem sum_eq (D : DotDims ⟨3, ![B, M, K]⟩ ⟨3, ![B, K, N]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix3 b j n) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix3 b j n := funext fun ax => Fin.ext (by
    match ax with
    | ⟨0, _⟩ => exact hr0 _ _
    | ⟨1, _⟩ => exact (hr1 _ _).trans hk
    | ⟨2, _⟩ => exact hr2 _ _)
  rw [el, er]

/-- The matrix unit into the zero accumulator, batched, at entry `(b, m, n)`. -/
theorem matmul_zero_apply (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    matmul D prec lhs rhs (constant (F := Ideal) ⟨3, ![B, M, N]⟩ .f32 0x00000000#32) (ix3 b m n)
      = ∑ j : Fin K, lhs (ix3 b m j) * rhs (ix3 b j n) :=
  (Ideal.matmul_constant_zero_apply D prec lhs rhs (ix3 b m n)).trans (sum_eq D hr hs hl0 hl1 hl2 hr0 hr1 hr2 lhs rhs b m n)

/-- The host's batched `dot_general`, at entry `(b, m, n)`. -/
theorem dotGeneral_apply (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    Host.dotGeneral D prec lhs rhs (ix3 b m n) = ∑ j : Fin K, lhs (ix3 b m j) * rhs (ix3 b j n) :=
  (Ideal.dotGeneral_apply D prec .single lhs rhs (ix3 b m n)).trans (sum_eq D hr hs hl0 hl1 hl2 hr0 hr1 hr2 lhs rhs b m n)

/-- The contraction sum of `[B, M, K] × [K, N]` at entry `(b, m, n)`, re-indexed by the contracted coordinate. -/
theorem sumShared_eq (D : DotDims ⟨3, ![B, M, K]⟩ ⟨2, ![K, N]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (q ⟨0, by omega⟩).val)
    (hr1 : ∀ i q, (D.rhsIdx i q 1).val = (i 2).val)
    (lhs : FVec Ideal ⟨3, ![B, M, K]⟩ φ₁) (rhs : FVec Ideal ⟨2, ![K, N]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix2 j n) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix2 j n := funext fun ax => Fin.ext (by
    match ax with
    | ⟨0, _⟩ => exact (hr0 _ _).trans hk
    | ⟨1, _⟩ => exact hr1 _ _)
  rw [el, er]

/-- The host's `dot_general` of a batched left operand with one shared right operand, at entry `(b, m, n)`. -/
theorem dotGeneralShared_apply (D : DotDims ⟨3, ![B, M, K]⟩ ⟨2, ![K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (q ⟨0, by omega⟩).val)
    (hr1 : ∀ i q, (D.rhsIdx i q 1).val = (i 2).val)
    (lhs : FVec Ideal ⟨3, ![B, M, K]⟩ φ₁) (rhs : FVec Ideal ⟨2, ![K, N]⟩ φ₂) (b : Fin B) (m : Fin M) (n : Fin N) :
    Host.dotGeneral D prec lhs rhs (ix3 b m n) = ∑ j : Fin K, lhs (ix3 b m j) * rhs (ix2 j n) :=
  (Ideal.dotGeneral_apply D prec .single lhs rhs (ix3 b m n)).trans (sumShared_eq D hr hs hl0 hl1 hl2 hr0 hr1 lhs rhs b m n)

/-! ## A maximum along one axis of a rank-3 array -/

/-- The binary32 word of `−∞` denotes `⊥`. -/
theorem ofBits_neg_inf : Ideal.ofBits .f32 0xFF800000#32 = (⊥ : EReal) := by
  simp [Ideal.ofBits, Ideal.ieee]

/-- The lane maximum of a `[B, M, N]` array over its LAST axis from the accumulator `−∞`, at `(b, m)`, is the fold of
    `max` from `⊥` over that lane's entries. -/
theorem laneMax_apply (v : FVec Ideal ⟨3, ![B, M, N]⟩ .f32) (h : (⟨3, ![B, M, N]⟩ : Shape).Reduces [2] ⟨2, ![B, M]⟩)
    (hacc : (0xFF800000#32 : BitVec 32) = FKind.maximumf.neutral .f32 (.inl rfl)) (b : Fin B) (m : Fin M) :
    multiReduction .maximumf [2] ⟨2, ![B, M]⟩ v 0xFF800000#32 h (.inl rfl) hacc (ix2 b m)
      = (Finset.univ : Finset (Fin N)).fold max ⊥ (fun k => v (ix3 b m k)) := by
  refine (Ideal.multiReduction_maximumf_single v 0xFF800000#32 h (.inl rfl) hacc (ix2 b m)).trans ?_
  rw [show (FloatOps.ofBits (F := Ideal) .f32 0xFF800000#32 : EReal) = ⊥ from ofBits_neg_inf]
  refine congrArg (fun f => (Finset.univ : Finset (Fin N)).fold max ⊥ f) (funext fun k => ?_)
  exact congrArg v (funext fun ax => Fin.ext (by
    match ax with
    | ⟨0, _⟩ => rfl
    | ⟨1, _⟩ => rfl
    | ⟨2, _⟩ => rfl))

/-- The host's maximum of a `[B, M, N]` array over its MIDDLE axis from an initial value, at `(b, n)`, is the fold of
    `max` from that value over the middle coordinates. -/
theorem hostMidMax_apply {u : Shape} (x : FVec Ideal ⟨3, ![B, M, N]⟩ .f32) (init : u.Idx → EReal)
    (h' : (⟨3, ![B, M, N]⟩ : Shape).ReducesTo [1] ⟨2, ![B, N]⟩) (h : (⟨3, ![B, M, N]⟩ : Shape).Reduces [1] ⟨2, ![B, N]⟩)
    (hu : 0 < u.numel) (b : Fin B) (n : Fin N) :
    Host.reduce (FloatOps.maximumf (F := Ideal) (φ := .f32)) x init h' hu (ix2 b n)
      = (Finset.univ : Finset (Fin M)).fold max (init (Shape.Idx.first hu)) (fun k => x (ix3 b k n)) := by
  refine (Host.reduce_eq_fold_single (FloatOps.maximumf (F := Ideal) (φ := .f32)) x init h' h hu (ix2 b n)).trans ?_
  refine congrArg (fun f => (Finset.univ : Finset (Fin M)).fold max (init (Shape.Idx.first hu)) f) (funext fun k => ?_)
  exact congrArg x (funext fun ax => Fin.ext (by
    match ax with
    | ⟨0, _⟩ => rfl
    | ⟨1, _⟩ => rfl
    | ⟨2, _⟩ => rfl))

end Idealize.ShloMosaic.BatchDot

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.KernelPayload.lean ====
import proofs.«104581_j39402029973528_2_alg».proof.Proof.Gen.KernelIdeal.Skeleton
import proofs.«104581_j39402029973528_2_alg».proof.Proof.GcnSpec
import proofs.«104581_j39402029973528_2_alg».proof.Proof.LibBatchDot
import proofs.«104581_j39402029973528_2_alg».proof.Proof.LibPlainDot
import Idealize.ShloMosaic.Lib.Pipeline.Value
import Idealize.ShloMosaic.Lib.ValueLayout

/-!
# The kernel body's value, entry by entry

On the extended reals the body's one stored value — two feature-major graph-convolution layers over a group of eight
graphs, the maximum over each graph's nodes, the output projection and its bias — is, at entry `(p, o)`, the
feature-major network `Gcn.netT` of the eight loaded blocks read by coordinates: a rounding to a narrower format is the
identity, a matrix product into the zero accumulator is the sum of the products, the lane maximum from `−∞` is the fold
of `max` from `⊥`, and the weight slices and bias columns are read where their broadcasts put them.
-/

set_option maxRecDepth 16384

noncomputable section

namespace Cert.KernelIdeal.Pay

open Idealize.ShloMosaic Idealize.ShloMosaic.ValueIdx Cert.KernelIdeal Cert.KernelIdeal.Gen

/-! ## The pieces read at an entry -/

/-- Weight slice 0 of a `[3, 128, 128]` stack, broadcast over the eight graphs, at `(b, g, f)`. -/
theorem wslice0_apply (w : FVec Ideal S3x128x128 .bf16) (b : Fin 8) (g f : Fin 128) :
    broadcastTo S8x128x128 (shapeCast S1x128x128 (shapeCast S1x128x128 (shapeCast S128x128 (extractStridedSlice S1x128x128 ![0, 0, 0] w slices_S3x128x128_o0_0_0_S1x128x128) shapeCasts_S1x128x128_S128x128) shapeCasts_S128x128_S1x128x128) shapeCasts_S1x128x128_S1x128x128) broadcasts_S1x128x128_S8x128x128 (ix3 b g f)
      = w (ix3 (0 : Fin 3) g f) := by
  refine (broadcastTo_apply _ _ (ix3 b g f) (ix3 (0 : Fin 1) g f) (fun a => by
    match a with
    | ⟨0, _⟩ => rfl
    | ⟨1, _⟩ => rfl
    | ⟨2, _⟩ => rfl)).trans ?_
  rw [shapeCast_self, shapeCast_shapeCast]
  exact extractStridedSlice_apply _ w _ _ (ix3 (0 : Fin 3) g f) (fun a => by
    match a with
    | ⟨0, _⟩ => rfl
    | ⟨1, _⟩ => exact (Nat.zero_add _).symm
    | ⟨2, _⟩ => exact (Nat.zero_add _).symm)

/-- Weight slice 1 of a `[3, 128, 128]` stack, broadcast over the eight graphs, at `(b, g, f)`. -/
theorem wslice1_apply (w : FVec Ideal S3x128x128 .bf16) (b : Fin 8) (g f : Fin 128) :
    broadcastTo S8x128x128 (shapeCast S1x128x128 (shapeCast S1x128x128 (shapeCast S128x128 (extractStridedSlice S1x128x128 ![1, 0, 0] w slices_S3x128x128_o1_0_0_S1x128x128) shapeCasts_S1x128x128_S128x128) shapeCasts_S128x128_S1x128x128) shapeCasts_S1x128x128_S1x128x128) broadcasts_S1x128x128_S8x128x128 (ix3 b g f)
      = w (ix3 (1 : Fin 3) g f) := by
  refine (broadcastTo_apply _ _ (ix3 b g f) (ix3 (0 : Fin 1) g f) (fun a => by
    match a with
    | ⟨0, _⟩ => rfl
    | ⟨1, _⟩ => rfl
    | ⟨2, _⟩ => rfl)).trans ?_
  rw [shapeCast_self, shapeCast_shapeCast]
  exact extractStridedSlice_apply _ w _ _ (ix3 (1 : Fin 3) g f) (fun a => by
    match a with
    | ⟨0, _⟩ => rfl
    | ⟨1, _⟩ => exact (Nat.zero_add _).symm
    | ⟨2, _⟩ => exact (Nat.zero_add _).symm)

/-- Weight slice 2 of a `[3, 128, 128]` stack, broadcast over the eight graphs, at `(b, g, f)`. -/
theorem wslice2_apply (w : FVec Ideal S3x128x128 .bf16) (b : Fin 8) (g f : Fin 128) :
    broadcastTo S8x128x128 (shapeCast S1x128x128 (shapeCast S1x128x128 (shapeCast S128x128 (extractStridedSlice S1x128x128 ![2, 0, 0] w slices_S3x128x128_o2_0_0_S1x128x128) shapeCasts_S1x128x128_S128x128) shapeCasts_S128x128_S1x128x128) shapeCasts_S1x128x128_S1x128x128) broadcasts_S1x128x128_S8x128x128 (ix3 b g f)
      = w (ix3 (2 : Fin 3) g f) := by
  refine (broadcastTo_apply _ _ (ix3 b g f) (ix3 (0 : Fin 1) g f) (fun a => by
    match a with
    | ⟨0, _⟩ => rfl
    | ⟨1, _⟩ => rfl
    | ⟨2, _⟩ => rfl)).trans ?_
  rw [shapeCast_self, shapeCast_shapeCast]
  exact extractStridedSlice_apply _ w _ _ (ix3 (2 : Fin 3) g f) (fun a => by
    match a with
    | ⟨0, _⟩ => rfl
    | ⟨1, _⟩ => exact (Nat.zero_add _).symm
    | ⟨2, _⟩ => exact (Nat.zero_add _).symm)

/-- A bias column `[1, 128, 1]` broadcast over graphs and nodes, at `(b, g, i)`. -/
theorem bias_apply (v : FVec Ideal S1x128x1 .f32) (b : Fin 8) (g : Fin 128) (i : Fin 512) :
    broadcastTo S8x128x512 (shapeCast S1x128x1 (shapeCast S1x128x1 v shapeCasts_S1x128x1_S1x128x1) shapeCasts_S1x128x1_S1x128x1) broadcasts_S1x128x1_S8x128x512 (ix3 b g i)
      = v (ix3 (0 : Fin 1) g (0 : Fin 1)) := by
  rw [shapeCast_self, shapeCast_self]
  exact broadcastTo_apply _ _ (ix3 b g i) (ix3 (0 : Fin 1) g (0 : Fin 1)) (fun a => by
    match a with
    | ⟨0, _⟩ => rfl
    | ⟨1, _⟩ => rfl
    | ⟨2, _⟩ => rfl)

/-- The output bias row `[1, 64]` broadcast over the eight graphs, at `(p, o)`. -/
theorem bout_apply (v : FVec Ideal S1x64 .f32) (p : Fin 8) (o : Fin 64) :
    broadcastTo S8x64 (shapeCast S1x64 (shapeCast S1x64 v shapeCasts_S1x64_S1x64) shapeCasts_S1x64_S1x64) broadcasts_S1x64_S8x64 (ix2 p o)
      = v (ix2 (0 : Fin 1) o) := by
  rw [shapeCast_self, shapeCast_self]
  exact broadcastTo_1b_ab_apply _ _ p o

/-- Weights times features, per graph: `[8, 128, 128] × [8, 128, 512]`. -/
theorem dotW_apply (l : FVec Ideal S8x128x128 .bf16) (r : FVec Ideal S8x128x512 .bf16) (b : Fin 8) (g : Fin 128) (i : Fin 512) :
    matmul dot_S8x128x128_S8x128x512_S8x128x512_2_1_1_2_0_0 none l r (constant (F := Ideal) S8x128x512 .f32 0x00000000#32) (ix3 b g i)
      = ∑ f : Fin 128, l (ix3 b g f) * r (ix3 b f i) :=
  BatchDot.matmul_zero_apply _ none rfl rfl (fun _ _ => rfl) (fun _ _ => rfl) (fun _ _ => rfl) (fun _ _ => rfl) (fun _ _ => rfl) (fun _ _ => rfl) l r b g i

/-- Features times the transposed adjacency, per graph: `[8, 128, 512] × [8, 512, 512]`. -/
theorem dotS_apply (l : FVec Ideal S8x128x512 .bf16) (r : FVec Ideal S8x512x512 .bf16) (b : Fin 8) (f : Fin 128) (i : Fin 512) :
    matmul dot_S8x128x512_S8x512x512_S8x128x512_2_1_1_2_0_0 none l r (constant (F := Ideal) S8x128x512 .f32 0x00000000#32) (ix3 b f i)
      = ∑ m : Fin 512, l (ix3 b f m) * r (ix3 b m i) :=
  BatchDot.matmul_zero_apply _ none rfl rfl (fun _ _ => rfl) (fun _ _ => rfl) (fun _ _ => rfl) (fun _ _ => rfl) (fun _ _ => rfl) (fun _ _ => rfl) l r b f i

/-- The pooled features times the output weights: `[8, 128] × [128, 64]`. -/
theorem dotO_apply (l : FVec Ideal S8x128 .bf16) (r : FVec Ideal S128x64 .bf16) (p : Fin 8) (o : Fin 64) :
    matmul dot_S8x128_S128x64_S8x64_1_0_0_1_n_n none l r (constant (F := Ideal) S8x64 .f32 0x00000000#32) (ix2 p o)
      = ∑ g : Fin 128, l (ix2 p g) * r (ix2 g o) :=
  PlainDot.matmul_zero_apply _ none rfl rfl (fun _ _ => rfl) (fun _ _ => rfl) (fun _ _ => rfl) (fun _ _ => rfl) l r p o

/-- The maximum over a graph's nodes, at `(b, g)`. -/
theorem nodeMax_apply (v : FVec Ideal S8x128x512 .f32) (b : Fin 8) (g : Fin 128) :
    multiReduction .maximumf [2] S8x128 v 0xFF800000#32 reduces_S8x128x512_S8x128 (.inl rfl) rfl (ix2 b g)
      = (Finset.univ : Finset (Fin 512)).fold max ⊥ (fun i => v (ix3 b g i)) :=
  BatchDot.laneMax_apply v reduces_S8x128x512_S8x128 rfl b g

/-! ## The body's value as vector functions -/

/-- The degree-two polynomial filter, feature-major, as the body computes it. -/
def polyVec (S : FVec Ideal S8x512x512 .bf16) (x : FVec Ideal S8x128x512 .f32) (w : FVec Ideal S3x128x128 .bf16) : FVec Ideal S8x128x512 .f32 :=
  have w0 : FVec Ideal S8x128x128 .bf16 := broadcastTo S8x128x128 (shapeCast S1x128x128 (shapeCast S1x128x128 (shapeCast S128x128 (extractStridedSlice S1x128x128 ![0, 0, 0] w slices_S3x128x128_o0_0_0_S1x128x128) shapeCasts_S1x128x128_S128x128) shapeCasts_S128x128_S1x128x128) shapeCasts_S1x128x128_S1x128x128) broadcasts_S1x128x128_S8x128x128
  have w1 : FVec Ideal S8x128x128 .bf16 := broadcastTo S8x128x128 (shapeCast S1x128x128 (shapeCast S1x128x128 (shapeCast S128x128 (extractStridedSlice S1x128x128 ![1, 0, 0] w slices_S3x128x128_o1_0_0_S1x128x128) shapeCasts_S1x128x128_S128x128) shapeCasts_S128x128_S1x128x128) shapeCasts_S1x128x128_S1x128x128) broadcasts_S1x128x128_S8x128x128
  have w2 : FVec Ideal S8x128x128 .bf16 := broadcastTo S8x128x128 (shapeCast S1x128x128 (shapeCast S1x128x128 (shapeCast S128x128 (extractStridedSlice S1x128x128 ![2, 0, 0] w slices_S3x128x128_o2_0_0_S1x128x128) shapeCasts_S1x128x128_S128x128) shapeCasts_S128x128_S1x128x128) shapeCasts_S1x128x128_S1x128x128) broadcasts_S1x128x128_S8x128x128
  have z : FVec Ideal S8x128x512 .f32 := constant S8x128x512 .f32 0x00000000#32
  have sx1 : FVec Ideal S8x128x512 .f32 := matmul dot_S8x128x512_S8x512x512_S8x128x512_2_1_1_2_0_0 none (truncf .bf16 x bitsLt_bf16_f32) S z
  have sx2 : FVec Ideal S8x128x512 .f32 := matmul dot_S8x128x512_S8x512x512_S8x128x512_2_1_1_2_0_0 none (truncf .bf16 sx1 bitsLt_bf16_f32) S z
  addf (addf (matmul dot_S8x128x128_S8x128x512_S8x128x512_2_1_1_2_0_0 none w0 (truncf .bf16 x bitsLt_bf16_f32) z)
      (matmul dot_S8x128x128_S8x128x512_S8x128x512_2_1_1_2_0_0 none w1 (truncf .bf16 sx1 bitsLt_bf16_f32) z))
    (matmul dot_S8x128x128_S8x128x512_S8x128x512_2_1_1_2_0_0 none w2 (truncf .bf16 sx2 bitsLt_bf16_f32) z)

/-- One layer, feature-major, as the body computes it. -/
def layerVec (S : FVec Ideal S8x512x512 .bf16) (x : FVec Ideal S8x128x512 .f32) (w : FVec Ideal S3x128x128 .bf16) (bias : FVec Ideal S1x128x1 .f32) :
    FVec Ideal S8x128x512 .f32 :=
  maximumf (addf (polyVec S x w) (broadcastTo S8x128x512 (shapeCast S1x128x1 (shapeCast S1x128x1 bias shapeCasts_S1x128x1_S1x128x1) shapeCasts_S1x128x1_S1x128x1) broadcasts_S1x128x1_S8x128x512))
    (broadcast S8x128x512 (Scalar.ofBits (F := Ideal) .f32 0x00000000#32))

/-- The pooling and the output projection, as the body computes them. -/
def headVec (y : FVec Ideal S8x128x512 .f32) (wo : FVec Ideal S128x64 .bf16) (bo : FVec Ideal S1x64 .f32) : FVec Ideal S8x64 .f32 :=
  addf (matmul dot_S8x128_S128x64_S8x64_1_0_0_1_n_n none
      (truncf .bf16 (multiReduction .maximumf [2] S8x128 y 0xFF800000#32 reduces_S8x128x512_S8x128 (.inl rfl) rfl) bitsLt_bf16_f32) wo
      (constant S8x64 .f32 0x00000000#32))
    (broadcastTo S8x64 (shapeCast S1x64 (shapeCast S1x64 bo shapeCasts_S1x64_S1x64) shapeCasts_S1x64_S1x64) broadcasts_S1x64_S8x64)

theorem polyVec_apply (S : FVec Ideal S8x512x512 .bf16) (x : FVec Ideal S8x128x512 .f32) (w : FVec Ideal S3x128x128 .bf16)
    (b : Fin 8) (g : Fin 128) (i : Fin 512) :
    polyVec S x w (ix3 b g i)
      = (Gcn.projT (fun g f => w (ix3 (0 : Fin 3) g f)) (fun b f i => x (ix3 b f i)) b g i
          + Gcn.projT (fun g f => w (ix3 (1 : Fin 3) g f)) (Gcn.aggT (fun b m i => S (ix3 b m i)) (fun b f i => x (ix3 b f i))) b g i)
        + Gcn.projT (fun g f => w (ix3 (2 : Fin 3) g f))
            (Gcn.aggT (fun b m i => S (ix3 b m i)) (Gcn.aggT (fun b m i => S (ix3 b m i)) (fun b f i => x (ix3 b f i)))) b g i := by
  unfold polyVec
  simp only [addf_apply, dotW_apply, dotS_apply, wslice0_apply, wslice1_apply, wslice2_apply, truncf_apply]
  rfl

theorem layerVec_apply (S : FVec Ideal S8x512x512 .bf16) (x : FVec Ideal S8x128x512 .f32) (w : FVec Ideal S3x128x128 .bf16)
    (bias : FVec Ideal S1x128x1 .f32) (b : Fin 8) (g : Fin 128) (i : Fin 512) :
    layerVec S x w bias (ix3 b g i)
      = Gcn.layerT (fun b m i => S (ix3 b m i)) (fun b f i => x (ix3 b f i)) (fun k g f => w (ix3 k g f))
          (fun g => bias (ix3 (0 : Fin 1) g (0 : Fin 1))) b g i := by
  unfold layerVec
  rw [maximumf_apply, addf_apply, polyVec_apply, bias_apply, broadcast_apply]
  show max _ (Ideal.ofBits .f32 0x00000000#32) = _
  rw [Ideal.ofBits_zero_f32]
  rfl

theorem headVec_apply (y : FVec Ideal S8x128x512 .f32) (wo : FVec Ideal S128x64 .bf16) (bo : FVec Ideal S1x64 .f32) (p : Fin 8) (o : Fin 64) :
    headVec y wo bo (ix2 p o)
      = Gcn.readout (Gcn.poolT (fun b g i => y (ix3 b g i))) (fun g o => wo (ix2 g o)) (fun o => bo (ix2 (0 : Fin 1) o)) p o := by
  unfold headVec
  rw [addf_apply, dotO_apply, bout_apply]
  simp only [truncf_apply]
  unfold Gcn.readout Gcn.poolT
  refine congrArg (· + bo (ix2 (0 : Fin 1) o)) (Finset.sum_congr rfl fun g _ => ?_)
  exact congrArg (· * wo (ix2 g o)) (nodeMax_apply y p g)

set_option maxRecDepth 65536 in
/-- The body's stored value is the composition of those, with each loaded block's shape cast to itself the identity. -/
theorem payload_eq (x0 : FVec Ideal S8x512x512 .bf16) (x1 : FVec Ideal S8x128x512 .f32) (x2 : FVec Ideal S3x128x128 .bf16) (x3 : FVec Ideal S1x128x1 .f32)
    (x4 : FVec Ideal S3x128x128 .bf16) (x5 : FVec Ideal S1x128x1 .f32) (x6 : FVec Ideal S128x64 .bf16) (x7 : FVec Ideal S1x64 .f32) :
    k0_pay1 (F := Ideal) (k0_pay6 (k0_pay2 x0) (k0_pay3 x4) (k0_pay4 x0 x1 x2) (k0_pay5 x3) x5 x6) (k0_pay7 x7)
      = headVec (layerVec x0 (layerVec x0 x1 x2 x3) x4 x5) x6 x7 := by
  have e : k0_pay1 (F := Ideal) (k0_pay6 (k0_pay2 x0) (k0_pay3 x4) (k0_pay4 x0 x1 x2) (k0_pay5 x3) x5 x6) (k0_pay7 x7)
      = headVec (layerVec (shapeCast S8x512x512 x0 shapeCasts_S8x512x512_S8x512x512)
          (layerVec (shapeCast S8x512x512 x0 shapeCasts_S8x512x512_S8x512x512) (shapeCast S8x128x512 x1 shapeCasts_S8x128x512_S8x128x512)
            (shapeCast S3x128x128 x2 shapeCasts_S3x128x128_S3x128x128) x3)
          (shapeCast S3x128x128 x4 shapeCasts_S3x128x128_S3x128x128) x5) (shapeCast S128x64 x6 shapeCasts_S128x64_S128x64) x7 := rfl
  rw [e]
  simp only [shapeCast_self]

/-- THE BODY'S VALUE at entry `(p, o)`: the feature-major network of the eight loaded blocks. -/
theorem payload_apply (x0 : FVec Ideal S8x512x512 .bf16) (x1 : FVec Ideal S8x128x512 .f32) (x2 : FVec Ideal S3x128x128 .bf16) (x3 : FVec Ideal S1x128x1 .f32)
    (x4 : FVec Ideal S3x128x128 .bf16) (x5 : FVec Ideal S1x128x1 .f32) (x6 : FVec Ideal S128x64 .bf16) (x7 : FVec Ideal S1x64 .f32) (p : Fin 8) (o : Fin 64) :
    k0_pay1 (F := Ideal) (k0_pay6 (k0_pay2 x0) (k0_pay3 x4) (k0_pay4 x0 x1 x2) (k0_pay5 x3) x5 x6) (k0_pay7 x7) (ix2 p o)
      = Gcn.netT (fun b m i => x0 (ix3 b m i)) (fun b f i => x1 (ix3 b f i)) (fun k g f => x2 (ix3 k g f))
          (fun g => x3 (ix3 (0 : Fin 1) g (0 : Fin 1))) (fun k g f => x4 (ix3 k g f)) (fun g => x5 (ix3 (0 : Fin 1) g (0 : Fin 1)))
          (fun g o => x6 (ix2 g o)) (fun o => x7 (ix2 (0 : Fin 1) o)) p o := by
  rw [payload_eq, headVec_apply]
  unfold Gcn.netT
  refine congrArg (fun P => Gcn.readout (Gcn.poolT P) _ _ p o) ?_
  funext b g i
  rw [layerVec_apply]
  refine congrArg (fun X => Gcn.layerT _ X _ _ b g i) ?_
  funext b f i
  exact layerVec_apply x0 x1 x2 x3 b f i

end Cert.KernelIdeal.Pay

end
-- ==== Proof.KernelValue.lean ====
import proofs.«104581_j39402029973528_2_alg».proof.Proof.FrameKernelIdeal
import proofs.«104581_j39402029973528_2_alg».proof.Proof.KernelPayload

/-!
# The kernel's result array

Grid point `t` handles graphs `8 t … 8 t + 7`: its adjacency and feature blocks are those graphs' slabs of the arrays the
host operations prepared, its weight and bias blocks are the whole arrays, and its output block is rows `8 t … 8 t + 7` of
the result. The body's value on those blocks is the feature-major network of the group, which is the network of the whole
batch at those graphs; the eight output blocks tile the result, so the result array is the feature-major network of the
prepared arrays, entry by entry.
-/

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The output block as a function of the eight input blocks, at an entry. -/
theorem outBlock_at (x0 : Vec Ideal S8x512x512 .bf16) (x1 : Vec Ideal S8x128x512 .f32) (x2 : Vec Ideal S3x128x128 .bf16) (x3 : Vec Ideal S1x128x1 .f32)
    (x4 : Vec Ideal S3x128x128 .bf16) (x5 : Vec Ideal S1x128x1 .f32) (x6 : Vec Ideal S128x64 .bf16) (x7 : Vec Ideal S1x64 .f32) (y : S8x64.Idx) :
    outBlock (F := Ideal) x0 x1 x2 x3 x4 x5 x6 x7 y
      = Gcn.netT (fun b m i => x0 (ix3 b m i)) (fun b f i => x1 (ix3 b f i)) (fun k g f => x2 (ix3 k g f))
          (fun g => x3 (ix3 (0 : Fin 1) g (0 : Fin 1))) (fun k g f => x4 (ix3 k g f)) (fun g => x5 (ix3 (0 : Fin 1) g (0 : Fin 1)))
          (fun g o => x6 (ix2 g o)) (fun o => x7 (ix2 (0 : Fin 1) o)) ⟨(y 0).val, (y 0).isLt⟩ ⟨(y 1).val, (y 1).isLt⟩ := by
  obtain ⟨p, o, rfl⟩ : ∃ (p : Fin 8) (o : Fin 64), y = ix2 p o := ⟨y 0, y 1, eq_ix2 y⟩
  unfold outBlock
  rw [View.canon_unit_zero hz2]
  simp only [View.ld_unit_zero (S := S8x512x512) hz3, View.ld_unit_zero (S := S8x128x512) hz3, View.ld_unit_zero (S := S3x128x128) hz3,
    View.ld_unit_zero (S := S1x128x1) hz3, View.ld_unit_zero (S := S128x64) hz2, View.ld_unit_zero (S := S1x64) hz2]
  exact Pay.payload_apply x0 x1 x2 x3 x4 x5 x6 x7 p o

/-! ## The prepared arrays, by coordinates -/

def ST : Fin 64 → Fin 512 → Fin 512 → EReal := fun g p q => V m c main_v39 (ix3 g p q)
def XT : Fin 64 → Fin 128 → Fin 512 → EReal := fun b f i => V m c main_v41 (ix3 b f i)
def W1T : Fin 3 → Fin 128 → Fin 128 → EReal := fun k g f => V m c main_v43 (ix3 k g f)
def B1 : Fin 128 → EReal := fun g => V m c main_v47 (ix3 (0 : Fin 1) g (0 : Fin 1))
def W2T : Fin 3 → Fin 128 → Fin 128 → EReal := fun k g f => V m c main_v45 (ix3 k g f)
def B2 : Fin 128 → EReal := fun g => V m c main_v48 (ix3 (0 : Fin 1) g (0 : Fin 1))
def WO : Fin 128 → Fin 64 → EReal := fun g o => V m c main_v46 (ix2 g o)
def BO : Fin 64 → EReal := fun o => V m c main_v49 (ix2 (0 : Fin 1) o)

/-- The result array: the feature-major network of the prepared arrays. -/
def result : S64x64.Idx → EReal := fun i =>
  Gcn.netT (ST m c) (XT m c) (W1T m c) (B1 m c) (W2T m c) (B2 m c) (WO m c) (BO m c) ⟨(i 0).val, (i 0).isLt⟩ ⟨(i 1).val, (i 1).isLt⟩

/-! ## The blocks -/

theorem hN : cfg0.N = 8 := N_0

/-- The graph a grid point's block row is. -/
def graphOf (t : Fin cfg0.N) (b : Fin 8) : Fin 64 := ⟨t.val * 8 + b.val, by have := t.isLt; have := hN; have := b.isLt; omega⟩

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem blk0 (t : Fin cfg0.N) (b : Fin 8) (p q : Fin 512) : iblk m c 0 t (ix3 b p q) = ST m c (graphOf t b) p q := by
  show V m c main_v39 (((cfg0.win 0).blk t).view.emb (ix3 b p q)) = V m c main_v39 (ix3 (graphOf t b) p q)
  have e := idx_facts t
  have h : ((cfg0.win 0).blk t).view.emb (ix3 b p q) = ix3 (graphOf t b) p q := by
    funext a; apply Fin.ext
    match a with
    | ⟨0, _⟩ => show win0_0.index t (0 : Fin 3) * 8 + 1 * b.val = t.val * 8 + b.val; omega
    | ⟨1, _⟩ => show win0_0.index t (1 : Fin 3) * 512 + 1 * p.val = p.val; omega
    | ⟨2, _⟩ => show win0_0.index t (2 : Fin 3) * 512 + 1 * q.val = q.val; omega
  rw [h]

theorem blk1 (t : Fin cfg0.N) (b : Fin 8) (f : Fin 128) (i : Fin 512) : iblk m c 1 t (ix3 b f i) = XT m c (graphOf t b) f i := by
  show V m c main_v41 (((cfg0.win 1).blk t).view.emb (ix3 b f i)) = V m c main_v41 (ix3 (graphOf t b) f i)
  have e := idx_facts t
  have h : ((cfg0.win 1).blk t).view.emb (ix3 b f i) = ix3 (graphOf t b) f i := by
    funext a; apply Fin.ext
    match a with
    | ⟨0, _⟩ => show win0_1.index t (0 : Fin 3) * 8 + 1 * b.val = t.val * 8 + b.val; omega
    | ⟨1, _⟩ => show win0_1.index t (1 : Fin 3) * 128 + 1 * f.val = f.val; omega
    | ⟨2, _⟩ => show win0_1.index t (2 : Fin 3) * 512 + 1 * i.val = i.val; omega
  rw [h]

theorem blk2 (t : Fin cfg0.N) (k : Fin 3) (g f : Fin 128) : iblk m c 2 t (ix3 k g f) = W1T m c k g f := by
  show V m c main_v43 (((cfg0.win 2).blk t).view.emb (ix3 k g f)) = V m c main_v43 (ix3 k g f)
  have e := idx_facts t
  have h : ((cfg0.win 2).blk t).view.emb (ix3 k g f) = ix3 k g f := by
    funext a; apply Fin.ext
    match a with
    | ⟨0, _⟩ => show win0_2.index t (0 : Fin 3) * 3 + 1 * k.val = k.val; omega
    | ⟨1, _⟩ => show win0_2.index t (1 : Fin 3) * 128 + 1 * g.val = g.val; omega
    | ⟨2, _⟩ => show win0_2.index t (2 : Fin 3) * 128 + 1 * f.val = f.val; omega
  rw [h]

theorem blk4 (t : Fin cfg0.N) (k : Fin 3) (g f : Fin 128) : iblk m c 4 t (ix3 k g f) = W2T m c k g f := by
  show V m c main_v45 (((cfg0.win 4).blk t).view.emb (ix3 k g f)) = V m c main_v45 (ix3 k g f)
  have e := idx_facts t
  have h : ((cfg0.win 4).blk t).view.emb (ix3 k g f) = ix3 k g f := by
    funext a; apply Fin.ext
    match a with
    | ⟨0, _⟩ => show win0_4.index t (0 : Fin 3) * 3 + 1 * k.val = k.val; omega
    | ⟨1, _⟩ => show win0_4.index t (1 : Fin 3) * 128 + 1 * g.val = g.val; omega
    | ⟨2, _⟩ => show win0_4.index t (2 : Fin 3) * 128 + 1 * f.val = f.val; omega
  rw [h]

theorem blk3 (t : Fin cfg0.N) (g : Fin 128) : iblk m c 3 t (ix3 (0 : Fin 1) g (0 : Fin 1)) = B1 m c g := by
  show V m c main_v47 (((cfg0.win 3).blk t).view.emb (ix3 (0 : Fin 1) g (0 : Fin 1))) = V m c main_v47 (ix3 (0 : Fin 1) g (0 : Fin 1))
  have e := idx_facts t
  have h : ((cfg0.win 3).blk t).view.emb (ix3 (0 : Fin 1) g (0 : Fin 1)) = ix3 (0 : Fin 1) g (0 : Fin 1) := by
    funext a; apply Fin.ext
    match a with
    | ⟨0, _⟩ => show win0_3.index t (0 : Fin 3) * 1 + 1 * 0 = 0; omega
    | ⟨1, _⟩ => show win0_3.index t (1 : Fin 3) * 128 + 1 * g.val = g.val; omega
    | ⟨2, _⟩ => show win0_3.index t (2 : Fin 3) * 1 + 1 * 0 = 0; omega
  rw [h]

theorem blk5 (t : Fin cfg0.N) (g : Fin 128) : iblk m c 5 t (ix3 (0 : Fin 1) g (0 : Fin 1)) = B2 m c g := by
  show V m c main_v48 (((cfg0.win 5).blk t).view.emb (ix3 (0 : Fin 1) g (0 : Fin 1))) = V m c main_v48 (ix3 (0 : Fin 1) g (0 : Fin 1))
  have e := idx_facts t
  have h : ((cfg0.win 5).blk t).view.emb (ix3 (0 : Fin 1) g (0 : Fin 1)) = ix3 (0 : Fin 1) g (0 : Fin 1) := by
    funext a; apply Fin.ext
    match a with
    | ⟨0, _⟩ => show win0_5.index t (0 : Fin 3) * 1 + 1 * 0 = 0; omega
    | ⟨1, _⟩ => show win0_5.index t (1 : Fin 3) * 128 + 1 * g.val = g.val; omega
    | ⟨2, _⟩ => show win0_5.index t (2 : Fin 3) * 1 + 1 * 0 = 0; omega
  rw [h]

theorem blk6 (t : Fin cfg0.N) (g : Fin 128) (o : Fin 64) : iblk m c 6 t (ix2 g o) = WO m c g o := by
  show V m c main_v46 (((cfg0.win 6).blk t).view.emb (ix2 g o)) = V m c main_v46 (ix2 g o)
  have e := idx_facts t
  have h : ((cfg0.win 6).blk t).view.emb (ix2 g o) = ix2 g o := by
    funext a; apply Fin.ext
    match a with
    | ⟨0, _⟩ => show win0_6.index t (0 : Fin 2) * 128 + 1 * g.val = g.val; omega
    | ⟨1, _⟩ => show win0_6.index t (1 : Fin 2) * 64 + 1 * o.val = o.val; omega
  rw [h]

theorem blk7 (t : Fin cfg0.N) (o : Fin 64) : iblk m c 7 t (ix2 (0 : Fin 1) o) = BO m c o := by
  show V m c main_v49 (((cfg0.win 7).blk t).view.emb (ix2 (0 : Fin 1) o)) = V m c main_v49 (ix2 (0 : Fin 1) o)
  have e := idx_facts t
  have h : ((cfg0.win 7).blk t).view.emb (ix2 (0 : Fin 1) o) = ix2 (0 : Fin 1) o := by
    funext a; apply Fin.ext
    match a with
    | ⟨0, _⟩ => show win0_7.index t (0 : Fin 2) * 1 + 1 * 0 = 0; omega
    | ⟨1, _⟩ => show win0_7.index t (1 : Fin 2) * 64 + 1 * o.val = o.val; omega
  rw [h]

/-! ## What a point writes back, and the result -/

/-- Point `t` writes back rows `8 t … 8 t + 7` of `result`. -/
theorem flushed_eq (t : Fin cfg0.N) :
    (dats m 0 c).flushed 8 t = ((cfg0.win 8).blk t).view.read (Elt Ideal) (result m c) := by
  show (cfg0.win 8).cut (grid0.coords t) ((dats m 0 c).after 8 t) = _
  rw [after8]
  funext j
  show outBlock (F := Ideal) (iblk m c 0 t) (iblk m c 1 t) (iblk m c 2 t) (iblk m c 3 t) (iblk m c 4 t) (iblk m c 5 t) (iblk m c 6 t) (iblk m c 7 t) j
    = result m c (((cfg0.win 8).blk t).view.emb j)
  rw [outBlock_at]
  simp only [blk0, blk1, blk2, blk3, blk4, blk5, blk6, blk7]
  have e := idx_facts t
  have hr : (⟨((((cfg0.win 8).blk t).view.emb j) 0).val, ((((cfg0.win 8).blk t).view.emb j) 0).isLt⟩ : Fin 64)
      = graphOf t ⟨(j 0).val, (j 0).isLt⟩ := Fin.ext (by
    show win0_8.index t (0 : Fin 2) * 8 + 1 * (j 0).val = t.val * 8 + (j 0).val; omega)
  have hc : (⟨((((cfg0.win 8).blk t).view.emb j) 1).val, ((((cfg0.win 8).blk t).view.emb j) 1).isLt⟩ : Fin 64)
      = ⟨(j 1).val, (j 1).isLt⟩ := Fin.ext (by
    show win0_8.index t (1 : Fin 2) * 64 + 1 * (j 1).val = (j 1).val; omega)
  show _ = Gcn.netT (ST m c) (XT m c) (W1T m c) (B1 m c) (W2T m c) (B2 m c) (WO m c) (BO m c) _ _
  rw [hr, hc]
  rfl

theorem mem_blk (t : Fin cfg0.N) (i : S64x64.Idx) :
    i ∈ ((cfg0.win 8).blk t).view.set ↔ ∀ a : Fin 2, win0_8.index t a * S8x64.size a ≤ (i a).val ∧ (i a).val < win0_8.index t a * S8x64.size a + S8x64.size a := by
  show i ∈ ((View.whole main_v50).slice (win0_8.rect t)).set ↔ _
  rw [View.set_slice_whole, Rect.mem_set_unit]
  exact Iff.rfl

theorem cover (i : S64x64.Idx) : ∃ t : Fin cfg0.N, (cfg0.win 8).flush t = true ∧ i ∈ ((cfg0.win 8).blk t).view.set := by
  have hi0 : (i 0).val < 64 := (i 0).isLt
  have hi1 : (i 1).val < 64 := (i 1).isLt
  have ht : ∃ t : Fin cfg0.N, t.val = (i 0).val / 8 := ⟨⟨(i 0).val / 8, by have := hN; omega⟩, rfl⟩
  obtain ⟨t, ht⟩ := ht
  refine ⟨t, flush0_8 t, ?_⟩
  rw [mem_blk]
  have e := idx_facts t
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 64 ≤ (i 1).val ∧ (i 1).val < win0_8.index t (1 : Fin 2) * 64 + 64; omega

/-- THE RESULT ARRAY after the run. -/
theorem final : (dats m 0 c).arrAt 8 cfg0.N = result m c :=
  (dats m 0 c).arrAt_eq_of_cover 8 (result m c) (fun t _ => flushed_eq m c t) (cover)

/-- The run, with the result array named and the arguments unchanged. -/
theorem run : θ_run defs (onTc (τ := τ) (main (F := Ideal))) ⟨m, fun _ => 0, ρ⟩ (fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Val

end
-- ==== Proof.KernelHost.lean ====
import proofs.«104581_j39402029973528_2_alg».proof.Proof.FrameKernelIdeal
import Idealize.ShloMosaic.Lib.Pipeline.Value
import Idealize.ShloMosaic.Lib.ValueLayout

/-!
# The arrays the host operations prepare for the kernel, read by coordinates

Before the kernel the host transposes the features to feature-major `[64, 128, 512]` (after viewing the `[32768, 128]`
argument as `[64, 512, 128]`), transposes each weight matrix, and views the biases as a column `[1, 128, 1]` and a row
`[1, 64]`; roundings to a narrower format are the identity on the extended reals. Entry by entry, each prepared array is
an argument read at the permuted coordinates.
-/

set_option maxRecDepth 16384

noncomputable section

namespace Cert.KernelIdeal.Host

open Idealize.ShloMosaic Idealize.ShloMosaic.TcCoe Idealize.ShloMosaic.ValueIdx Idealize.ShloMosaic.StableHlo Idealize.SL.Sem
open Cert.KernelIdeal Cert.KernelIdeal.Gen

abbrev Val := Valuation τ sig (Elt Ideal)

/-- The host operations before the last stretch, and all of them. -/
abbrev pre : List (HloOp τ sig (Elt Ideal)) := List.flatten [hostOps0, hostOps0_1, hostOps0_2, hostOps0_3, hostOps0_4, hostOps0_5]
abbrev all : List (HloOp τ sig (Elt Ideal)) := List.flatten [hostOps0, hostOps0_1, hostOps0_2, hostOps0_3, hostOps0_4, hostOps0_5, hostOps0_6]

theorem all_split : all = pre ++ hostOps0_6 := by
  simp only [all, pre, List.flatten_cons, List.flatten_nil, List.append_nil, List.append_assoc]

theorem after_all (VK : Val) (b : DevRef τ sig) : after all VK b = after hostOps0_6 (after pre VK) b := by
  rw [all_split, StableHlo.after_append]

theorem pre_arg0 (VK : Val) : after pre VK (main_arg0 : DevRef τ sig) = VK (main_arg0 : DevRef τ sig) :=
  StableHlo.after_of_forall_not_mem (b := Proc.devRef .tc main_arg0) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg3 (VK : Val) : after pre VK (main_arg3 : DevRef τ sig) = VK (main_arg3 : DevRef τ sig) :=
  StableHlo.after_of_forall_not_mem (b := Proc.devRef .tc main_arg3) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg4 (VK : Val) : after pre VK (main_arg4 : DevRef τ sig) = VK (main_arg4 : DevRef τ sig) :=
  StableHlo.after_of_forall_not_mem (b := Proc.devRef .tc main_arg4) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg5 (VK : Val) : after pre VK (main_arg5 : DevRef τ sig) = VK (main_arg5 : DevRef τ sig) :=
  StableHlo.after_of_forall_not_mem (b := Proc.devRef .tc main_arg5) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg6 (VK : Val) : after pre VK (main_arg6 : DevRef τ sig) = VK (main_arg6 : DevRef τ sig) :=
  StableHlo.after_of_forall_not_mem (b := Proc.devRef .tc main_arg6) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg7 (VK : Val) : after pre VK (main_arg7 : DevRef τ sig) = VK (main_arg7 : DevRef τ sig) :=
  StableHlo.after_of_forall_not_mem (b := Proc.devRef .tc main_arg7) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg8 (VK : Val) : after pre VK (main_arg8 : DevRef τ sig) = VK (main_arg8 : DevRef τ sig) :=
  StableHlo.after_of_forall_not_mem (b := Proc.devRef .tc main_arg8) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
theorem pre_arg9 (VK : Val) : after pre VK (main_arg9 : DevRef τ sig) = VK (main_arg9 : DevRef τ sig) :=
  StableHlo.after_of_forall_not_mem (b := Proc.devRef .tc main_arg9) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The last stretch, over any contents -/

theorem read41 (W : Val) : (after hostOps0_6 W (main_v41 : DevRef τ sig) : S64x128x512.Idx → EReal)
    = transpose S64x128x512 [0, 2, 1] (shapeCast S64x512x128 (W (main_arg0 : DevRef τ sig) : S32768x128.Idx → EReal) shapeCasts_S32768x128_S64x512x128) transposes_S64x512x128_S64x128x512_0_2_1 := by
  after_results
  rfl

theorem read43 (W : Val) : (after hostOps0_6 W (main_v43 : DevRef τ sig) : S3x128x128.Idx → EReal)
    = transpose S3x128x128 [0, 2, 1] (W (main_arg3 : DevRef τ sig) : S3x128x128.Idx → EReal) transposes_S3x128x128_S3x128x128_0_2_1 := by
  after_results
  rfl

theorem read45 (W : Val) : (after hostOps0_6 W (main_v45 : DevRef τ sig) : S3x128x128.Idx → EReal)
    = transpose S3x128x128 [0, 2, 1] (W (main_arg5 : DevRef τ sig) : S3x128x128.Idx → EReal) transposes_S3x128x128_S3x128x128_0_2_1 := by
  after_results
  rfl

theorem read46 (W : Val) : (after hostOps0_6 W (main_v46 : DevRef τ sig) : S128x64.Idx → EReal)
    = (W (main_arg7 : DevRef τ sig) : S128x64.Idx → EReal) := by
  after_results
  rfl

theorem read47 (W : Val) : (after hostOps0_6 W (main_v47 : DevRef τ sig) : S1x128x1.Idx → EReal)
    = shapeCast S1x128x1 (W (main_arg4 : DevRef τ sig) : S128.Idx → EReal) shapeCasts_S128_S1x128x1 := by
  after_results
  rfl

theorem read48 (W : Val) : (after hostOps0_6 W (main_v48 : DevRef τ sig) : S1x128x1.Idx → EReal)
    = shapeCast S1x128x1 (W (main_arg6 : DevRef τ sig) : S128.Idx → EReal) shapeCasts_S128_S1x128x1 := by
  after_results
  rfl

theorem read49 (W : Val) : (after hostOps0_6 W (main_v49 : DevRef τ sig) : S1x64.Idx → EReal)
    = shapeCast S1x64 (W (main_arg8 : DevRef τ sig) : S64.Idx → EReal) shapeCasts_S64_S1x64 := by
  after_results
  rfl

/-! ## The prepared arrays at an entry -/

/-- The feature-major features at `(b, f, i)`: the `[64, 512, 128]` view of the argument at `(b, i, f)`. -/
theorem feat_at (VK : Val) (b : Fin 64) (f : Fin 128) (i : Fin 512) :
    (after all VK (main_v41 : DevRef τ sig) : S64x128x512.Idx → EReal) (ix3 b f i)
      = shapeCast S64x512x128 (VK (main_arg0 : DevRef τ sig) : S32768x128.Idx → EReal) shapeCasts_S32768x128_S64x512x128 (ix3 b i f) := by
  rw [after_all, read41, transpose_ix3_021_apply, pre_arg0]

theorem w1_at (VK : Val) (k : Fin 3) (g f : Fin 128) :
    (after all VK (main_v43 : DevRef τ sig) : S3x128x128.Idx → EReal) (ix3 k g f)
      = (VK (main_arg3 : DevRef τ sig) : S3x128x128.Idx → EReal) (ix3 k f g) := by
  rw [after_all, read43, transpose_ix3_021_apply, pre_arg3]

theorem w2_at (VK : Val) (k : Fin 3) (g f : Fin 128) :
    (after all VK (main_v45 : DevRef τ sig) : S3x128x128.Idx → EReal) (ix3 k g f)
      = (VK (main_arg5 : DevRef τ sig) : S3x128x128.Idx → EReal) (ix3 k f g) := by
  rw [after_all, read45, transpose_ix3_021_apply, pre_arg5]

theorem wo_at (VK : Val) (g : Fin 128) (o : Fin 64) :
    (after all VK (main_v46 : DevRef τ sig) : S128x64.Idx → EReal) (ix2 g o)
      = (VK (main_arg7 : DevRef τ sig) : S128x64.Idx → EReal) (ix2 g o) := by
  rw [after_all, read46, pre_arg7]

theorem col_at (x : S128.Idx → EReal) (g : Fin 128) :
    shapeCast S1x128x1 x shapeCasts_S128_S1x128x1 (ix3 (0 : Fin 1) g (0 : Fin 1)) = x (ix1 g) :=
  shapeCast_apply x _ _ _ (by
    rw [Shape.rowMajor_val_one, Shape.rowMajor_val_three]
    show g.val = (0 * 128 + g.val) * 1 + 0
    omega)

theorem b1_at (VK : Val) (g : Fin 128) :
    (after all VK (main_v47 : DevRef τ sig) : S1x128x1.Idx → EReal) (ix3 (0 : Fin 1) g (0 : Fin 1))
      = (VK (main_arg4 : DevRef τ sig) : S128.Idx → EReal) (ix1 g) := by
  rw [after_all, read47, col_at, pre_arg4]

theorem b2_at (VK : Val) (g : Fin 128) :
    (after all VK (main_v48 : DevRef τ sig) : S1x128x1.Idx → EReal) (ix3 (0 : Fin 1) g (0 : Fin 1))
      = (VK (main_arg6 : DevRef τ sig) : S128.Idx → EReal) (ix1 g) := by
  rw [after_all, read48, col_at, pre_arg6]

theorem bo_at (VK : Val) (o : Fin 64) :
    (after all VK (main_v49 : DevRef τ sig) : S1x64.Idx → EReal) (ix2 (0 : Fin 1) o)
      = (VK (main_arg8 : DevRef τ sig) : S64.Idx → EReal) (ix1 o) := by
  rw [after_all, read49, shapeCast_a_1a_apply, pre_arg8]

end Cert.KernelIdeal.Host

end
-- ==== Proof.RefRun.lean ====
import proofs.«104581_j39402029973528_2_alg».proof.Proof.Gen.ReferenceIdeal
import Idealize.ShloMosaic.Lib.StableHlo.Run
import Idealize.ShloMosaic.Lib.Pipeline.Frame

/-!
# The reference program's run

The reference is a straight line of host operations (the helper functions' bodies written out at their calls):
the per-graph adjacency built by a scatter-add of ones, scaled and added to a multiple of the identity, then two
polynomial graph-convolution layers, the maximum over each graph's nodes, and the output projection. Every weakly
fair execution terminates with every buffer at the fold of the operations over the launch contents.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations up to the adjacency and the features' reshape. -/
abbrev opsA : List (HloOp τ sig (Elt F)) :=
  [ StableHlo.unary main_arg2 main_v0 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v0 main_v1 rfl shapeCasts_S1x524288_S524288,
    StableHlo.unary main_arg2 main_v2 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v2 main_v3 rfl shapeCasts_S1x524288_S524288,
    StableHlo.nullary main_c (constantI S_ 32 512#32),
    StableHlo.TRef.unary (.of main_c : StableHlo.TRef sig ⟨S_, .i32⟩) main_call0.v0 id,
    StableHlo.TRef.unary main_call0.v0 main_call0.v1 (broadcastInDim S524288 ![] bcast_S_S524288),
    StableHlo.TRef.binary (.of main_v1 : StableHlo.TRef sig ⟨S524288, .i32⟩) main_call0.v1 main_call0.v2 Host.divsi,
    StableHlo.TRef.unary (.of main_v1 : StableHlo.TRef sig ⟨S524288, .i32⟩) main_call0.v3 signi,
    StableHlo.TRef.unary main_call0.v0 main_call0.v4 signi,
    StableHlo.TRef.unary main_call0.v4 main_call0.v5 (broadcastInDim S524288 ![] bcast_S_S524288),
    StableHlo.TRef.binary main_call0.v3 main_call0.v5 main_call0.v6 (cmpi .ne),
    StableHlo.TRef.unary main_call0.v0 main_call0.v7 (broadcastInDim S524288 ![] bcast_S_S524288),
    StableHlo.TRef.binary (.of main_v1 : StableHlo.TRef sig ⟨S524288, .i32⟩) main_call0.v7 main_call0.v8 Host.remsi,
    StableHlo.TRef.nullary main_call0.c (constantI S_ 32 0#32),
    StableHlo.TRef.unary main_call0.c main_call0.v9 (broadcastInDim S524288 ![] bcast_S_S524288),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S524288 ![] bcast_S_S524288),
    StableHlo.TRef.binary main_call0.v2 main_call0.v12 main_call0.v13 subi,
    StableHlo.TRef.ternary main_call0.v11 main_call0.v13 main_call0.v2 main_call0.call0.v0 select,
    StableHlo.nullary main_cst (constant S_ .f32 0x00000000#32),
    StableHlo.unary main_cst main_v5 (broadcastInDim S64x512x512 ![] bcast_S_S64x512x512 : (⟨S_, .f32⟩ : BufTy).Contents (Elt F) → (⟨S64x512x512, .f32⟩ : BufTy).Contents (Elt F)),
    StableHlo.nullary main_c_0 (constantI S_ 32 512#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S524288 ![] bcast_S_S524288),
    StableHlo.TRef.binary (.of main_v1 : StableHlo.TRef sig ⟨S524288, .i32⟩) main_call1.v3 main_call1.v4 Host.remsi,
    StableHlo.TRef.nullary main_call1.c_1 (constantI S_ 32 0#32),
    StableHlo.TRef.unary main_call1.c_1 main_call1.v5 (broadcastInDim S524288 ![] bcast_S_S524288),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S524288 ![] bcast_S_S524288),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S524288 ![] bcast_S_S524288),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S524288 ![] bcast_S_S524288),
    StableHlo.TRef.binary main_call1.v4 main_call1.v13 main_call1.v14 addi,
    StableHlo.TRef.ternary main_call1.v12 main_call1.v14 main_call1.v4 main_call1.v15 select,
    StableHlo.nullary main_c_1 (constantI S_ 32 512#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S524288 ![] bcast_S_S524288),
    StableHlo.TRef.binary (.of main_v3 : StableHlo.TRef sig ⟨S524288, .i32⟩) main_call2.v3 main_call2.v4 Host.remsi,
    StableHlo.TRef.nullary main_call2.c_1 (constantI S_ 32 0#32),
    StableHlo.TRef.unary main_call2.c_1 main_call2.v5 (broadcastInDim S524288 ![] bcast_S_S524288),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S524288 ![] bcast_S_S524288),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S524288 ![] bcast_S_S524288),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S524288 ![] bcast_S_S524288),
    StableHlo.TRef.binary main_call2.v4 main_call2.v13 main_call2.v14 addi,
    StableHlo.TRef.ternary main_call2.v12 main_call2.v14 main_call2.v4 main_call2.v15 select,
    StableHlo.nullary main_c_2 (constantI S_ 32 0#32),
    StableHlo.unary main_c_2 main_v8 (broadcastInDim S524288 ![] bcast_S_S524288 : (⟨S_, .i32⟩ : BufTy).Contents (Elt F) → (⟨S524288, .i32⟩ : BufTy).Contents (Elt F)),
    StableHlo.binary main_v4 main_v8 main_v9 (cmpi .slt : (⟨S524288, .i32⟩ : BufTy).Contents (Elt F) → (⟨S524288, .i32⟩ : BufTy).Contents (Elt F) → (⟨S524288, .i1⟩ : BufTy).Contents (Elt F)),
    StableHlo.nullary main_c_3 (constantI S_ 32 64#32),
    StableHlo.unary main_c_3 main_v10 (broadcastInDim S524288 ![] bcast_S_S524288 : (⟨S_, .i32⟩ : BufTy).Contents (Elt F) → (⟨S524288, .i32⟩ : BufTy).Contents (Elt F)),
    StableHlo.binary main_v4 main_v10 main_v11 (addi : (⟨S524288, .i32⟩ : BufTy).Contents (Elt F) → (⟨S524288, .i32⟩ : BufTy).Contents (Elt F) → (⟨S524288, .i32⟩ : BufTy).Contents (Elt F)),
    StableHlo.ternary main_v9 main_v11 main_v4 main_v12 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_4 (constantI S_ 32 0#32),
    StableHlo.unary main_c_4 main_v13 (broadcastInDim S524288 ![] bcast_S_S524288 : (⟨S_, .i32⟩ : BufTy).Contents (Elt F) → (⟨S524288, .i32⟩ : BufTy).Contents (Elt F)),
    StableHlo.binary main_v6 main_v13 main_v14 (cmpi .slt : (⟨S524288, .i32⟩ : BufTy).Contents (Elt F) → (⟨S524288, .i32⟩ : BufTy).Contents (Elt F) → (⟨S524288, .i1⟩ : BufTy).Contents (Elt F)),
    StableHlo.nullary main_c_5 (constantI S_ 32 512#32),
    StableHlo.unary main_c_5 main_v15 (broadcastInDim S524288 ![] bcast_S_S524288 : (⟨S_, .i32⟩ : BufTy).Contents (Elt F) → (⟨S524288, .i32⟩ : BufTy).Contents (Elt F)),
    StableHlo.binary main_v6 main_v15 main_v16 (addi : (⟨S524288, .i32⟩ : BufTy).Contents (Elt F) → (⟨S524288, .i32⟩ : BufTy).Contents (Elt F) → (⟨S524288, .i32⟩ : BufTy).Contents (Elt F)),
    StableHlo.ternary main_v14 main_v16 main_v6 main_v17 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_6 (constantI S_ 32 0#32),
    StableHlo.unary main_c_6 main_v18 (broadcastInDim S524288 ![] bcast_S_S524288 : (⟨S_, .i32⟩ : BufTy).Contents (Elt F) → (⟨S524288, .i32⟩ : BufTy).Contents (Elt F)),
    StableHlo.binary main_v7 main_v18 main_v19 (cmpi .slt : (⟨S524288, .i32⟩ : BufTy).Contents (Elt F) → (⟨S524288, .i32⟩ : BufTy).Contents (Elt F) → (⟨S524288, .i1⟩ : BufTy).Contents (Elt F)),
    StableHlo.nullary main_c_7 (constantI S_ 32 512#32),
    StableHlo.unary main_c_7 main_v20 (broadcastInDim S524288 ![] bcast_S_S524288 : (⟨S_, .i32⟩ : BufTy).Contents (Elt F) → (⟨S524288, .i32⟩ : BufTy).Contents (Elt F)),
    StableHlo.binary main_v7 main_v20 main_v21 (addi : (⟨S524288, .i32⟩ : BufTy).Contents (Elt F) → (⟨S524288, .i32⟩ : BufTy).Contents (Elt F) → (⟨S524288, .i32⟩ : BufTy).Contents (Elt F)),
    StableHlo.ternary main_v19 main_v21 main_v7 main_v22 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v12 main_v23 (broadcastInDim S524288x1 ![0] bcast_S524288_S524288x1_0 : (⟨S524288, .i32⟩ : BufTy).Contents (Elt F) → (⟨S524288x1, .i32⟩ : BufTy).Contents (Elt F)),
    StableHlo.unary main_v17 main_v24 (broadcastInDim S524288x1 ![0] bcast_S524288_S524288x1_0 : (⟨S524288, .i32⟩ : BufTy).Contents (Elt F) → (⟨S524288x1, .i32⟩ : BufTy).Contents (Elt F)),
    StableHlo.unary main_v22 main_v25 (broadcastInDim S524288x1 ![0] bcast_S524288_S524288x1_0 : (⟨S524288, .i32⟩ : BufTy).Contents (Elt F) → (⟨S524288x1, .i32⟩ : BufTy).Contents (Elt F)),
    StableHlo.nary ![main_v23, main_v24, main_v25] main_v26 (fun u => concatenate S524288x3 1 [⟨S524288x1, u 0⟩, ⟨S524288x1, u 1⟩, ⟨S524288x1, u 2⟩] concatenates_S524288x1_S524288x1_S524288x1_S524288x3_d1),
    StableHlo.nullary main_cst_8 (constant S_ .f32 0x3F800000#32),
    StableHlo.unary main_cst_8 main_v27 (broadcastInDim S524288 ![] bcast_S_S524288 : (⟨S_, .f32⟩ : BufTy).Contents (Elt F) → (⟨S524288, .f32⟩ : BufTy).Contents (Elt F)),
    StableHlo.ternary main_v5 main_v26 main_v27 main_v28 ((fun x i u => Host.scatterAdd scatter_S64x512x512_S524288x3_S524288_n_012_012_1 x i u) : (⟨S64x512x512, .f32⟩ : BufTy).Contents (Elt F) → (⟨S524288x3, .i32⟩ : BufTy).Contents (Elt F) → (⟨S524288, .f32⟩ : BufTy).Contents (Elt F) → (⟨S64x512x512, .f32⟩ : BufTy).Contents (Elt F)),
    StableHlo.unary main_arg9 main_v29 (broadcastInDim S64x512x512 ![] bcast_S_S64x512x512 : (⟨S_, .f32⟩ : BufTy).Contents (Elt F) → (⟨S64x512x512, .f32⟩ : BufTy).Contents (Elt F)),
    StableHlo.binary main_v29 main_v28 main_v30 (mulf : (⟨S64x512x512, .f32⟩ : BufTy).Contents (Elt F) → (⟨S64x512x512, .f32⟩ : BufTy).Contents (Elt F) → (⟨S64x512x512, .f32⟩ : BufTy).Contents (Elt F)),
    StableHlo.nullary main_cst_9 (constant S_ .f32 0x3F800000#32),
    StableHlo.binary main_cst_9 main_arg9 main_v31 (subf : (⟨S_, .f32⟩ : BufTy).Contents (Elt F) → (⟨S_, .f32⟩ : BufTy).Contents (Elt F) → (⟨S_, .f32⟩ : BufTy).Contents (Elt F)),
    StableHlo.nullary main_v32 (iotaInDim S512x512 32 0),
    StableHlo.nullary main_v33 (iotaInDim S512x512 32 1),
    StableHlo.nullary main_c_10 (constantI S_ 32 0#32),
    StableHlo.unary main_c_10 main_v34 (broadcastInDim S512x512 ![] bcast_S_S512x512 : (⟨S_, .i32⟩ : BufTy).Contents (Elt F) → (⟨S512x512, .i32⟩ : BufTy).Contents (Elt F)),
    StableHlo.binary main_v32 main_v34 main_v35 (addi : (⟨S512x512, .i32⟩ : BufTy).Contents (Elt F) → (⟨S512x512, .i32⟩ : BufTy).Contents (Elt F) → (⟨S512x512, .i32⟩ : BufTy).Contents (Elt F)),
    StableHlo.binary main_v35 main_v33 main_v36 (cmpi .eq : (⟨S512x512, .i32⟩ : BufTy).Contents (Elt F) → (⟨S512x512, .i32⟩ : BufTy).Contents (Elt F) → (⟨S512x512, .i1⟩ : BufTy).Contents (Elt F)),
    StableHlo.unary main_v36 main_v37 (uitofp .f32 : (⟨S512x512, .i1⟩ : BufTy).Contents (Elt F) → (⟨S512x512, .f32⟩ : BufTy).Contents (Elt F)),
    StableHlo.unary main_v31 main_v38 (broadcastInDim S512x512 ![] bcast_S_S512x512 : (⟨S_, .f32⟩ : BufTy).Contents (Elt F) → (⟨S512x512, .f32⟩ : BufTy).Contents (Elt F)),
    StableHlo.binary main_v38 main_v37 main_v39 (mulf : (⟨S512x512, .f32⟩ : BufTy).Contents (Elt F) → (⟨S512x512, .f32⟩ : BufTy).Contents (Elt F) → (⟨S512x512, .f32⟩ : BufTy).Contents (Elt F)),
    StableHlo.unary main_v39 main_v40 (broadcastInDim S1x512x512 ![1, 2] bcast_S512x512_S1x512x512_1_2 : (⟨S512x512, .f32⟩ : BufTy).Contents (Elt F) → (⟨S1x512x512, .f32⟩ : BufTy).Contents (Elt F)),
    StableHlo.unary main_v40 main_v41 (broadcastInDim S64x512x512 ![0, 1, 2] bcast_S1x512x512_S64x512x512_0_1_2 : (⟨S1x512x512, .f32⟩ : BufTy).Contents (Elt F) → (⟨S64x512x512, .f32⟩ : BufTy).Contents (Elt F)),
    StableHlo.binary main_v30 main_v41 main_v42 (addf : (⟨S64x512x512, .f32⟩ : BufTy).Contents (Elt F) → (⟨S64x512x512, .f32⟩ : BufTy).Contents (Elt F) → (⟨S64x512x512, .f32⟩ : BufTy).Contents (Elt F)),
    StableHlo.reshape main_arg0 main_v43 rfl shapeCasts_S32768x128_S64x512x128 ]

/-- The two layers, the pooling and the projection. -/
abbrev opsB : List (HloOp τ sig (Elt F)) :=
  [ StableHlo.unary main_arg3 main_v44 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v44 main_v45 rfl shapeCasts_S1x128x128_S128x128,
    StableHlo.binary main_v43 main_v45 main_v46 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v42 main_v43 main_v47 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg3 main_v48 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v48 main_v49 rfl shapeCasts_S1x128x128_S128x128,
    StableHlo.binary main_v47 main_v49 main_v50 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v46 main_v50 main_v51 (addf : (⟨S64x512x128, .f32⟩ : BufTy).Contents (Elt F) → (⟨S64x512x128, .f32⟩ : BufTy).Contents (Elt F) → (⟨S64x512x128, .f32⟩ : BufTy).Contents (Elt F)),
    StableHlo.binary main_v42 main_v47 main_v52 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg3 main_v53 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.binary main_v52 main_v54 main_v55 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v51 main_v55 main_v56 (addf : (⟨S64x512x128, .f32⟩ : BufTy).Contents (Elt F) → (⟨S64x512x128, .f32⟩ : BufTy).Contents (Elt F) → (⟨S64x512x128, .f32⟩ : BufTy).Contents (Elt F)),
    StableHlo.unary main_arg4 main_v57 (broadcastInDim S1x1x128 ![2] bcast_S128_S1x1x128_2 : (⟨S128, .f32⟩ : BufTy).Contents (Elt F) → (⟨S1x1x128, .f32⟩ : BufTy).Contents (Elt F)),
    StableHlo.unary main_v57 main_v58 (broadcastInDim S64x512x128 ![0, 1, 2] bcast_S1x1x128_S64x512x128_0_1_2 : (⟨S1x1x128, .f32⟩ : BufTy).Contents (Elt F) → (⟨S64x512x128, .f32⟩ : BufTy).Contents (Elt F)),
    StableHlo.binary main_v56 main_v58 main_v59 (addf : (⟨S64x512x128, .f32⟩ : BufTy).Contents (Elt F) → (⟨S64x512x128, .f32⟩ : BufTy).Contents (Elt F) → (⟨S64x512x128, .f32⟩ : BufTy).Contents (Elt F)),
    StableHlo.TRef.nullary main_call3.cst (constant S_ .f32 0x00000000#32),
    StableHlo.TRef.unary main_call3.cst main_call3.v0 (broadcastInDim S64x512x128 ![] bcast_S_S64x512x128),
    StableHlo.TRef.binary (.of main_v59 : StableHlo.TRef sig ⟨S64x512x128, .f32⟩) main_call3.v0 main_call3.v1 maximumf,
    StableHlo.unary main_arg5 main_v61 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.binary main_v60 main_v62 main_v63 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v42 main_v60 main_v64 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg5 main_v65 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v65 main_v66 rfl shapeCasts_S1x128x128_S128x128,
    StableHlo.binary main_v64 main_v66 main_v67 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v63 main_v67 main_v68 (addf : (⟨S64x512x128, .f32⟩ : BufTy).Contents (Elt F) → (⟨S64x512x128, .f32⟩ : BufTy).Contents (Elt F) → (⟨S64x512x128, .f32⟩ : BufTy).Contents (Elt F)),
    StableHlo.binary main_v42 main_v64 main_v69 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg5 main_v70 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v70 main_v71 rfl shapeCasts_S1x128x128_S128x128,
    StableHlo.binary main_v69 main_v71 main_v72 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v68 main_v72 main_v73 (addf : (⟨S64x512x128, .f32⟩ : BufTy).Contents (Elt F) → (⟨S64x512x128, .f32⟩ : BufTy).Contents (Elt F) → (⟨S64x512x128, .f32⟩ : BufTy).Contents (Elt F)),
    StableHlo.unary main_arg6 main_v74 (broadcastInDim S1x1x128 ![2] bcast_S128_S1x1x128_2 : (⟨S128, .f32⟩ : BufTy).Contents (Elt F) → (⟨S1x1x128, .f32⟩ : BufTy).Contents (Elt F)),
    StableHlo.unary main_v74 main_v75 (broadcastInDim S64x512x128 ![0, 1, 2] bcast_S1x1x128_S64x512x128_0_1_2 : (⟨S1x1x128, .f32⟩ : BufTy).Contents (Elt F) → (⟨S64x512x128, .f32⟩ : BufTy).Contents (Elt F)),
    StableHlo.binary main_v73 main_v75 main_v76 (addf : (⟨S64x512x128, .f32⟩ : BufTy).Contents (Elt F) → (⟨S64x512x128, .f32⟩ : BufTy).Contents (Elt F) → (⟨S64x512x128, .f32⟩ : BufTy).Contents (Elt F)),
    StableHlo.TRef.nullary main_call4.cst (constant S_ .f32 0x00000000#32),
    StableHlo.TRef.unary main_call4.cst main_call4.v0 (broadcastInDim S64x512x128 ![] bcast_S_S64x512x128),
    StableHlo.TRef.binary (.of main_v76 : StableHlo.TRef sig ⟨S64x512x128, .f32⟩) main_call4.v0 main_call4.v1 maximumf,
    StableHlo.nullary main_cst_11 (constant S_ .f32 0xFF800000#32),
    StableHlo.binary main_v77 main_cst_11 main_v78 ((fun x v => Host.reduce FloatOps.maximumf x v reducesTo_S64x512x128_S64x128_d1 h_S_) : (⟨S64x512x128, .f32⟩ : BufTy).Contents (Elt F) → (⟨S_, .f32⟩ : BufTy).Contents (Elt F) → (⟨S64x128, .f32⟩ : BufTy).Contents (Elt F)),
    StableHlo.binary main_v78 main_arg7 main_v79 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg8 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S64x64 ![0, 1] bcast_S1x64_S64x64_0_1 : (⟨S1x64, .f32⟩ : BufTy).Contents (Elt F) → (⟨S64x64, .f32⟩ : BufTy).Contents (Elt F)),
    StableHlo.binary main_v79 main_v81 main_v82 (addf : (⟨S64x64, .f32⟩ : BufTy).Contents (Elt F) → (⟨S64x64, .f32⟩ : BufTy).Contents (Elt F) → (⟨S64x64, .f32⟩ : BufTy).Contents (Elt F)) ]

/-- All of them, in order. -/
abbrev ops : List (HloOp τ sig (Elt F)) :=
  [ StableHlo.unary main_arg2 main_v0 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v0 main_v1 rfl shapeCasts_S1x524288_S524288,
    StableHlo.unary main_arg2 main_v2 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v2 main_v3 rfl shapeCasts_S1x524288_S524288,
    StableHlo.nullary main_c (constantI S_ 32 512#32),
    StableHlo.TRef.unary (.of main_c : StableHlo.TRef sig ⟨S_, .i32⟩) main_call0.v0 id,
    StableHlo.TRef.unary main_call0.v0 main_call0.v1 (broadcastInDim S524288 ![] bcast_S_S524288),
    StableHlo.TRef.binary (.of main_v1 : StableHlo.TRef sig ⟨S524288, .i32⟩) main_call0.v1 main_call0.v2 Host.divsi,
    StableHlo.TRef.unary (.of main_v1 : StableHlo.TRef sig ⟨S524288, .i32⟩) main_call0.v3 signi,
    StableHlo.TRef.unary main_call0.v0 main_call0.v4 signi,
    StableHlo.TRef.unary main_call0.v4 main_call0.v5 (broadcastInDim S524288 ![] bcast_S_S524288),
    StableHlo.TRef.binary main_call0.v3 main_call0.v5 main_call0.v6 (cmpi .ne),
    StableHlo.TRef.unary main_call0.v0 main_call0.v7 (broadcastInDim S524288 ![] bcast_S_S524288),
    StableHlo.TRef.binary (.of main_v1 : StableHlo.TRef sig ⟨S524288, .i32⟩) main_call0.v7 main_call0.v8 Host.remsi,
    StableHlo.TRef.nullary main_call0.c (constantI S_ 32 0#32),
    StableHlo.TRef.unary main_call0.c main_call0.v9 (broadcastInDim S524288 ![] bcast_S_S524288),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S524288 ![] bcast_S_S524288),
    StableHlo.TRef.binary main_call0.v2 main_call0.v12 main_call0.v13 subi,
    StableHlo.TRef.ternary main_call0.v11 main_call0.v13 main_call0.v2 main_call0.call0.v0 select,
    StableHlo.nullary main_cst (constant S_ .f32 0x00000000#32),
    StableHlo.unary main_cst main_v5 (broadcastInDim S64x512x512 ![] bcast_S_S64x512x512 : (⟨S_, .f32⟩ : BufTy).Contents (Elt F) → (⟨S64x512x512, .f32⟩ : BufTy).Contents (Elt F)),
    StableHlo.nullary main_c_0 (constantI S_ 32 512#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S524288 ![] bcast_S_S524288),
    StableHlo.TRef.binary (.of main_v1 : StableHlo.TRef sig ⟨S524288, .i32⟩) main_call1.v3 main_call1.v4 Host.remsi,
    StableHlo.TRef.nullary main_call1.c_1 (constantI S_ 32 0#32),
    StableHlo.TRef.unary main_call1.c_1 main_call1.v5 (broadcastInDim S524288 ![] bcast_S_S524288),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S524288 ![] bcast_S_S524288),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S524288 ![] bcast_S_S524288),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S524288 ![] bcast_S_S524288),
    StableHlo.TRef.binary main_call1.v4 main_call1.v13 main_call1.v14 addi,
    StableHlo.TRef.ternary main_call1.v12 main_call1.v14 main_call1.v4 main_call1.v15 select,
    StableHlo.nullary main_c_1 (constantI S_ 32 512#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S524288 ![] bcast_S_S524288),
    StableHlo.TRef.binary (.of main_v3 : StableHlo.TRef sig ⟨S524288, .i32⟩) main_call2.v3 main_call2.v4 Host.remsi,
    StableHlo.TRef.nullary main_call2.c_1 (constantI S_ 32 0#32),
    StableHlo.TRef.unary main_call2.c_1 main_call2.v5 (broadcastInDim S524288 ![] bcast_S_S524288),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S524288 ![] bcast_S_S524288),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S524288 ![] bcast_S_S524288),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S524288 ![] bcast_S_S524288),
    StableHlo.TRef.binary main_call2.v4 main_call2.v13 main_call2.v14 addi,
    StableHlo.TRef.ternary main_call2.v12 main_call2.v14 main_call2.v4 main_call2.v15 select,
    StableHlo.nullary main_c_2 (constantI S_ 32 0#32),
    StableHlo.unary main_c_2 main_v8 (broadcastInDim S524288 ![] bcast_S_S524288 : (⟨S_, .i32⟩ : BufTy).Contents (Elt F) → (⟨S524288, .i32⟩ : BufTy).Contents (Elt F)),
    StableHlo.binary main_v4 main_v8 main_v9 (cmpi .slt : (⟨S524288, .i32⟩ : BufTy).Contents (Elt F) → (⟨S524288, .i32⟩ : BufTy).Contents (Elt F) → (⟨S524288, .i1⟩ : BufTy).Contents (Elt F)),
    StableHlo.nullary main_c_3 (constantI S_ 32 64#32),
    StableHlo.unary main_c_3 main_v10 (broadcastInDim S524288 ![] bcast_S_S524288 : (⟨S_, .i32⟩ : BufTy).Contents (Elt F) → (⟨S524288, .i32⟩ : BufTy).Contents (Elt F)),
    StableHlo.binary main_v4 main_v10 main_v11 (addi : (⟨S524288, .i32⟩ : BufTy).Contents (Elt F) → (⟨S524288, .i32⟩ : BufTy).Contents (Elt F) → (⟨S524288, .i32⟩ : BufTy).Contents (Elt F)),
    StableHlo.ternary main_v9 main_v11 main_v4 main_v12 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_4 (constantI S_ 32 0#32),
    StableHlo.unary main_c_4 main_v13 (broadcastInDim S524288 ![] bcast_S_S524288 : (⟨S_, .i32⟩ : BufTy).Contents (Elt F) → (⟨S524288, .i32⟩ : BufTy).Contents (Elt F)),
    StableHlo.binary main_v6 main_v13 main_v14 (cmpi .slt : (⟨S524288, .i32⟩ : BufTy).Contents (Elt F) → (⟨S524288, .i32⟩ : BufTy).Contents (Elt F) → (⟨S524288, .i1⟩ : BufTy).Contents (Elt F)),
    StableHlo.nullary main_c_5 (constantI S_ 32 512#32),
    StableHlo.unary main_c_5 main_v15 (broadcastInDim S524288 ![] bcast_S_S524288 : (⟨S_, .i32⟩ : BufTy).Contents (Elt F) → (⟨S524288, .i32⟩ : BufTy).Contents (Elt F)),
    StableHlo.binary main_v6 main_v15 main_v16 (addi : (⟨S524288, .i32⟩ : BufTy).Contents (Elt F) → (⟨S524288, .i32⟩ : BufTy).Contents (Elt F) → (⟨S524288, .i32⟩ : BufTy).Contents (Elt F)),
    StableHlo.ternary main_v14 main_v16 main_v6 main_v17 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_6 (constantI S_ 32 0#32),
    StableHlo.unary main_c_6 main_v18 (broadcastInDim S524288 ![] bcast_S_S524288 : (⟨S_, .i32⟩ : BufTy).Contents (Elt F) → (⟨S524288, .i32⟩ : BufTy).Contents (Elt F)),
    StableHlo.binary main_v7 main_v18 main_v19 (cmpi .slt : (⟨S524288, .i32⟩ : BufTy).Contents (Elt F) → (⟨S524288, .i32⟩ : BufTy).Contents (Elt F) → (⟨S524288, .i1⟩ : BufTy).Contents (Elt F)),
    StableHlo.nullary main_c_7 (constantI S_ 32 512#32),
    StableHlo.unary main_c_7 main_v20 (broadcastInDim S524288 ![] bcast_S_S524288 : (⟨S_, .i32⟩ : BufTy).Contents (Elt F) → (⟨S524288, .i32⟩ : BufTy).Contents (Elt F)),
    StableHlo.binary main_v7 main_v20 main_v21 (addi : (⟨S524288, .i32⟩ : BufTy).Contents (Elt F) → (⟨S524288, .i32⟩ : BufTy).Contents (Elt F) → (⟨S524288, .i32⟩ : BufTy).Contents (Elt F)),
    StableHlo.ternary main_v19 main_v21 main_v7 main_v22 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v12 main_v23 (broadcastInDim S524288x1 ![0] bcast_S524288_S524288x1_0 : (⟨S524288, .i32⟩ : BufTy).Contents (Elt F) → (⟨S524288x1, .i32⟩ : BufTy).Contents (Elt F)),
    StableHlo.unary main_v17 main_v24 (broadcastInDim S524288x1 ![0] bcast_S524288_S524288x1_0 : (⟨S524288, .i32⟩ : BufTy).Contents (Elt F) → (⟨S524288x1, .i32⟩ : BufTy).Contents (Elt F)),
    StableHlo.unary main_v22 main_v25 (broadcastInDim S524288x1 ![0] bcast_S524288_S524288x1_0 : (⟨S524288, .i32⟩ : BufTy).Contents (Elt F) → (⟨S524288x1, .i32⟩ : BufTy).Contents (Elt F)),
    StableHlo.nary ![main_v23, main_v24, main_v25] main_v26 (fun u => concatenate S524288x3 1 [⟨S524288x1, u 0⟩, ⟨S524288x1, u 1⟩, ⟨S524288x1, u 2⟩] concatenates_S524288x1_S524288x1_S524288x1_S524288x3_d1),
    StableHlo.nullary main_cst_8 (constant S_ .f32 0x3F800000#32),
    StableHlo.unary main_cst_8 main_v27 (broadcastInDim S524288 ![] bcast_S_S524288 : (⟨S_, .f32⟩ : BufTy).Contents (Elt F) → (⟨S524288, .f32⟩ : BufTy).Contents (Elt F)),
    StableHlo.ternary main_v5 main_v26 main_v27 main_v28 ((fun x i u => Host.scatterAdd scatter_S64x512x512_S524288x3_S524288_n_012_012_1 x i u) : (⟨S64x512x512, .f32⟩ : BufTy).Contents (Elt F) → (⟨S524288x3, .i32⟩ : BufTy).Contents (Elt F) → (⟨S524288, .f32⟩ : BufTy).Contents (Elt F) → (⟨S64x512x512, .f32⟩ : BufTy).Contents (Elt F)),
    StableHlo.unary main_arg9 main_v29 (broadcastInDim S64x512x512 ![] bcast_S_S64x512x512 : (⟨S_, .f32⟩ : BufTy).Contents (Elt F) → (⟨S64x512x512, .f32⟩ : BufTy).Contents (Elt F)),
    StableHlo.binary main_v29 main_v28 main_v30 (mulf : (⟨S64x512x512, .f32⟩ : BufTy).Contents (Elt F) → (⟨S64x512x512, .f32⟩ : BufTy).Contents (Elt F) → (⟨S64x512x512, .f32⟩ : BufTy).Contents (Elt F)),
    StableHlo.nullary main_cst_9 (constant S_ .f32 0x3F800000#32),
    StableHlo.binary main_cst_9 main_arg9 main_v31 (subf : (⟨S_, .f32⟩ : BufTy).Contents (Elt F) → (⟨S_, .f32⟩ : BufTy).Contents (Elt F) → (⟨S_, .f32⟩ : BufTy).Contents (Elt F)),
    StableHlo.nullary main_v32 (iotaInDim S512x512 32 0),
    StableHlo.nullary main_v33 (iotaInDim S512x512 32 1),
    StableHlo.nullary main_c_10 (constantI S_ 32 0#32),
    StableHlo.unary main_c_10 main_v34 (broadcastInDim S512x512 ![] bcast_S_S512x512 : (⟨S_, .i32⟩ : BufTy).Contents (Elt F) → (⟨S512x512, .i32⟩ : BufTy).Contents (Elt F)),
    StableHlo.binary main_v32 main_v34 main_v35 (addi : (⟨S512x512, .i32⟩ : BufTy).Contents (Elt F) → (⟨S512x512, .i32⟩ : BufTy).Contents (Elt F) → (⟨S512x512, .i32⟩ : BufTy).Contents (Elt F)),
    StableHlo.binary main_v35 main_v33 main_v36 (cmpi .eq : (⟨S512x512, .i32⟩ : BufTy).Contents (Elt F) → (⟨S512x512, .i32⟩ : BufTy).Contents (Elt F) → (⟨S512x512, .i1⟩ : BufTy).Contents (Elt F)),
    StableHlo.unary main_v36 main_v37 (uitofp .f32 : (⟨S512x512, .i1⟩ : BufTy).Contents (Elt F) → (⟨S512x512, .f32⟩ : BufTy).Contents (Elt F)),
    StableHlo.unary main_v31 main_v38 (broadcastInDim S512x512 ![] bcast_S_S512x512 : (⟨S_, .f32⟩ : BufTy).Contents (Elt F) → (⟨S512x512, .f32⟩ : BufTy).Contents (Elt F)),
    StableHlo.binary main_v38 main_v37 main_v39 (mulf : (⟨S512x512, .f32⟩ : BufTy).Contents (Elt F) → (⟨S512x512, .f32⟩ : BufTy).Contents (Elt F) → (⟨S512x512, .f32⟩ : BufTy).Contents (Elt F)),
    StableHlo.unary main_v39 main_v40 (broadcastInDim S1x512x512 ![1, 2] bcast_S512x512_S1x512x512_1_2 : (⟨S512x512, .f32⟩ : BufTy).Contents (Elt F) → (⟨S1x512x512, .f32⟩ : BufTy).Contents (Elt F)),
    StableHlo.unary main_v40 main_v41 (broadcastInDim S64x512x512 ![0, 1, 2] bcast_S1x512x512_S64x512x512_0_1_2 : (⟨S1x512x512, .f32⟩ : BufTy).Contents (Elt F) → (⟨S64x512x512, .f32⟩ : BufTy).Contents (Elt F)),
    StableHlo.binary main_v30 main_v41 main_v42 (addf : (⟨S64x512x512, .f32⟩ : BufTy).Contents (Elt F) → (⟨S64x512x512, .f32⟩ : BufTy).Contents (Elt F) → (⟨S64x512x512, .f32⟩ : BufTy).Contents (Elt F)),
    StableHlo.reshape main_arg0 main_v43 rfl shapeCasts_S32768x128_S64x512x128,
    StableHlo.unary main_arg3 main_v44 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v44 main_v45 rfl shapeCasts_S1x128x128_S128x128,
    StableHlo.binary main_v43 main_v45 main_v46 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v42 main_v43 main_v47 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg3 main_v48 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v48 main_v49 rfl shapeCasts_S1x128x128_S128x128,
    StableHlo.binary main_v47 main_v49 main_v50 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v46 main_v50 main_v51 (addf : (⟨S64x512x128, .f32⟩ : BufTy).Contents (Elt F) → (⟨S64x512x128, .f32⟩ : BufTy).Contents (Elt F) → (⟨S64x512x128, .f32⟩ : BufTy).Contents (Elt F)),
    StableHlo.binary main_v42 main_v47 main_v52 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg3 main_v53 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.binary main_v52 main_v54 main_v55 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v51 main_v55 main_v56 (addf : (⟨S64x512x128, .f32⟩ : BufTy).Contents (Elt F) → (⟨S64x512x128, .f32⟩ : BufTy).Contents (Elt F) → (⟨S64x512x128, .f32⟩ : BufTy).Contents (Elt F)),
    StableHlo.unary main_arg4 main_v57 (broadcastInDim S1x1x128 ![2] bcast_S128_S1x1x128_2 : (⟨S128, .f32⟩ : BufTy).Contents (Elt F) → (⟨S1x1x128, .f32⟩ : BufTy).Contents (Elt F)),
    StableHlo.unary main_v57 main_v58 (broadcastInDim S64x512x128 ![0, 1, 2] bcast_S1x1x128_S64x512x128_0_1_2 : (⟨S1x1x128, .f32⟩ : BufTy).Contents (Elt F) → (⟨S64x512x128, .f32⟩ : BufTy).Contents (Elt F)),
    StableHlo.binary main_v56 main_v58 main_v59 (addf : (⟨S64x512x128, .f32⟩ : BufTy).Contents (Elt F) → (⟨S64x512x128, .f32⟩ : BufTy).Contents (Elt F) → (⟨S64x512x128, .f32⟩ : BufTy).Contents (Elt F)),
    StableHlo.TRef.nullary main_call3.cst (constant S_ .f32 0x00000000#32),
    StableHlo.TRef.unary main_call3.cst main_call3.v0 (broadcastInDim S64x512x128 ![] bcast_S_S64x512x128),
    StableHlo.TRef.binary (.of main_v59 : StableHlo.TRef sig ⟨S64x512x128, .f32⟩) main_call3.v0 main_call3.v1 maximumf,
    StableHlo.unary main_arg5 main_v61 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v61 main_v62 rfl shapeCasts_S1x128x128_S128x128,
    StableHlo.binary main_v60 main_v62 main_v63 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v42 main_v60 main_v64 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg5 main_v65 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v65 main_v66 rfl shapeCasts_S1x128x128_S128x128,
    StableHlo.binary main_v64 main_v66 main_v67 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v63 main_v67 main_v68 (addf : (⟨S64x512x128, .f32⟩ : BufTy).Contents (Elt F) → (⟨S64x512x128, .f32⟩ : BufTy).Contents (Elt F) → (⟨S64x512x128, .f32⟩ : BufTy).Contents (Elt F)),
    StableHlo.binary main_v42 main_v64 main_v69 ((fun l r => Host.dotGeneral dot_S64x512x512_S64x512x128_S64x512x128_2_1_1_2_0_0 none l r) : (⟨S64x512x512, .f32⟩ : BufTy).Contents (Elt F) → (⟨S64x512x128, .f32⟩ : BufTy).Contents (Elt F) → (⟨S64x512x128, .f32⟩ : BufTy).Contents (Elt F)),
    StableHlo.unary main_arg5 main_v70 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v70 main_v71 rfl shapeCasts_S1x128x128_S128x128,
    StableHlo.binary main_v69 main_v71 main_v72 ((fun l r => Host.dotGeneral dot_S64x512x128_S128x128_S64x512x128_2_0_01_1_n_n none l r) : (⟨S64x512x128, .f32⟩ : BufTy).Contents (Elt F) → (⟨S128x128, .f32⟩ : BufTy).Contents (Elt F) → (⟨S64x512x128, .f32⟩ : BufTy).Contents (Elt F)),
    StableHlo.binary main_v68 main_v72 main_v73 (addf : (⟨S64x512x128, .f32⟩ : BufTy).Contents (Elt F) → (⟨S64x512x128, .f32⟩ : BufTy).Contents (Elt F) → (⟨S64x512x128, .f32⟩ : BufTy).Contents (Elt F)),
    StableHlo.unary main_arg6 main_v74 (broadcastInDim S1x1x128 ![2] bcast_S128_S1x1x128_2 : (⟨S128, .f32⟩ : BufTy).Contents (Elt F) → (⟨S1x1x128, .f32⟩ : BufTy).Contents (Elt F)),
    StableHlo.unary main_v74 main_v75 (broadcastInDim S64x512x128 ![0, 1, 2] bcast_S1x1x128_S64x512x128_0_1_2 : (⟨S1x1x128, .f32⟩ : BufTy).Contents (Elt F) → (⟨S64x512x128, .f32⟩ : BufTy).Contents (Elt F)),
    StableHlo.binary main_v73 main_v75 main_v76 (addf : (⟨S64x512x128, .f32⟩ : BufTy).Contents (Elt F) → (⟨S64x512x128, .f32⟩ : BufTy).Contents (Elt F) → (⟨S64x512x128, .f32⟩ : BufTy).Contents (Elt F)),
    StableHlo.TRef.nullary main_call4.cst (constant S_ .f32 0x00000000#32),
    StableHlo.TRef.unary main_call4.cst main_call4.v0 (broadcastInDim S64x512x128 ![] bcast_S_S64x512x128),
    StableHlo.TRef.binary (.of main_v76 : StableHlo.TRef sig ⟨S64x512x128, .f32⟩) main_call4.v0 main_call4.v1 maximumf,
    StableHlo.nullary main_cst_11 (constant S_ .f32 0xFF800000#32),
    StableHlo.binary main_v77 main_cst_11 main_v78 ((fun x v => Host.reduce FloatOps.maximumf x v reducesTo_S64x512x128_S64x128_d1 h_S_) : (⟨S64x512x128, .f32⟩ : BufTy).Contents (Elt F) → (⟨S_, .f32⟩ : BufTy).Contents (Elt F) → (⟨S64x128, .f32⟩ : BufTy).Contents (Elt F)),
    StableHlo.binary main_v78 main_arg7 main_v79 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg8 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S64x64 ![0, 1] bcast_S1x64_S64x64_0_1 : (⟨S1x64, .f32⟩ : BufTy).Contents (Elt F) → (⟨S64x64, .f32⟩ : BufTy).Contents (Elt F)),
    StableHlo.binary main_v79 main_v81 main_v82 (addf : (⟨S64x64, .f32⟩ : BufTy).Contents (Elt F) → (⟨S64x64, .f32⟩ : BufTy).Contents (Elt F) → (⟨S64x64, .f32⟩ : BufTy).Contents (Elt F)) ]

theorem ops_split : (ops : List (HloOp τ sig (Elt F))) = opsA ++ opsB := rfl

set_option maxRecDepth 8192 in
set_option maxHeartbeats 4000000 in
theorem main_eq (c : Dev nD) : main (F := F) c = seq ops := by
  simp only [main, main_part0, main_part1, fn_floor_divide.body, fn_remainder.body, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., nullary_bufs_sub .., unary_bufs_sub .., ternary_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., unary_bufs_sub .., binary_bufs_sub .., unary_bufs_sub .., unary_bufs_sub .., binary_bufs_sub .., reshape_bufs_sub .., unary_bufs_sub .., reshape_bufs_sub .., binary_bufs_sub .., binary_bufs_sub .., unary_bufs_sub .., reshape_bufs_sub .., binary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., unary_bufs_sub .., reshape_bufs_sub .., binary_bufs_sub .., binary_bufs_sub .., unary_bufs_sub .., reshape_bufs_sub .., binary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub ..⟩

set_option maxRecDepth 8192 in
set_option maxHeartbeats 4000000 in
/-- Every weakly fair execution terminates, each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's result as the graph-convolution network.

  The program's second stretch — two polynomial layers, the maximum over each graph's nodes, the output projection — is a
  fixed composition of host operations of the adjacency and the features its first stretch left and of the six weight
  arguments. That composition, read entry by entry on the extended reals, is `Gcn.net`: every product is the sum over its
  contracted coordinate, a weight matrix is one slice of its stack, a bias is broadcast along the feature axis, the
  rectifier is the maximum with zero and the pooling a fold of `max` from `⊥`. No operation writes an argument.
-/
import proofs.«104581_j39402029973528_2_alg».proof.Proof.RefRun
import proofs.«104581_j39402029973528_2_alg».proof.Proof.GcnSpec
import proofs.«104581_j39402029973528_2_alg».proof.Proof.LibBatchDot
import proofs.«104581_j39402029973528_2_alg».proof.Proof.LibPlainDot
import Idealize.ShloMosaic.Lib.IdealHost
import Idealize.ShloMosaic.Lib.ValueLayout
import Idealize.ShloMosaic.Lib.Pipeline.Value

noncomputable section

namespace Cert.ReferenceIdeal.RefValue

open Idealize.ShloMosaic Idealize.ShloMosaic.ValueIdx Idealize.ShloMosaic.StableHlo Idealize.ShloMosaic.TcCoe Cert.ReferenceIdeal Cert.ReferenceIdeal.Gen

abbrev Val := Valuation τ sig (Elt Ideal)

/-! ## The two layers, the pooling and the projection as one term over the adjacency, the features and the weights -/

/-- The contraction of a node array's feature axis with a weight matrix. -/
abbrev dotS := dot_S64x512x128_S128x128_S64x512x128_2_0_01_1_n_n
/-- The per-graph product of the adjacency with a node array. -/
abbrev dotB := dot_S64x512x512_S64x512x128_S64x512x128_2_1_1_2_0_0
/-- The output projection's product. -/
abbrev dotO := dot_S64x128_S128x64_S64x64_1_0_0_1_n_n

/-- Matrix `k` of a stack of three weight matrices: the slice at offset `k` with its unit axis dropped. -/
def w0 (w : FVec Ideal S3x128x128 .f32) : FVec Ideal S128x128 .f32 :=
  shapeCast S128x128 (extractStridedSlice S1x128x128 ![0, 0, 0] w slices_S3x128x128_S1x128x128_0_0_0) shapeCasts_S1x128x128_S128x128
def w1 (w : FVec Ideal S3x128x128 .f32) : FVec Ideal S128x128 .f32 :=
  shapeCast S128x128 (extractStridedSlice S1x128x128 ![1, 0, 0] w slices_S3x128x128_S1x128x128_1_0_0) shapeCasts_S1x128x128_S128x128
def w2 (w : FVec Ideal S3x128x128 .f32) : FVec Ideal S128x128 .f32 :=
  shapeCast S128x128 (extractStridedSlice S1x128x128 ![2, 0, 0] w slices_S3x128x128_S1x128x128_2_0_0) shapeCasts_S1x128x128_S128x128

/-- One layer as the program computes it: the three projections of `x`, `S x` and `S (S x)` summed, the bias added
    along the feature axis, the maximum with zero. -/
def layerTerm (S : FVec Ideal S64x512x512 .f32) (x : FVec Ideal S64x512x128 .f32) (w : FVec Ideal S3x128x128 .f32)
    (bias : FVec Ideal S128 .f32) : FVec Ideal S64x512x128 .f32 :=
  maximumf
    (addf
      (addf
        (addf (Host.dotGeneral dotS none x (w0 w))
          (Host.dotGeneral dotS none (Host.dotGeneral dotB none S x) (w1 w)))
        (Host.dotGeneral dotS none (Host.dotGeneral dotB none S (Host.dotGeneral dotB none S x)) (w2 w)))
      (broadcastInDim S64x512x128 ![0, 1, 2] bcast_S1x1x128_S64x512x128_0_1_2
        (broadcastInDim S1x1x128 ![2] bcast_S128_S1x1x128_2 bias)))
    (broadcastInDim S64x512x128 ![] bcast_S_S64x512x128 (constant (F := Ideal) S_ .f32 0x00000000#32))

/-- The maximum over each graph's nodes from `-∞`, then the output projection and its bias. -/
def outTerm (h : FVec Ideal S64x512x128 .f32) (wo : FVec Ideal S128x64 .f32) (bo : FVec Ideal S64 .f32) : FVec Ideal S64x64 .f32 :=
  addf
    (Host.dotGeneral dotO none
      (Host.reduce (FloatOps.maximumf (F := Ideal) (φ := .f32)) h (constant (F := Ideal) S_ .f32 0xFF800000#32)
        reducesTo_S64x512x128_S64x128_d1 h_S_) wo)
    (broadcastInDim S64x64 ![0, 1] bcast_S1x64_S64x64_0_1 (broadcastInDim S1x64 ![1] bcast_S64_S1x64_1 bo))

set_option maxRecDepth 8192 in
set_option maxHeartbeats 4000000 in
/-- What the second stretch of the program leaves in the result buffer, as a term over what it reads. -/
theorem tail_term (W : Val) : after (RefRun.opsB (F := Ideal)) W (main_v82 : DevRef τ sig)
    = outTerm (layerTerm (W (main_v42 : DevRef τ sig)) (layerTerm (W (main_v42 : DevRef τ sig)) (W (main_v43 : DevRef τ sig))
          (W (main_arg3 : DevRef τ sig)) (W (main_arg4 : DevRef τ sig))) (W (main_arg5 : DevRef τ sig)) (W (main_arg6 : DevRef τ sig)))
        (W (main_arg7 : DevRef τ sig)) (W (main_arg8 : DevRef τ sig)) := by
  after_results_simp
  rfl

/-! ## The term read entry by entry -/

theorem dotB_apply (S : FVec Ideal S64x512x512 .f32) (x : FVec Ideal S64x512x128 .f32) (b : Fin 64) (i : Fin 512) (f : Fin 128) :
    Host.dotGeneral dotB none S x (ix3 b i f) = ∑ m : Fin 512, S (ix3 b i m) * x (ix3 b m f) :=
  BatchDot.dotGeneral_apply (B := 64) (M := 512) (K := 512) (N := 128) dotB none rfl rfl (fun _ _ => rfl) (fun _ _ => rfl) (fun _ _ => rfl)
    (fun _ _ => rfl) (fun _ _ => rfl) (fun _ _ => rfl) S x b i f

theorem dotS_apply (x : FVec Ideal S64x512x128 .f32) (w : FVec Ideal S128x128 .f32) (b : Fin 64) (i : Fin 512) (g : Fin 128) :
    Host.dotGeneral dotS none x w (ix3 b i g) = ∑ f : Fin 128, x (ix3 b i f) * w (ix2 f g) :=
  BatchDot.dotGeneralShared_apply (B := 64) (M := 512) (K := 128) (N := 128) dotS none rfl rfl (fun _ _ => rfl) (fun _ _ => rfl) (fun _ _ => rfl)
    (fun _ _ => rfl) (fun _ _ => rfl) x w b i g

theorem dotO_apply (p : FVec Ideal S64x128 .f32) (w : FVec Ideal S128x64 .f32) (b : Fin 64) (o : Fin 64) :
    Host.dotGeneral dotO none p w (ix2 b o) = ∑ g : Fin 128, p (ix2 b g) * w (ix2 g o) :=
  PlainDot.dotGeneral_apply (a := 64) (k := 128) (b := 64) dotO none rfl rfl (fun _ _ => rfl) (fun _ _ => rfl) (fun _ _ => rfl) (fun _ _ => rfl) p w b o

theorem w0_apply (w : FVec Ideal S3x128x128 .f32) (f g : Fin 128) : w0 w (ix2 f g) = w (ix3 (0 : Fin 3) f g) := by
  unfold w0
  refine (shapeCast_1ab_ab_apply _ _ f g).trans ?_
  exact extractStridedSlice_apply _ w _ _ _ fun a => match a with | ⟨0, _⟩ => rfl | ⟨1, _⟩ => by show f.val = 0 + f.val; omega | ⟨2, _⟩ => by show g.val = 0 + g.val; omega

theorem w1_apply (w : FVec Ideal S3x128x128 .f32) (f g : Fin 128) : w1 w (ix2 f g) = w (ix3 (1 : Fin 3) f g) := by
  unfold w1
  refine (shapeCast_1ab_ab_apply _ _ f g).trans ?_
  exact extractStridedSlice_apply _ w _ _ _ fun a => match a with | ⟨0, _⟩ => rfl | ⟨1, _⟩ => by show f.val = 0 + f.val; omega | ⟨2, _⟩ => by show g.val = 0 + g.val; omega

theorem w2_apply (w : FVec Ideal S3x128x128 .f32) (f g : Fin 128) : w2 w (ix2 f g) = w (ix3 (2 : Fin 3) f g) := by
  unfold w2
  refine (shapeCast_1ab_ab_apply _ _ f g).trans ?_
  exact extractStridedSlice_apply _ w _ _ _ fun a => match a with | ⟨0, _⟩ => rfl | ⟨1, _⟩ => by show f.val = 0 + f.val; omega | ⟨2, _⟩ => by show g.val = 0 + g.val; omega

/-- A bias over the feature axis, broadcast to every graph and node. -/
theorem bias3_apply (bias : FVec Ideal S128 .f32) (b : Fin 64) (i : Fin 512) (g : Fin 128) :
    broadcastInDim S64x512x128 ![0, 1, 2] bcast_S1x1x128_S64x512x128_0_1_2 (broadcastInDim S1x1x128 ![2] bcast_S128_S1x1x128_2 bias) (ix3 b i g)
      = bias (ix1 g) := by
  refine (broadcastInDim_apply _ _ _ (ix3 b i g) (ix3 (0 : Fin 1) (0 : Fin 1) g) fun a => match a with | ⟨0, _⟩ => rfl | ⟨1, _⟩ => rfl | ⟨2, _⟩ => rfl).trans ?_
  exact broadcastInDim_apply _ _ _ (ix3 (0 : Fin 1) (0 : Fin 1) g) (ix1 g) fun a => match a with | ⟨0, _⟩ => rfl

/-- The output bias, broadcast to every graph. -/
theorem bias2_apply (bo : FVec Ideal S64 .f32) (b : Fin 64) (o : Fin 64) :
    broadcastInDim S64x64 ![0, 1] bcast_S1x64_S64x64_0_1 (broadcastInDim S1x64 ![1] bcast_S64_S1x64_1 bo) (ix2 b o) = bo (ix1 o) := by
  refine (broadcastInDim_apply _ _ _ (ix2 b o) (ix2 (0 : Fin 1) o) fun a => match a with | ⟨0, _⟩ => rfl | ⟨1, _⟩ => rfl).trans ?_
  exact broadcastInDim_apply _ _ _ (ix2 (0 : Fin 1) o) (ix1 o) fun a => match a with | ⟨0, _⟩ => rfl

/-- The rectifier's zero. -/
theorem zero3_apply (j : S64x512x128.Idx) :
    broadcastInDim S64x512x128 ![] bcast_S_S64x512x128 (constant (F := Ideal) S_ .f32 0x00000000#32) j = (0 : EReal) := by
  rw [broadcastInDim_scalar_apply, constant_apply, Ideal.ofBits_zero_f32]

/-- One layer of the term is one layer of the network, entry by entry. -/
theorem layerTerm_apply (S : FVec Ideal S64x512x512 .f32) (x : FVec Ideal S64x512x128 .f32) (w : FVec Ideal S3x128x128 .f32)
    (bias : FVec Ideal S128 .f32) (b : Fin 64) (i : Fin 512) (g : Fin 128) :
    layerTerm S x w bias (ix3 b i g)
      = Gcn.layer (fun b i m => S (ix3 b i m)) (fun b i f => x (ix3 b i f)) (fun k f g => w (ix3 k f g)) (fun g => bias (ix1 g)) b i g := by
  unfold layerTerm Gcn.layer Gcn.proj Gcn.agg
  simp only [maximumf_apply, addf_apply, dotS_apply, dotB_apply, w0_apply, w1_apply, w2_apply]
  rw [bias3_apply, zero3_apply]

/-- The pooling and the projection of the term are the network's, entry by entry. -/
theorem outTerm_apply (h : FVec Ideal S64x512x128 .f32) (wo : FVec Ideal S128x64 .f32) (bo : FVec Ideal S64 .f32) (b : Fin 64) (o : Fin 64) :
    outTerm h wo bo (ix2 b o)
      = Gcn.readout (Gcn.pool (fun b i g => h (ix3 b i g))) (fun g o => wo (ix2 g o)) (fun o => bo (ix1 o)) b o := by
  unfold outTerm Gcn.readout Gcn.pool
  rw [addf_apply, dotO_apply, bias2_apply]
  refine congrArg (· + bo (ix1 o)) (Finset.sum_congr rfl fun g _ => ?_)
  rw [BatchDot.hostMidMax_apply (B := 64) (M := 512) (N := 128) h _ reducesTo_S64x512x128_S64x128_d1 (by decide) h_S_ b g, constant_apply, BatchDot.ofBits_neg_inf]

/-! ## The reference's result -/

/-- the adjacency as the reference holds it after its first stretch -/
def adjR (W : Val) : Fin 64 → Fin 512 → Fin 512 → EReal := fun b i m => (W (main_v42 : DevRef τ sig) : S64x512x512.Idx → EReal) (ix3 b i m)
/-- the features as the reference holds them after its first stretch -/
def featR (W : Val) : Fin 64 → Fin 512 → Fin 128 → EReal := fun b i f => (W (main_v43 : DevRef τ sig) : S64x512x128.Idx → EReal) (ix3 b i f)

/-- The second stretch of the program computes the network of what it reads: the adjacency and the features the first stretch
    left, and the six weight arguments. -/
theorem tail_value (W : Val) (b : Fin 64) (o : Fin 64) :
    (after (RefRun.opsB (F := Ideal)) W (main_v82 : DevRef τ sig) : S64x64.Idx → EReal) (ix2 b o)
      = Gcn.net (adjR W) (featR W)
          (fun k f g => (W (main_arg3 : DevRef τ sig) : S3x128x128.Idx → EReal) (ix3 k f g)) (fun g => (W (main_arg4 : DevRef τ sig) : S128.Idx → EReal) (ix1 g))
          (fun k f g => (W (main_arg5 : DevRef τ sig) : S3x128x128.Idx → EReal) (ix3 k f g)) (fun g => (W (main_arg6 : DevRef τ sig) : S128.Idx → EReal) (ix1 g))
          (fun g o => (W (main_arg7 : DevRef τ sig) : S128x64.Idx → EReal) (ix2 g o)) (fun o => (W (main_arg8 : DevRef τ sig) : S64.Idx → EReal) (ix1 o)) b o := by
  rw [tail_term, outTerm_apply]
  unfold Gcn.net adjR featR
  have h1 := fun b i g => layerTerm_apply (W (main_v42 : DevRef τ sig)) (W (main_v43 : DevRef τ sig)) (W (main_arg3 : DevRef τ sig)) (W (main_arg4 : DevRef τ sig)) b i g
  have h2 := fun b i g => layerTerm_apply (W (main_v42 : DevRef τ sig))
    (layerTerm (W (main_v42 : DevRef τ sig)) (W (main_v43 : DevRef τ sig)) (W (main_arg3 : DevRef τ sig)) (W (main_arg4 : DevRef τ sig)))
    (W (main_arg5 : DevRef τ sig)) (W (main_arg6 : DevRef τ sig)) b i g
  simp only [h1] at h2
  simp only [h2]

/-! ## The arguments are never written -/

set_option maxRecDepth 8192 in
/-- No operation of the program writes argument 0. -/
theorem kept_arg0 (V : Val) : after (RefRun.ops (F := Ideal)) V (main_arg0 : DevRef τ sig) = V (main_arg0 : DevRef τ sig) :=
  StableHlo.after_of_forall_not_mem (b := Proc.devRef .tc main_arg0) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 1. -/
theorem kept_arg1 (V : Val) : after (RefRun.ops (F := Ideal)) V (main_arg1 : DevRef τ sig) = V (main_arg1 : DevRef τ sig) :=
  StableHlo.after_of_forall_not_mem (b := Proc.devRef .tc main_arg1) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 2. -/
theorem kept_arg2 (V : Val) : after (RefRun.ops (F := Ideal)) V (main_arg2 : DevRef τ sig) = V (main_arg2 : DevRef τ sig) :=
  StableHlo.after_of_forall_not_mem (b := Proc.devRef .tc main_arg2) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 3. -/
theorem kept_arg3 (V : Val) : after (RefRun.ops (F := Ideal)) V (main_arg3 : DevRef τ sig) = V (main_arg3 : DevRef τ sig) :=
  StableHlo.after_of_forall_not_mem (b := Proc.devRef .tc main_arg3) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 4. -/
theorem kept_arg4 (V : Val) : after (RefRun.ops (F := Ideal)) V (main_arg4 : DevRef τ sig) = V (main_arg4 : DevRef τ sig) :=
  StableHlo.after_of_forall_not_mem (b := Proc.devRef .tc main_arg4) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 5. -/
theorem kept_arg5 (V : Val) : after (RefRun.ops (F := Ideal)) V (main_arg5 : DevRef τ sig) = V (main_arg5 : DevRef τ sig) :=
  StableHlo.after_of_forall_not_mem (b := Proc.devRef .tc main_arg5) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 6. -/
theorem kept_arg6 (V : Val) : after (RefRun.ops (F := Ideal)) V (main_arg6 : DevRef τ sig) = V (main_arg6 : DevRef τ sig) :=
  StableHlo.after_of_forall_not_mem (b := Proc.devRef .tc main_arg6) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 7. -/
theorem kept_arg7 (V : Val) : after (RefRun.ops (F := Ideal)) V (main_arg7 : DevRef τ sig) = V (main_arg7 : DevRef τ sig) :=
  StableHlo.after_of_forall_not_mem (b := Proc.devRef .tc main_arg7) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 8. -/
theorem kept_arg8 (V : Val) : after (RefRun.ops (F := Ideal)) V (main_arg8 : DevRef τ sig) = V (main_arg8 : DevRef τ sig) :=
  StableHlo.after_of_forall_not_mem (b := Proc.devRef .tc main_arg8) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the program writes argument 9. -/
theorem kept_arg9 (V : Val) : after (RefRun.ops (F := Ideal)) V (main_arg9 : DevRef τ sig) = V (main_arg9 : DevRef τ sig) :=
  StableHlo.after_of_forall_not_mem (b := Proc.devRef .tc main_arg9) _ _ (List.forall_iff_forall_mem.mp (by
    simp only [RefRun.ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the first stretch writes argument 3. -/
theorem opsA_arg3 (V : Val) : after (RefRun.opsA (F := Ideal)) V (main_arg3 : DevRef τ sig) = V (main_arg3 : DevRef τ sig) :=
  StableHlo.after_of_forall_not_mem (b := Proc.devRef .tc main_arg3) _ _ (List.forall_iff_forall_mem.mp (by
    simp only [RefRun.opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the first stretch writes argument 4. -/
theorem opsA_arg4 (V : Val) : after (RefRun.opsA (F := Ideal)) V (main_arg4 : DevRef τ sig) = V (main_arg4 : DevRef τ sig) :=
  StableHlo.after_of_forall_not_mem (b := Proc.devRef .tc main_arg4) _ _ (List.forall_iff_forall_mem.mp (by
    simp only [RefRun.opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the first stretch writes argument 5. -/
theorem opsA_arg5 (V : Val) : after (RefRun.opsA (F := Ideal)) V (main_arg5 : DevRef τ sig) = V (main_arg5 : DevRef τ sig) :=
  StableHlo.after_of_forall_not_mem (b := Proc.devRef .tc main_arg5) _ _ (List.forall_iff_forall_mem.mp (by
    simp only [RefRun.opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the first stretch writes argument 6. -/
theorem opsA_arg6 (V : Val) : after (RefRun.opsA (F := Ideal)) V (main_arg6 : DevRef τ sig) = V (main_arg6 : DevRef τ sig) :=
  StableHlo.after_of_forall_not_mem (b := Proc.devRef .tc main_arg6) _ _ (List.forall_iff_forall_mem.mp (by
    simp only [RefRun.opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the first stretch writes argument 7. -/
theorem opsA_arg7 (V : Val) : after (RefRun.opsA (F := Ideal)) V (main_arg7 : DevRef τ sig) = V (main_arg7 : DevRef τ sig) :=
  StableHlo.after_of_forall_not_mem (b := Proc.devRef .tc main_arg7) _ _ (List.forall_iff_forall_mem.mp (by
    simp only [RefRun.opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxRecDepth 8192 in
/-- No operation of the first stretch writes argument 8. -/
theorem opsA_arg8 (V : Val) : after (RefRun.opsA (F := Ideal)) V (main_arg8 : DevRef τ sig) = V (main_arg8 : DevRef τ sig) :=
  StableHlo.after_of_forall_not_mem (b := Proc.devRef .tc main_arg8) _ _ (List.forall_iff_forall_mem.mp (by
    simp only [RefRun.opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

end Cert.ReferenceIdeal.RefValue

end
-- ==== Proof.Bridge.lean ====
import proofs.«104581_j39402029973528_2_alg».proof.Proof.KernelValue
import proofs.«104581_j39402029973528_2_alg».proof.Proof.KernelHost
import proofs.«104581_j39402029973528_2_alg».proof.Proof.RefValue

/-!
# The two programs compute one function

From memories that agree on the arguments, the kernel's result array (the feature-major network of the arrays its host
operations prepare) and the reference's result (the node-major network of the adjacency and features it builds) are equal
entry by entry: the prepared arrays are the reference's arrays read at transposed coordinates, and the feature-major network
is the node-major one. The one fact about the adjacency — the kernel's transposed adjacency at `(g, p, q)` is the reference's
adjacency at `(g, q, p)` — is taken here as a hypothesis and proved on its own.
-/

set_option maxRecDepth 16384

noncomputable section

namespace Cert.Bridge

open Idealize.ShloMosaic Idealize.ShloMosaic.TcCoe Idealize.ShloMosaic.ValueIdx Idealize.ShloMosaic.StableHlo Idealize.SL.Sem

/-- The reference's features: the `[64, 512, 128]` view of the argument. -/
theorem ref_feat (VR : Cert.ReferenceIdeal.RefValue.Val) :
    (after (Cert.ReferenceIdeal.RefRun.opsA (F := Ideal)) VR (Cert.ReferenceIdeal.main_v43 : DevRef Cert.ReferenceIdeal.τ Cert.ReferenceIdeal.sig) : Cert.ReferenceIdeal.S64x512x128.Idx → EReal)
      = shapeCast Cert.ReferenceIdeal.S64x512x128 (VR (Cert.ReferenceIdeal.main_arg0 : DevRef Cert.ReferenceIdeal.τ Cert.ReferenceIdeal.sig) : Cert.ReferenceIdeal.S32768x128.Idx → EReal) Cert.ReferenceIdeal.Gen.shapeCasts_S32768x128_S64x512x128 := by
  after_results_simp
  try rfl

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- The kernel's launch contents on core `c`, and the reference's. -/
abbrev VK : Cert.KernelIdeal.Host.Val := fun b => m (c, b)
abbrev VR : Cert.ReferenceIdeal.RefValue.Val := launchContents m' c

theorem values_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hadj : ∀ (g : Fin 64) (p q : Fin 512),
      (after Cert.KernelIdeal.Host.all (VK m c) (Cert.KernelIdeal.main_v39 : DevRef Cert.KernelIdeal.τ Cert.KernelIdeal.sig) : Cert.KernelIdeal.S64x512x512.Idx → EReal) (ix3 g p q)
        = (after (Cert.ReferenceIdeal.RefRun.opsA (F := Ideal)) (VR m' c) (Cert.ReferenceIdeal.main_v42 : DevRef Cert.ReferenceIdeal.τ Cert.ReferenceIdeal.sig) : Cert.ReferenceIdeal.S64x512x512.Idx → EReal) (ix3 g q p)) :
    (after (Cert.ReferenceIdeal.RefRun.ops (F := Ideal)) (VR m' c) (Cert.ReferenceIdeal.main_v82 : DevRef Cert.ReferenceIdeal.τ Cert.ReferenceIdeal.sig) : Cert.ReferenceIdeal.S64x64.Idx → EReal)
      = Cert.KernelIdeal.Val.result m c := by
  funext i
  obtain ⟨b, o, rfl⟩ : ∃ (b : Fin 64) (o : Fin 64), i = ix2 b o := ⟨i 0, i 1, eq_ix2 i⟩
  rw [Cert.ReferenceIdeal.RefRun.ops_split, StableHlo.after_append]
  refine (Cert.ReferenceIdeal.RefValue.tail_value _ b o).trans ?_
  show _ = Gcn.netT (Cert.KernelIdeal.Val.ST m c) (Cert.KernelIdeal.Val.XT m c) (Cert.KernelIdeal.Val.W1T m c) (Cert.KernelIdeal.Val.B1 m c) (Cert.KernelIdeal.Val.W2T m c) (Cert.KernelIdeal.Val.B2 m c)
    (Cert.KernelIdeal.Val.WO m c) (Cert.KernelIdeal.Val.BO m c) b o
  have hb1 : Cert.KernelIdeal.Val.B1 m c = fun g => (after (Cert.ReferenceIdeal.RefRun.opsA (F := Ideal)) (VR m' c) (Cert.ReferenceIdeal.main_arg4 : DevRef Cert.ReferenceIdeal.τ Cert.ReferenceIdeal.sig) : Cert.ReferenceIdeal.S128.Idx → EReal) (ix1 g) :=
    funext fun g => by
      rw [Cert.ReferenceIdeal.RefValue.opsA_arg4]
      exact (Cert.KernelIdeal.Host.b1_at (VK m c) g).trans (congrFun h4.symm (ix1 g))
  have hb2 : Cert.KernelIdeal.Val.B2 m c = fun g => (after (Cert.ReferenceIdeal.RefRun.opsA (F := Ideal)) (VR m' c) (Cert.ReferenceIdeal.main_arg6 : DevRef Cert.ReferenceIdeal.τ Cert.ReferenceIdeal.sig) : Cert.ReferenceIdeal.S128.Idx → EReal) (ix1 g) :=
    funext fun g => by
      rw [Cert.ReferenceIdeal.RefValue.opsA_arg6]
      exact (Cert.KernelIdeal.Host.b2_at (VK m c) g).trans (congrFun h6.symm (ix1 g))
  have hwo : Cert.KernelIdeal.Val.WO m c = fun g o => (after (Cert.ReferenceIdeal.RefRun.opsA (F := Ideal)) (VR m' c) (Cert.ReferenceIdeal.main_arg7 : DevRef Cert.ReferenceIdeal.τ Cert.ReferenceIdeal.sig) : Cert.ReferenceIdeal.S128x64.Idx → EReal) (ix2 g o) :=
    funext fun g => funext fun o => by
      rw [Cert.ReferenceIdeal.RefValue.opsA_arg7]
      exact (Cert.KernelIdeal.Host.wo_at (VK m c) g o).trans (congrFun h7.symm (ix2 g o))
  have hbo : Cert.KernelIdeal.Val.BO m c = fun o => (after (Cert.ReferenceIdeal.RefRun.opsA (F := Ideal)) (VR m' c) (Cert.ReferenceIdeal.main_arg8 : DevRef Cert.ReferenceIdeal.τ Cert.ReferenceIdeal.sig) : Cert.ReferenceIdeal.S64.Idx → EReal) (ix1 o) :=
    funext fun o => by
      rw [Cert.ReferenceIdeal.RefValue.opsA_arg8]
      exact (Cert.KernelIdeal.Host.bo_at (VK m c) o).trans (congrFun h8.symm (ix1 o))
  rw [hb1, hb2, hwo, hbo]
  refine (Gcn.netT_eq _ _ _ _ (fun g p q => hadj g p q) (fun b f i => ?_) (fun k g f => ?_) (fun k g f => ?_) b o).symm
  · refine (Cert.KernelIdeal.Host.feat_at (VK m c) b f i).trans ?_
    show _ = (after (Cert.ReferenceIdeal.RefRun.opsA (F := Ideal)) (VR m' c) (Cert.ReferenceIdeal.main_v43 : DevRef Cert.ReferenceIdeal.τ Cert.ReferenceIdeal.sig) : Cert.ReferenceIdeal.S64x512x128.Idx → EReal) (ix3 b i f)
    rw [ref_feat]
    exact congrArg (fun x : Cert.ReferenceIdeal.S32768x128.Idx → EReal => shapeCast Cert.ReferenceIdeal.S64x512x128 x Cert.ReferenceIdeal.Gen.shapeCasts_S32768x128_S64x512x128 (ix3 b i f)) h0.symm
  · rw [Cert.ReferenceIdeal.RefValue.opsA_arg3]
    exact (Cert.KernelIdeal.Host.w1_at (VK m c) k g f).trans (congrFun h3.symm (ix3 k f g))
  · rw [Cert.ReferenceIdeal.RefValue.opsA_arg5]
    exact (Cert.KernelIdeal.Host.w2_at (VK m c) k g f).trans (congrFun h5.symm (ix3 k f g))

end Cert.Bridge

end
-- ==== Proof.LibTripleScatter.lean ====
/-
  A scatter-add of scalars into a rank-3 array at full index triples, read at an index.

  `x.at[i0, i1, i2].add(u)` for `x : [G, P, Q]`, an index array `[E, 3]` (one triple per update) and updates `u : [E]`
  lowers to a scatter with no window axis whose start index on operand axis `a` is entry `(e, a)` of the index array,
  read signed and NOT clamped: an update whose triple falls outside the array lands nowhere.  So update `e` lands on
  element `i` exactly when the three entries of row `e`, read signed, are `i`'s three coordinates.
-/
import Idealize.ShloMosaic.Lib.ValueIdx

noncomputable section

namespace Idealize.ShloMosaic.TripleScatter

open Idealize.ShloMosaic Idealize.ShloMosaic.ValueIdx

/-- The dimension numbers of `x.at[i0, i1, i2].add(u)` for `x : [G, P, Q]`, indices `[E, 3]`, updates `[E]`. -/
abbrev dims (G P Q E : Nat) (wf : ScatterDims.WF ⟨3, ![G, P, Q]⟩ ⟨2, ![E, 3]⟩ ⟨1, ![E]⟩ [] [0, 1, 2] [0, 1, 2] 1) :
    ScatterDims ⟨3, ![G, P, Q]⟩ ⟨2, ![E, 3]⟩ ⟨1, ![E]⟩ where
  updateWindowDims := []
  insertedWindowDims := [0, 1, 2]
  scatterDimsToOperandDims := [0, 1, 2]
  indexVectorDim := 1
  wf := wf

variable {G P Q E w : Nat} (wf : ScatterDims.WF ⟨3, ![G, P, Q]⟩ ⟨2, ![E, 3]⟩ ⟨1, ![E]⟩ [] [0, 1, 2] [0, 1, 2] 1)

/-- No operand axis carries a window coordinate. -/
theorem window_eq_zero (j : (⟨1, ![E]⟩ : Shape).Idx) (a : Fin 3) : (dims G P Q E wf).window j a = 0 := by
  unfold ScatterDims.window
  rw [dif_neg]
  show a ∉ (List.finRange 3).filter (fun a => a ∉ ([0, 1, 2] : List (Fin 3)))
  revert a; decide

private theorem start_at (idx : IVec ⟨2, ![E, 3]⟩ w) (e : Fin E) (a : Fin 3)
    (ha : a ∈ ([0, 1, 2] : List (Fin 3)))
    (hsi : (dims G P Q E wf).siIdx (ix1 e) ⟨List.idxOf a ([0, 1, 2] : List (Fin 3)), List.idxOf_lt_length_iff.2 ha⟩ = ix2 e a) :
    (dims G P Q E wf).start (ix1 e) idx a = (idx (ix2 e a)).toInt := by
  unfold ScatterDims.start
  rw [dif_pos (show a ∈ (dims G P Q E wf).scatterDimsToOperandDims from ha)]
  exact congrArg (fun k => (idx k).toInt) hsi

/-- The start on operand axis `a` is entry `(e, a)` of the index array, read signed. -/
theorem start_eq (idx : IVec ⟨2, ![E, 3]⟩ w) (e : Fin E) (a : Fin 3) :
    (dims G P Q E wf).start (ix1 e) idx a = (idx (ix2 e a)).toInt := by
  match a with
  | ⟨0, _⟩ =>
    exact start_at wf idx e (0 : Fin 3) (by decide) (funext fun b => Fin.ext (by
      match b with
      | ⟨0, _⟩ => rfl
      | ⟨1, _⟩ => rfl))
  | ⟨1, _⟩ =>
    exact start_at wf idx e (1 : Fin 3) (by decide) (funext fun b => Fin.ext (by
      match b with
      | ⟨0, _⟩ => rfl
      | ⟨1, _⟩ => rfl))
  | ⟨2, _⟩ =>
    exact start_at wf idx e (2 : Fin 3) (by decide) (funext fun b => Fin.ext (by
      match b with
      | ⟨0, _⟩ => rfl
      | ⟨1, _⟩ => rfl))

/-- Update `e` lands on element `i` exactly when row `e` of the index array, read signed, is `i`'s coordinates. -/
theorem resultIdx?_eq_some_iff (idx : IVec ⟨2, ![E, 3]⟩ w) (e : Fin E) (i : (⟨3, ![G, P, Q]⟩ : Shape).Idx) :
    (dims G P Q E wf).resultIdx? (ix1 e) idx = some i ↔ ∀ a : Fin 3, (idx (ix2 e a)).toInt = ((i a).val : Int) := by
  unfold ScatterDims.resultIdx?
  simp only [window_eq_zero wf, start_eq wf]
  constructor
  · intro h a
    split at h
    · rename_i hin
      have ha := congrArg (fun f => (f a).val) (Option.some.inj h)
      have hb := hin a
      simp only at ha
      have : ((idx (ix2 e a)).toInt + ((0 : Nat) : Int)).toNat = (i a).val := ha
      omega
    · exact absurd h (by simp)
  · intro h
    have hin : ∀ a : Fin 3, 0 ≤ (idx (ix2 e a)).toInt + ((0 : Nat) : Int)
        ∧ (idx (ix2 e a)).toInt + ((0 : Nat) : Int) < (⟨3, ![G, P, Q]⟩ : Shape).size a := fun a => by
      have := (i a).isLt
      rw [h a]; constructor <;> omega
    rw [dif_pos hin]
    refine congrArg some (funext fun a => Fin.ext ?_)
    show ((idx (ix2 e a)).toInt + ((0 : Nat) : Int)).toNat = (i a).val
    rw [h a]; omega

end Idealize.ShloMosaic.TripleScatter

end
-- ==== Proof.AdjCross.lean ====
/-
  The adjacency arrays of the two programs agree, transposed.

  Both programs build, per graph, a mixing of the identity with the edge counts: the kernel program scatters the weight
  `α` at the index triples `(graph, destination, source)` onto `(1 - α)` times the identity, the reference scatters ones at
  `(graph, source, destination)` into zeros, scales by `α` and adds `(1 - α)` times the identity. The three index columns are
  the same integer functions of the edge list in both programs, so an update lands on `(g, p, q)` in the first exactly
  when it lands on `(g, q, p)` in the second; the identity is symmetric; and a constant summed over a finite set is the
  constant times the count on all extended reals (the count is a sum of non-negative terms, over which multiplication
  distributes).
-/
import proofs.«104581_j39402029973528_2_alg».proof.Proof.FrameKernelIdeal
import proofs.«104581_j39402029973528_2_alg».proof.Proof.RefRun
import proofs.«104581_j39402029973528_2_alg».proof.Proof.LibTripleScatter
import Idealize.ShloMosaic.Lib.IdealHost
import Idealize.ShloMosaic.Lib.ValueLayout
import Idealize.ShloMosaic.Lib.Pipeline.Value

noncomputable section

namespace Cert.AdjCross

open Idealize.ShloMosaic Idealize.ShloMosaic.ValueIdx Idealize.ShloMosaic.StableHlo Idealize.ShloMosaic.TcCoe

/-! ## Reading a line of host operations at a buffer -/

section Nary3
variable {τ : Topo} {sig : RefSig} {Val : EltTy → Type} {x a b y : Ref sig .tc}

/-- An operation of three literal operands leaves at its result its function of the operands' contents, each at its own
    reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

/-- The contents a line of operations leaves at a literal reference, as one pass of rewriting. -/
macro "after_line" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

abbrev VK := Valuation Cert.KernelIdeal.τ Cert.KernelIdeal.sig (Elt Ideal)
abbrev VR := Valuation Cert.ReferenceIdeal.τ Cert.ReferenceIdeal.sig (Elt Ideal)

/-- The kernel program's host operations, in order. -/
abbrev opsK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6]
/-- The reference program's operations up to its adjacency. -/
abbrev opsR : List (HloOp Cert.ReferenceIdeal.τ Cert.ReferenceIdeal.sig (Elt Ideal)) := Cert.ReferenceIdeal.RefRun.opsA

/-- Unfolds the kernel program's list to a literal one. -/
macro "unfold_opsK" : tactic =>
  `(tactic| simp only [opsK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6,
      List.flatten_cons, List.flatten_nil, List.append_nil, List.cons_append, List.nil_append])

/-! ## The three index columns are the same integer functions of the edge list in both programs -/

set_option maxRecDepth 8192 in
set_option maxHeartbeats 8000000 in
theorem col_graph (vK : VK) (vR : VR)
    (h2 : (vK (Cert.KernelIdeal.main_arg2 : DevRef Cert.KernelIdeal.τ Cert.KernelIdeal.sig) : Cert.KernelIdeal.S2x524288.Idx → BitVec 32) = vR (Cert.ReferenceIdeal.main_arg2 : DevRef Cert.ReferenceIdeal.τ Cert.ReferenceIdeal.sig)) :
    (after opsK vK (Cert.KernelIdeal.main_v4 : DevRef Cert.KernelIdeal.τ Cert.KernelIdeal.sig) : Cert.KernelIdeal.S524288.Idx → BitVec 32) = after opsR vR (Cert.ReferenceIdeal.main_v4 : DevRef Cert.ReferenceIdeal.τ Cert.ReferenceIdeal.sig) := by
  unfold_opsK
  after_line
  rw [h2]
  rfl

set_option maxRecDepth 8192 in
set_option maxHeartbeats 8000000 in
theorem col_dst (vK : VK) (vR : VR)
    (h2 : (vK (Cert.KernelIdeal.main_arg2 : DevRef Cert.KernelIdeal.τ Cert.KernelIdeal.sig) : Cert.KernelIdeal.S2x524288.Idx → BitVec 32) = vR (Cert.ReferenceIdeal.main_arg2 : DevRef Cert.ReferenceIdeal.τ Cert.ReferenceIdeal.sig)) :
    (after opsK vK (Cert.KernelIdeal.main_v16 : DevRef Cert.KernelIdeal.τ Cert.KernelIdeal.sig) : Cert.KernelIdeal.S524288.Idx → BitVec 32) = after opsR vR (Cert.ReferenceIdeal.main_v7 : DevRef Cert.ReferenceIdeal.τ Cert.ReferenceIdeal.sig) := by
  unfold_opsK
  after_line
  rw [h2]
  rfl

set_option maxRecDepth 8192 in
set_option maxHeartbeats 8000000 in
theorem col_src (vK : VK) (vR : VR)
    (h2 : (vK (Cert.KernelIdeal.main_arg2 : DevRef Cert.KernelIdeal.τ Cert.KernelIdeal.sig) : Cert.KernelIdeal.S2x524288.Idx → BitVec 32) = vR (Cert.ReferenceIdeal.main_arg2 : DevRef Cert.ReferenceIdeal.τ Cert.ReferenceIdeal.sig)) :
    (after opsK vK (Cert.KernelIdeal.main_v17 : DevRef Cert.KernelIdeal.τ Cert.KernelIdeal.sig) : Cert.KernelIdeal.S524288.Idx → BitVec 32) = after opsR vR (Cert.ReferenceIdeal.main_v6 : DevRef Cert.ReferenceIdeal.τ Cert.ReferenceIdeal.sig) := by
  unfold_opsK
  after_line
  rw [h2]
  rfl

/-! ## The two adjacency terms over the index columns -/

section Terms
open Cert.ReferenceIdeal Cert.ReferenceIdeal.Gen

/-- A negative index wrapped once by its axis extent `n`. -/
def wrapNeg (x : IVec S524288 32) (n : BitVec 32) : IVec S524288 32 :=
  select (cmpi .slt x (broadcastInDim S524288 ![] bcast_S_S524288 (constantI S_ 32 0#32)))
    (addi x (broadcastInDim S524288 ![] bcast_S_S524288 (constantI S_ 32 n))) x

/-- Three index columns side by side: one index triple per update. -/
def idx3 (c0 c1 c2 : IVec S524288 32) : IVec S524288x3 32 :=
  concatenate S524288x3 1
    [⟨S524288x1, broadcastInDim S524288x1 ![0] bcast_S524288_S524288x1_0 c0⟩,
     ⟨S524288x1, broadcastInDim S524288x1 ![0] bcast_S524288_S524288x1_0 c1⟩,
     ⟨S524288x1, broadcastInDim S524288x1 ![0] bcast_S524288_S524288x1_0 c2⟩]
    concatenates_S524288x1_S524288x1_S524288x1_S524288x3_d1

/-- The identity matrix as both programs build it: row coordinate equal to column coordinate, as a float. -/
def eye : FVec Ideal S512x512 .f32 :=
  uitofp .f32 (cmpi .eq (addi (iotaInDim S512x512 32 0) (broadcastInDim S512x512 ![] bcast_S_S512x512 (constantI S_ 32 0#32)))
    (iotaInDim S512x512 32 1))

/-- The kernel program's array: `(1 - α)` times the identity in every graph, plus `α` scattered at `(graph, c1, c2)`. -/
def termK (c0 c1 c2 : IVec S524288 32) (α : FVec Ideal S_ .f32) : FVec Ideal S64x512x512 .bf16 :=
  truncf .bf16
    (Host.scatterAdd Cert.KernelIdeal.scatter_S64x512x512_S524288x3_S524288_n_012_012_1
      (broadcastInDim S64x512x512 ![0, 1, 2] bcast_S1x512x512_S64x512x512_0_1_2
        (mulf (broadcastInDim S1x512x512 ![] Cert.KernelIdeal.Gen.bcast_S_S1x512x512 (subf (constant (F := Ideal) S_ .f32 0x3F800000#32) α))
          (broadcastInDim S1x512x512 ![1, 2] bcast_S512x512_S1x512x512_1_2 eye)))
      (idx3 (wrapNeg c0 64#32) (wrapNeg c1 512#32) (wrapNeg c2 512#32))
      (broadcastInDim S524288 ![] bcast_S_S524288 α))
    Cert.KernelIdeal.Gen.bitsLt_bf16_f32

/-- The reference program's array: `α` times the count of updates scattered at `(graph, c1, c2)` into zeros, plus
    `(1 - α)` times the identity in every graph. -/
def termR (c0 c1 c2 : IVec S524288 32) (α : FVec Ideal S_ .f32) : FVec Ideal S64x512x512 .f32 :=
  addf
    (mulf (broadcastInDim S64x512x512 ![] bcast_S_S64x512x512 α)
      (Host.scatterAdd scatter_S64x512x512_S524288x3_S524288_n_012_012_1
        (broadcastInDim S64x512x512 ![] bcast_S_S64x512x512 (constant (F := Ideal) S_ .f32 0x00000000#32))
        (idx3 (wrapNeg c0 64#32) (wrapNeg c1 512#32) (wrapNeg c2 512#32))
        (broadcastInDim S524288 ![] bcast_S_S524288 (constant (F := Ideal) S_ .f32 0x3F800000#32))))
    (broadcastInDim S64x512x512 ![0, 1, 2] bcast_S1x512x512_S64x512x512_0_1_2
      (broadcastInDim S1x512x512 ![1, 2] bcast_S512x512_S1x512x512_1_2
        (mulf (broadcastInDim S512x512 ![] bcast_S_S512x512 (subf (constant (F := Ideal) S_ .f32 0x3F800000#32) α)) eye)))

end Terms

/-! ## Each program's adjacency buffer is its term over its own columns -/

set_option maxRecDepth 8192 in
set_option maxHeartbeats 8000000 in
theorem readK (vK : VK) :
    after opsK vK (Cert.KernelIdeal.main_v39 : DevRef Cert.KernelIdeal.τ Cert.KernelIdeal.sig)
      = termK (after opsK vK (Cert.KernelIdeal.main_v4 : DevRef Cert.KernelIdeal.τ Cert.KernelIdeal.sig)) (after opsK vK (Cert.KernelIdeal.main_v16 : DevRef Cert.KernelIdeal.τ Cert.KernelIdeal.sig))
          (after opsK vK (Cert.KernelIdeal.main_v17 : DevRef Cert.KernelIdeal.τ Cert.KernelIdeal.sig)) (vK (Cert.KernelIdeal.main_arg9 : DevRef Cert.KernelIdeal.τ Cert.KernelIdeal.sig)) := by
  unfold_opsK
  after_line
  rfl

set_option maxRecDepth 8192 in
set_option maxHeartbeats 8000000 in
theorem readR (vR : VR) :
    after opsR vR (Cert.ReferenceIdeal.main_v42 : DevRef Cert.ReferenceIdeal.τ Cert.ReferenceIdeal.sig)
      = termR (after opsR vR (Cert.ReferenceIdeal.main_v4 : DevRef Cert.ReferenceIdeal.τ Cert.ReferenceIdeal.sig)) (after opsR vR (Cert.ReferenceIdeal.main_v6 : DevRef Cert.ReferenceIdeal.τ Cert.ReferenceIdeal.sig))
          (after opsR vR (Cert.ReferenceIdeal.main_v7 : DevRef Cert.ReferenceIdeal.τ Cert.ReferenceIdeal.sig)) (vR (Cert.ReferenceIdeal.main_arg9 : DevRef Cert.ReferenceIdeal.τ Cert.ReferenceIdeal.sig)) := by
  after_line
  rfl

/-! ## The two terms agree, transposed -/

section Math
open Cert.ReferenceIdeal Cert.ReferenceIdeal.Gen

/-- Column `a` of the index array at update `e`. -/
theorem idx3_apply0 (c0 c1 c2 : IVec S524288 32) (e : Fin 524288) : idx3 c0 c1 c2 (ix2 e (0 : Fin 3)) = c0 (ix1 e) := by
  unfold idx3
  refine (concatenate_apply_piece (1 : Fin 2) _ _ (ix2 e (0 : Fin 3)) 0 (by show (0 : ℕ) < 3; decide) S524288x1 _ rfl rfl 0 rfl (ix2 e (0 : Fin 1))
    (fun b hb => match b with | ⟨0, _⟩ => rfl | ⟨1, _⟩ => absurd rfl hb) rfl).trans ?_
  exact broadcastInDim_apply _ _ _ (ix2 e (0 : Fin 1)) (ix1 e) fun a => match a with | ⟨0, _⟩ => rfl

theorem idx3_apply1 (c0 c1 c2 : IVec S524288 32) (e : Fin 524288) : idx3 c0 c1 c2 (ix2 e (1 : Fin 3)) = c1 (ix1 e) := by
  unfold idx3
  refine (concatenate_apply_piece (1 : Fin 2) _ _ (ix2 e (1 : Fin 3)) 1 (by show (1 : ℕ) < 3; decide) S524288x1 _ rfl rfl 1 rfl (ix2 e (0 : Fin 1))
    (fun b hb => match b with | ⟨0, _⟩ => rfl | ⟨1, _⟩ => absurd rfl hb) rfl).trans ?_
  exact broadcastInDim_apply _ _ _ (ix2 e (0 : Fin 1)) (ix1 e) fun a => match a with | ⟨0, _⟩ => rfl

theorem idx3_apply2 (c0 c1 c2 : IVec S524288 32) (e : Fin 524288) : idx3 c0 c1 c2 (ix2 e (2 : Fin 3)) = c2 (ix1 e) := by
  unfold idx3
  refine (concatenate_apply_piece (1 : Fin 2) _ _ (ix2 e (2 : Fin 3)) 2 (by show (2 : ℕ) < 3; decide) S524288x1 _ rfl rfl 2 rfl (ix2 e (0 : Fin 1))
    (fun b hb => match b with | ⟨0, _⟩ => rfl | ⟨1, _⟩ => absurd rfl hb) rfl).trans ?_
  exact broadcastInDim_apply _ _ _ (ix2 e (0 : Fin 1)) (ix1 e) fun a => match a with | ⟨0, _⟩ => rfl

/-- An update lands on `(g, p, q)` exactly when its three columns, read signed, are `g`, `p`, `q`. -/
theorem lands_iff (wf : ScatterDims.WF S64x512x512 S524288x3 S524288 [] [0, 1, 2] [0, 1, 2] 1) (c0 c1 c2 : IVec S524288 32)
    (j : S524288.Idx) (g : Fin 64) (p q : Fin 512) :
    (TripleScatter.dims 64 512 512 524288 wf).resultIdx? j (idx3 c0 c1 c2) = some (ix3 g p q)
      ↔ ((c0 j).toInt = (g.val : Int) ∧ (c1 j).toInt = (p.val : Int) ∧ (c2 j).toInt = (q.val : Int)) := by
  obtain ⟨e, rfl⟩ : ∃ e : Fin 524288, j = ix1 e := ⟨j 0, eq_ix1 j⟩
  rw [TripleScatter.resultIdx?_eq_some_iff]
  constructor
  · intro h
    have h0 := h 0
    have h1 := h 1
    have h2 := h 2
    rw [idx3_apply0] at h0
    rw [idx3_apply1] at h1
    rw [idx3_apply2] at h2
    exact ⟨h0, h1, h2⟩
  · rintro ⟨h0, h1, h2⟩ a
    match a with
    | ⟨0, _⟩ => exact (congrArg BitVec.toInt (idx3_apply0 c0 c1 c2 e)).trans h0
    | ⟨1, _⟩ => exact (congrArg BitVec.toInt (idx3_apply1 c0 c1 c2 e)).trans h1
    | ⟨2, _⟩ => exact (congrArg BitVec.toInt (idx3_apply2 c0 c1 c2 e)).trans h2

/-- A scatter-add at full index triples, read at an entry: the operand there plus the updates whose columns name it. -/
theorem scatter_apply (wf : ScatterDims.WF S64x512x512 S524288x3 S524288 [] [0, 1, 2] [0, 1, 2] 1) (x : FVec Ideal S64x512x512 .f32)
    (c0 c1 c2 : IVec S524288 32) (u : FVec Ideal S524288 .f32) (g : Fin 64) (p q : Fin 512) :
    Host.scatterAdd (TripleScatter.dims 64 512 512 524288 wf) x (idx3 c0 c1 c2) u (ix3 g p q)
      = x (ix3 g p q) + ∑ j ∈ Finset.univ.filter (fun j : S524288.Idx =>
          (c0 j).toInt = (g.val : Int) ∧ (c1 j).toInt = (p.val : Int) ∧ (c2 j).toInt = (q.val : Int)), u j := by
  show x (ix3 g p q) + ∑ j ∈ Finset.univ.filter (fun j => (TripleScatter.dims 64 512 512 524288 wf).resultIdx? j (idx3 c0 c1 c2) = some (ix3 g p q)), u j = _
  rw [Finset.filter_congr fun j _ => lands_iff wf c0 c1 c2 j g p q]

/-- The identity matrix is symmetric. -/
theorem eye_symm (p q : Fin 512) : eye (ix2 p q) = eye (ix2 q p) := by
  show FloatOps.uitofp (F := Ideal) .f32 (IntOp.cmpi .eq (IntOp.addi (BitVec.ofNat 32 p.val) 0#32) (BitVec.ofNat 32 q.val))
    = FloatOps.uitofp (F := Ideal) .f32 (IntOp.cmpi .eq (IntOp.addi (BitVec.ofNat 32 q.val) 0#32) (BitVec.ofNat 32 p.val))
  congr 1
  simp only [IntOp.cmpi, IntOp.addi, BitVec.add_zero]
  rw [BEq.comm]

/-- A constant summed over a finite set is the constant times the count, on all extended reals. -/
theorem sum_const_mul {ι : Type} (E : Finset ι) (a : EReal) : ∑ _j ∈ E, a = a * ∑ _j ∈ E, (1 : EReal) := by
  classical
  induction E using Finset.induction_on with
  | empty => simp
  | insert j s hj ih =>
    rw [Finset.sum_insert hj, Finset.sum_insert hj, ih,
      EReal.left_distrib_of_nonneg zero_le_one (Finset.sum_nonneg fun _ _ => zero_le_one), mul_one]

/-- The kernel program's term at `(g, p, q)` is the reference's at `(g, q, p)`, the two inner columns exchanged. -/
theorem term_cross (c0 cD cS : IVec S524288 32) (α : FVec Ideal S_ .f32) (g : Fin 64) (p q : Fin 512) :
    termK c0 cD cS α (ix3 g p q) = termR c0 cS cD α (ix3 g q p) := by
  unfold termK termR
  rw [truncf_apply, addf_apply, mulf_apply]
  rw [show Cert.KernelIdeal.scatter_S64x512x512_S524288x3_S524288_n_012_012_1 = TripleScatter.dims 64 512 512 524288 Cert.KernelIdeal.Gen.scatter_S64x512x512_S524288x3_S524288_n_012_012_1_wf from rfl,
    show scatter_S64x512x512_S524288x3_S524288_n_012_012_1 = TripleScatter.dims 64 512 512 524288 scatter_S64x512x512_S524288x3_S524288_n_012_012_1_wf from rfl,
    scatter_apply, scatter_apply]
  rw [Finset.filter_congr (q := fun j : S524288.Idx => ((wrapNeg c0 64#32 j).toInt = (g.val : Int) ∧ (wrapNeg cD 512#32 j).toInt = (p.val : Int) ∧ (wrapNeg cS 512#32 j).toInt = (q.val : Int)))
    (fun j _ => and_congr_right fun _ => and_comm)]
  have hK : broadcastInDim S64x512x512 ![0, 1, 2] bcast_S1x512x512_S64x512x512_0_1_2
        (mulf (broadcastInDim S1x512x512 ![] Cert.KernelIdeal.Gen.bcast_S_S1x512x512 (subf (constant (F := Ideal) S_ .f32 0x3F800000#32) α))
          (broadcastInDim S1x512x512 ![1, 2] bcast_S512x512_S1x512x512_1_2 eye)) (ix3 g p q)
      = (1 - α ix0) * eye (ix2 p q) := by
    refine (broadcastInDim_apply _ _ _ (ix3 g p q) (ix3 (0 : Fin 1) p q) fun a => match a with | ⟨0, _⟩ => rfl | ⟨1, _⟩ => rfl | ⟨2, _⟩ => rfl).trans ?_
    rw [mulf_apply, broadcastInDim_scalar_apply, subf_apply, constant_apply, Ideal.ofBits_one_f32]
    exact congrArg _ (broadcastInDim_apply _ _ _ (ix3 (0 : Fin 1) p q) (ix2 p q) fun a => match a with | ⟨0, _⟩ => rfl | ⟨1, _⟩ => rfl)
  have hR : broadcastInDim S64x512x512 ![0, 1, 2] bcast_S1x512x512_S64x512x512_0_1_2
        (broadcastInDim S1x512x512 ![1, 2] bcast_S512x512_S1x512x512_1_2
          (mulf (broadcastInDim S512x512 ![] bcast_S_S512x512 (subf (constant (F := Ideal) S_ .f32 0x3F800000#32) α)) eye)) (ix3 g q p)
      = (1 - α ix0) * eye (ix2 q p) := by
    refine (broadcastInDim_apply _ _ _ (ix3 g q p) (ix3 (0 : Fin 1) q p) fun a => match a with | ⟨0, _⟩ => rfl | ⟨1, _⟩ => rfl | ⟨2, _⟩ => rfl).trans ?_
    refine (broadcastInDim_apply _ _ _ (ix3 (0 : Fin 1) q p) (ix2 q p) fun a => match a with | ⟨0, _⟩ => rfl | ⟨1, _⟩ => rfl).trans ?_
    rw [mulf_apply, broadcastInDim_scalar_apply, subf_apply, constant_apply, Ideal.ofBits_one_f32]
  have hU : ∀ j : S524288.Idx, broadcastInDim S524288 ![] bcast_S_S524288 α j = α ix0 := fun j => broadcastInDim_scalar_apply _ _ j
  have hO : ∀ j : S524288.Idx, broadcastInDim S524288 ![] bcast_S_S524288 (constant (F := Ideal) S_ .f32 0x3F800000#32) j = (1 : EReal) := fun j => by
    rw [broadcastInDim_scalar_apply, constant_apply, Ideal.ofBits_one_f32]
  have hZ : broadcastInDim S64x512x512 ![] bcast_S_S64x512x512 (constant (F := Ideal) S_ .f32 0x00000000#32) (ix3 g q p) = (0 : EReal) := by
    rw [broadcastInDim_scalar_apply, constant_apply, Ideal.ofBits_zero_f32]
  have hA : broadcastInDim S64x512x512 ![] bcast_S_S64x512x512 α (ix3 g q p) = α ix0 := broadcastInDim_scalar_apply _ _ _
  rw [hK, hR, eye_symm q p, hZ, hA, Finset.sum_congr rfl (fun j _ => hU j), Finset.sum_congr rfl (fun j _ => hO j), zero_add,
    sum_const_mul _ (α ix0), add_comm]

end Math

/-! ## The cross lemma -/

/-- The kernel program's adjacency array at `(g, p, q)` is the reference program's at `(g, q, p)`, when the two programs are
    launched on the same edge list and the same mixing weight. -/
theorem adj_cross (vK : VK) (vR : VR)
    (h2 : (vK (Cert.KernelIdeal.main_arg2 : DevRef Cert.KernelIdeal.τ Cert.KernelIdeal.sig) : Cert.KernelIdeal.S2x524288.Idx → BitVec 32) = vR (Cert.ReferenceIdeal.main_arg2 : DevRef Cert.ReferenceIdeal.τ Cert.ReferenceIdeal.sig))
    (h9 : (vK (Cert.KernelIdeal.main_arg9 : DevRef Cert.KernelIdeal.τ Cert.KernelIdeal.sig) : Cert.KernelIdeal.S_.Idx → EReal) = vR (Cert.ReferenceIdeal.main_arg9 : DevRef Cert.ReferenceIdeal.τ Cert.ReferenceIdeal.sig))
    (g : Fin 64) (p q : Fin 512) :
    (after (List.flatten [Cert.KernelIdeal.Gen.hostOps0 (F := Ideal), Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6])
        vK (Cert.KernelIdeal.main_v39 : DevRef Cert.KernelIdeal.τ Cert.KernelIdeal.sig) : Cert.KernelIdeal.S64x512x512.Idx → EReal) (ix3 g p q)
      = (after (Cert.ReferenceIdeal.RefRun.opsA (F := Ideal)) vR (Cert.ReferenceIdeal.main_v42 : DevRef Cert.ReferenceIdeal.τ Cert.ReferenceIdeal.sig) : Cert.ReferenceIdeal.S64x512x512.Idx → EReal) (ix3 g q p) := by
  have eK := readK vK
  rw [col_graph vK vR h2, col_dst vK vR h2, col_src vK vR h2, h9] at eK
  exact (congrFun eK (ix3 g p q)).trans ((term_cross _ _ _ _ g p q).trans (congrFun (readR vR) (ix3 g q p)).symm)

end Cert.AdjCross

end
-- ==== Proof.lean ====
/- The proof of `Cert.Claim`: a graph-convolution network (two degree-two polynomial layers over per-graph
   adjacencies built by a scatter-add, a maximum over each graph's nodes, an output projection) computed by a
   feature-major kernel over groups of eight graphs, against its node-major reference.
   The three frames: the kernel programs' by the pipeline's frame theorem over a body that loads its eight blocks,
   computes and stores one block; the reference's by the run of its straight line of host operations.
   The idealization rewrote nothing. On the extended reals the two results agree entry by entry: the kernel's result
   array is the feature-major network of the arrays its host operations prepare, the reference's the node-major
   network, the prepared arrays are the reference's read at transposed coordinates (for the adjacency: the same
   updates land on transposed positions, and a sum of equal terms is that term times the count), and the two
   networks differ only in the order of the factors of each product. -/
import proofs.«104581_j39402029973528_2_alg».proof.Defs
import proofs.«104581_j39402029973528_2_alg».proof.Proof.Gen.Kernel
import proofs.«104581_j39402029973528_2_alg».proof.Proof.Gen.KernelIdeal
import proofs.«104581_j39402029973528_2_alg».proof.Proof.Gen.ReferenceIdeal
import proofs.«104581_j39402029973528_2_alg».proof.Proof.Gen.Pre_finite_inputs
import proofs.«104581_j39402029973528_2_alg».proof.Proof.FrameKernel
import proofs.«104581_j39402029973528_2_alg».proof.Proof.FrameKernelIdeal
import proofs.«104581_j39402029973528_2_alg».proof.Proof.Bridge
import proofs.«104581_j39402029973528_2_alg».proof.Proof.AdjCross
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => ⟨(h c Cert.ReferenceIdeal.main_arg0).trans (Cert.ReferenceIdeal.RefValue.kept_arg0 _),
      (h c Cert.ReferenceIdeal.main_arg1).trans (Cert.ReferenceIdeal.RefValue.kept_arg1 _),
      (h c Cert.ReferenceIdeal.main_arg2).trans (Cert.ReferenceIdeal.RefValue.kept_arg2 _),
      (h c Cert.ReferenceIdeal.main_arg3).trans (Cert.ReferenceIdeal.RefValue.kept_arg3 _),
      (h c Cert.ReferenceIdeal.main_arg4).trans (Cert.ReferenceIdeal.RefValue.kept_arg4 _),
      (h c Cert.ReferenceIdeal.main_arg5).trans (Cert.ReferenceIdeal.RefValue.kept_arg5 _),
      (h c Cert.ReferenceIdeal.main_arg6).trans (Cert.ReferenceIdeal.RefValue.kept_arg6 _),
      (h c Cert.ReferenceIdeal.main_arg7).trans (Cert.ReferenceIdeal.RefValue.kept_arg7 _),
      (h c Cert.ReferenceIdeal.main_arg8).trans (Cert.ReferenceIdeal.RefValue.kept_arg8 _),
      (h c Cert.ReferenceIdeal.main_arg9).trans (Cert.ReferenceIdeal.RefValue.kept_arg9 _)⟩)
    (Cert.ReferenceIdeal.RefRun.run (F := Ideal) m ρ)

theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c Cert.ReferenceIdeal.main_v82).trans ?_,
      (h c Cert.ReferenceIdeal.main_arg0).trans (Cert.ReferenceIdeal.RefValue.kept_arg0 _),
      (h c Cert.ReferenceIdeal.main_arg1).trans (Cert.ReferenceIdeal.RefValue.kept_arg1 _),
      (h c Cert.ReferenceIdeal.main_arg2).trans (Cert.ReferenceIdeal.RefValue.kept_arg2 _),
      (h c Cert.ReferenceIdeal.main_arg3).trans (Cert.ReferenceIdeal.RefValue.kept_arg3 _),
      (h c Cert.ReferenceIdeal.main_arg4).trans (Cert.ReferenceIdeal.RefValue.kept_arg4 _),
      (h c Cert.ReferenceIdeal.main_arg5).trans (Cert.ReferenceIdeal.RefValue.kept_arg5 _),
      (h c Cert.ReferenceIdeal.main_arg6).trans (Cert.ReferenceIdeal.RefValue.kept_arg6 _),
      (h c Cert.ReferenceIdeal.main_arg7).trans (Cert.ReferenceIdeal.RefValue.kept_arg7 _),
      (h c Cert.ReferenceIdeal.main_arg8).trans (Cert.ReferenceIdeal.RefValue.kept_arg8 _),
      (h c Cert.ReferenceIdeal.main_arg9).trans (Cert.ReferenceIdeal.RefValue.kept_arg9 _)⟩)
    (Cert.ReferenceIdeal.RefRun.run (F := Ideal) m' ρ')
  obtain ⟨h0, h1, h2, h3, h4, h5, h6, h7, h8, h9⟩ := hagree c
  exact Cert.Bridge.values_agree m m' c h0 h3 h4 h5 h6 h7 h8
    (fun g p q => Cert.AdjCross.adj_cross (Cert.Bridge.VK m c) (Cert.Bridge.VR m' c) h2.symm h9.symm g p q)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
